-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128x1 : Shape := ⟨3, ![8192, 128, 1]⟩
abbrev S8192x64x3 : Shape := ⟨3, ![8192, 64, 3]⟩
abbrev S8192x32x5 : Shape := ⟨3, ![8192, 32, 5]⟩
abbrev S64x21504 : Shape := ⟨2, ![64, 21504]⟩
abbrev S64 : Shape := ⟨1, ![64]⟩
abbrev S_ : Shape := ⟨0, ![]⟩

class Facts : Prop where
  bcast_S_S8192x128x1 : S_.BroadcastsInDim S8192x128x1 (![] : Fin 0 → Fin S8192x128x1.rank)
  reducesTo_S8192x128x1_S_d0_1_2 : S8192x128x1.ReducesTo [0, 1, 2] S_
  h_S_ : 0 < S_.numel
  bcast_S_S8192x64x3 : S_.BroadcastsInDim S8192x64x3 (![] : Fin 0 → Fin S8192x64x3.rank)
  reducesTo_S8192x64x3_S_d0_1_2 : S8192x64x3.ReducesTo [0, 1, 2] S_
  bcast_S_S8192x32x5 : S_.BroadcastsInDim S8192x32x5 (![] : Fin 0 → Fin S8192x32x5.rank)
  reducesTo_S8192x32x5_S_d0_1_2 : S8192x32x5.ReducesTo [0, 1, 2] S_
  bcast_S_S64x21504 : S_.BroadcastsInDim S64x21504 (![] : Fin 0 → Fin S64x21504.rank)
  reducesTo_S64x21504_S_d0_1 : S64x21504.ReducesTo [0, 1] S_

variable [Facts]

def fn_part1 {F : FTy → Type} [FloatOps F] (main_v13 : IVec S_ 1) (main_v16 : IVec S64x21504 1) : IVec S_ 1 :=
  let main_c_5 : IVec S_ 1 := constantI S_ 1 1#1
  let main_v17 : IVec S_ 1 := (fun x v => Host.reduce IntOp.andi x v reducesTo_S64x21504_S_d0_1 h_S_) main_v16 main_c_5
  let main_v18 : IVec S_ 1 := andi main_v13 main_v17
  main_v18

def fn {F : FTy → Type} [FloatOps F] (main_arg0 : FVec F S8192x128x1 .f32) (main_arg1 : FVec F S8192x64x3 .f32) (main_arg2 : FVec F S8192x32x5 .f32) (main_arg3 : FVec F S64x21504 .f32) (main_arg4 : IVec S64 32) : IVec S_ 1 :=
  let main_v0 : FVec F S8192x128x1 .f32 := Host.absf main_arg0
  let main_cst : FVec F S_ .f32 := constant S_ .f32 0x7F800000#32
  let main_v1 : FVec F S8192x128x1 .f32 := broadcastInDim S8192x128x1 ![] bcast_S_S8192x128x1 main_cst
  let main_v2 : IVec S8192x128x1 1 := cmpf .olt main_v0 main_v1
  let main_c : IVec S_ 1 := constantI S_ 1 1#1
  let main_v3 : IVec S_ 1 := (fun x v => Host.reduce IntOp.andi x v reducesTo_S8192x128x1_S_d0_1_2 h_S_) main_v2 main_c
  let main_v4 : FVec F S8192x64x3 .f32 := Host.absf main_arg1
  let main_cst_0 : FVec F S_ .f32 := constant S_ .f32 0x7F800000#32
  let main_v5 : FVec F S8192x64x3 .f32 := broadcastInDim S8192x64x3 ![] bcast_S_S8192x64x3 main_cst_0
  let main_v6 : IVec S8192x64x3 1 := cmpf .olt main_v4 main_v5
  let main_c_1 : IVec S_ 1 := constantI S_ 1 1#1
  let main_v7 : IVec S_ 1 := (fun x v => Host.reduce IntOp.andi x v reducesTo_S8192x64x3_S_d0_1_2 h_S_) main_v6 main_c_1
  let main_v8 : IVec S_ 1 := andi main_v3 main_v7
  let main_v9 : FVec F S8192x32x5 .f32 := Host.absf main_arg2
  let main_cst_2 : FVec F S_ .f32 := constant S_ .f32 0x7F800000#32
  let main_v10 : FVec F S8192x32x5 .f32 := broadcastInDim S8192x32x5 ![] bcast_S_S8192x32x5 main_cst_2
  let main_v11 : IVec S8192x32x5 1 := cmpf .olt main_v9 main_v10
  let main_c_3 : IVec S_ 1 := constantI S_ 1 1#1
  let main_v12 : IVec S_ 1 := (fun x v => Host.reduce IntOp.andi x v reducesTo_S8192x32x5_S_d0_1_2 h_S_) main_v11 main_c_3
  let main_v13 : IVec S_ 1 := andi main_v8 main_v12
  let main_v14 : FVec F S64x21504 .f32 := Host.absf main_arg3
  let main_cst_4 : FVec F S_ .f32 := constant S_ .f32 0x7F800000#32
  let main_v15 : FVec F S64x21504 .f32 := broadcastInDim S64x21504 ![] bcast_S_S64x21504 main_cst_4
  let main_v16 : IVec S64x21504 1 := cmpf .olt main_v14 main_v15
  fn_part1 (F := F) main_v13 main_v16
-- ==== Kernel.lean ====
abbrev S8192x128x1 : Shape := ⟨3, ![8192, 128, 1]⟩
abbrev S8192x64x3 : Shape := ⟨3, ![8192, 64, 3]⟩
abbrev S8192x32x5 : Shape := ⟨3, ![8192, 32, 5]⟩
abbrev S64x21504 : Shape := ⟨2, ![64, 21504]⟩
abbrev S64 : Shape := ⟨1, ![64]⟩
abbrev S1 : Shape := ⟨1, ![1]⟩
abbrev S63 : Shape := ⟨1, ![63]⟩
abbrev S_ : Shape := ⟨0, ![]⟩
abbrev S8192 : Shape := ⟨1, ![8192]⟩
abbrev S64x1 : Shape := ⟨2, ![64, 1]⟩
abbrev S8192x1 : Shape := ⟨2, ![8192, 1]⟩
abbrev S1x1 : Shape := ⟨2, ![1, 1]⟩
abbrev S64x16384 : Shape := ⟨2, ![64, 16384]⟩
abbrev S128x128x1 : Shape := ⟨3, ![128, 128, 1]⟩
abbrev S128x1 : Shape := ⟨2, ![128, 1]⟩
abbrev S128x64 : Shape := ⟨2, ![128, 64]⟩
abbrev S128x16384 : Shape := ⟨2, ![128, 16384]⟩
abbrev S128x128x128 : Shape := ⟨3, ![128, 128, 128]⟩
abbrev S64x4096 : Shape := ⟨2, ![64, 4096]⟩
abbrev S256x64x3 : Shape := ⟨3, ![256, 64, 3]⟩
abbrev S256x1 : Shape := ⟨2, ![256, 1]⟩
abbrev S256x64 : Shape := ⟨2, ![256, 64]⟩
abbrev S256x4096 : Shape := ⟨2, ![256, 4096]⟩
abbrev S256x64x64 : Shape := ⟨3, ![256, 64, 64]⟩
abbrev S64x1024 : Shape := ⟨2, ![64, 1024]⟩
abbrev S256x32x5 : Shape := ⟨3, ![256, 32, 5]⟩
abbrev S256x1024 : Shape := ⟨2, ![256, 1024]⟩
abbrev S256x32x32 : Shape := ⟨3, ![256, 32, 32]⟩

abbrev nBuf : Space → Nat
  | .hbm => 70
  | .vmem => 21
  | .smem => 0
  | _ => 0

abbrev bufTy : (tb : Table) → Fin (tcTables nBuf tb) → BufTy
  | .hbm, ⟨0, _⟩ => ⟨S8192x128x1, .f32⟩
  | .hbm, ⟨1, _⟩ => ⟨S8192x64x3, .f32⟩
  | .hbm, ⟨2, _⟩ => ⟨S8192x32x5, .f32⟩
  | .hbm, ⟨3, _⟩ => ⟨S64x21504, .f32⟩
  | .hbm, ⟨4, _⟩ => ⟨S64, .i32⟩
  | .hbm, ⟨5, _⟩ => ⟨S64, .i32⟩
  | .hbm, ⟨6, _⟩ => ⟨S1, .i32⟩
  | .hbm, ⟨7, _⟩ => ⟨S63, .i32⟩
  | .hbm, ⟨8, _⟩ => ⟨S64, .i32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S64, .i32⟩
  | .hbm, ⟨13, _⟩ => ⟨S_, .i32⟩
  | .hbm, ⟨14, _⟩ => ⟨S_, .i32⟩
  | .hbm, ⟨15, _⟩ => ⟨S64, .i32⟩
  | .hbm, ⟨16, _⟩ => ⟨S_, .i32⟩
  | .hbm, ⟨17, _⟩ => ⟨S8192, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S64, .i32⟩
  | .hbm, ⟨25, _⟩ => ⟨S64x1, .i32⟩
  | .hbm, ⟨26, _⟩ => ⟨S_, .i32⟩
  | .hbm, ⟨27, _⟩ => ⟨S64, .i32⟩
  | .hbm, ⟨28, _⟩ => ⟨S8192, .i32⟩
  | .hbm, ⟨29, _⟩ => ⟨S_, .i32⟩
  | .hbm, ⟨30, _⟩ => ⟨S_, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S1, .i32⟩
  | .hbm, ⟨44, _⟩ => ⟨S_, .i32⟩
  | .hbm, ⟨45, _⟩ => ⟨S8192x1, .i32⟩
  | .hbm, ⟨46, _⟩ => ⟨S8192x1, .i1⟩
  | .hbm, ⟨47, _⟩ => ⟨S1x1, .i32⟩
  | .hbm, ⟨48, _⟩ => ⟨S8192x1, .i32⟩
  | .hbm, ⟨49, _⟩ => ⟨S8192x1, .i1⟩
  | .hbm, ⟨50, _⟩ => ⟨S8192x1, .i1⟩
  | .hbm, ⟨51, _⟩ => ⟨S_, .i1⟩
  | .hbm, ⟨52, _⟩ => ⟨S8192, .i1⟩
  | .hbm, ⟨53, _⟩ => ⟨S8192, .i32⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S8192x1, .i32⟩
  | .hbm, ⟨58, _⟩ => ⟨S64x16384, .f32⟩
  | .hbm, ⟨59, _⟩ => ⟨S64x16384, .bf16⟩
  | .hbm, ⟨60, _⟩ => ⟨S8192x128x1, .bf16⟩
  | .hbm, ⟨61, _⟩ => ⟨S8192x128x1, .f32⟩
  | .hbm, ⟨62, _⟩ => ⟨S64x4096, .f32⟩
  | .hbm, ⟨63, _⟩ => ⟨S64x4096, .bf16⟩
  | .hbm, ⟨64, _⟩ => ⟨S8192x64x3, .bf16⟩
  | .hbm, ⟨65, _⟩ => ⟨S8192x64x3, .f32⟩
  | .hbm, ⟨66, _⟩ => ⟨S64x1024, .f32⟩
  | .hbm, ⟨67, _⟩ => ⟨S64x1024, .bf16⟩
  | .hbm, ⟨68, _⟩ => ⟨S8192x32x5, .bf16⟩
  | .hbm, ⟨69, _⟩ => ⟨S8192x32x5, .f32⟩
  | .local _ .vmem, ⟨0, _⟩ => ⟨S128x128x1, .bf16⟩
  | .local _ .vmem, ⟨1, _⟩ => ⟨S128x128x1, .bf16⟩
  | .local _ .vmem, ⟨2, _⟩ => ⟨S128x1, .i32⟩
  | .local _ .vmem, ⟨3, _⟩ => ⟨S128x1, .i32⟩
  | .local _ .vmem, ⟨4, _⟩ => ⟨S64x16384, .bf16⟩
  | .local _ .vmem, ⟨5, _⟩ => ⟨S128x128x1, .f32⟩
  | .local _ .vmem, ⟨6, _⟩ => ⟨S128x128x1, .f32⟩
  | .local _ .vmem, ⟨7, _⟩ => ⟨S256x64x3, .bf16⟩
  | .local _ .vmem, ⟨8, _⟩ => ⟨S256x64x3, .bf16⟩
  | .local _ .vmem, ⟨9, _⟩ => ⟨S256x1, .i32⟩
  | .local _ .vmem, ⟨10, _⟩ => ⟨S256x1, .i32⟩
  | .local _ .vmem, ⟨11, _⟩ => ⟨S64x4096, .bf16⟩
  | .local _ .vmem, ⟨12, _⟩ => ⟨S256x64x3, .f32⟩
  | .local _ .vmem, ⟨13, _⟩ => ⟨S256x64x3, .f32⟩
  | .local _ .vmem, ⟨14, _⟩ => ⟨S256x32x5, .bf16⟩
  | .local _ .vmem, ⟨15, _⟩ => ⟨S256x32x5, .bf16⟩
  | .local _ .vmem, ⟨16, _⟩ => ⟨S256x1, .i32⟩
  | .local _ .vmem, ⟨17, _⟩ => ⟨S256x1, .i32⟩
  | .local _ .vmem, ⟨18, _⟩ => ⟨S64x1024, .bf16⟩
  | .local _ .vmem, ⟨19, _⟩ => ⟨S256x32x5, .f32⟩
  | .local _ .vmem, ⟨20, _⟩ => ⟨S256x32x5, .f32⟩
  | _, _ => ⟨S8192x128x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_call1_call0_c : Ref sig .tc := ⟨.hbm, 13, rfl⟩
abbrev main_call1_call0_v0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_call2_call0_c : Ref sig .tc := ⟨.hbm, 29, rfl⟩
abbrev main_call2_call0_v0 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_c_4 : Ref sig .tc := ⟨.hbm, 54, rfl⟩
abbrev main_call3_v14 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128x1 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x64x3 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x32x5 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x32x5 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S64_S1_63 : S64.Slices ![63] S1
  slices_S64_S63_0 : S64.Slices ![0] S63
  concatenates_S1_S63_S64_d0 : Shape.Concatenates [S1, S63] S64 0
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S8192 : S_.BroadcastsInDim S8192 (![] : Fin 0 → Fin S8192.rank)
  bcast_S_S64 : S_.BroadcastsInDim S64 (![] : Fin 0 → Fin S64.rank)
  bcast_S64_S64x1_0 : S64.BroadcastsInDim S64x1 (![0] : Fin 1 → Fin S64x1.rank)
  reduceWindows_S8192_S8192_w8192s1p8191_0 : S8192.ReduceWindows (![8192] : Fin 1 → Nat) ![1] ![8191] ![0] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  shapeCasts_S8192_S8192x1 : S8192.ShapeCasts S8192x1
  slices_S64x21504_S64x16384_0_0 : S64x21504.Slices ![0, 0] S64x16384
  bitsLt_bf16_f32 : FTy.bits .bf16 < FTy.bits .f32
  iota_S128x64_d1_w32 : S128x64.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x64 : S128x1.Broadcasts S128x64
  natLt_1_32 : 1 < 32
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  shapeCasts_S128x16384_S128x128x128 : S128x16384.ShapeCasts S128x128x128
  inb_S128x128x1_S128x128x1_0_0_0 : ∀ a, (![0, 0, 0] : Fin 3 → Nat) a + S128x128x1.size a ≤ S128x128x1.size a
  h_S128x128x1 : 0 < S128x128x1.numel
  shapeCasts_S128x128x1_S128x128x1 : S128x128x1.ShapeCasts S128x128x1
  slices_S64x21504_S64x4096_0_16384 : S64x21504.Slices ![0, 16384] S64x4096
  iota_S256x64_d1_w32 : S256x64.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x64 : S256x1.Broadcasts S256x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  shapeCasts_S256x4096_S256x64x64 : S256x4096.ShapeCasts S256x64x64
  inb_S256x64x3_S256x64x3_0_0_0 : ∀ a, (![0, 0, 0] : Fin 3 → Nat) a + S256x64x3.size a ≤ S256x64x3.size a
  h_S256x64x3 : 0 < S256x64x3.numel
  shapeCasts_S256x64x3_S256x64x3 : S256x64x3.ShapeCasts S256x64x3
  slices_S64x21504_S64x1024_0_20480 : S64x21504.Slices ![0, 20480] S64x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S256x1024_S256x32x32 : S256x1024.ShapeCasts S256x32x32
  inb_S256x32x5_S256x32x5_0_0_0 : ∀ a, (![0, 0, 0] : Fin 3 → Nat) a + S256x32x5.size a ≤ S256x32x5.size a
  h_S256x32x5 : 0 < S256x32x5.numel
  shapeCasts_S256x32x5_S256x32x5 : S256x32x5.ShapeCasts S256x32x5
  scatter_S64_S1_S__n_0_0_0_wf : ScatterDims.WF S64 S1 S_ [] [0] [0] 0
  scatter_S8192_S64x1_S64_n_0_0_1_wf : ScatterDims.WF S8192 S64x1 S64 [] [0] [0] 1
  gather_S64_S8192x1_S8192_n_0_n_n_0_1_1_wf : GatherDims.WF S64 S8192x1 S8192 [] [0] [] [0] [] 1 ![1]
  dot_S128x64_S64x16384_S128x16384_1_0_0_1_n_n_wf : DotDims.WF S128x64 S64x16384 S128x16384 [1] [0] [0] [1] [] []
  dot_S128x128x128_S128x128x1_S128x128x1_1_1_2_2_0_0_wf : DotDims.WF S128x128x128 S128x128x1 S128x128x1 [1] [1] [2] [2] [0] [0]
  dot_S256x64_S64x4096_S256x4096_1_0_0_1_n_n_wf : DotDims.WF S256x64 S64x4096 S256x4096 [1] [0] [0] [1] [] []
  dot_S256x64x64_S256x64x3_S256x64x3_1_1_2_2_0_0_wf : DotDims.WF S256x64x64 S256x64x3 S256x64x3 [1] [1] [2] [2] [0] [0]
  dot_S256x64_S64x1024_S256x1024_1_0_0_1_n_n_wf : DotDims.WF S256x64 S64x1024 S256x1024 [1] [0] [0] [1] [] []
  dot_S256x32x32_S256x32x5_S256x32x5_1_1_2_2_0_0_wf : DotDims.WF S256x32x32 S256x32x5 S256x32x5 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x1.size a ≤ S8192x128x1.size a
  hwx0_0 : ∀ i : grid0.Coords, EltTy.bits .bf16 = 32 ∨ (Rect.block (s := S8192x128x1) S128x128x1.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16384.size a ≤ S64x16384.size a
  hwx0_2 : ∀ i : grid0.Coords, EltTy.bits .bf16 = 32 ∨ (Rect.block (s := S64x16384) S64x16384.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128x1.size a ≤ S8192x128x1.size a
  hwx0_3 : ∀ i : grid0.Coords, EltTy.bits .f32 = 32 ∨ (Rect.block (s := S8192x128x1) S128x128x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64x3.size a ≤ S8192x64x3.size a
  hwx1_0 : ∀ i : grid1.Coords, EltTy.bits .bf16 = 32 ∨ (Rect.block (s := S8192x64x3) S256x64x3.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S8192x1.size a
  hwx1_1 : ∀ i : grid1.Coords, EltTy.bits .i32 = 32 ∨ (Rect.block (s := S8192x1) S256x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x4096.size a ≤ S64x4096.size a
  hwx1_2 : ∀ i : grid1.Coords, EltTy.bits .bf16 = 32 ∨ (Rect.block (s := S64x4096) S64x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64x3.size a ≤ S8192x64x3.size a
  hwx1_3 : ∀ i : grid1.Coords, EltTy.bits .f32 = 32 ∨ (Rect.block (s := S8192x64x3) S256x64x3.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x32x5.size a ≤ S8192x32x5.size a
  hwx2_0 : ∀ i : grid2.Coords, EltTy.bits .bf16 = 32 ∨ (Rect.block (s := S8192x32x5) S256x32x5.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S8192x1.size a
  hwx2_1 : ∀ i : grid2.Coords, EltTy.bits .i32 = 32 ∨ (Rect.block (s := S8192x1) S256x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1024.size a ≤ S64x1024.size a
  hwx2_2 : ∀ i : grid2.Coords, EltTy.bits .bf16 = 32 ∨ (Rect.block (s := S64x1024) S64x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x32x5.size a ≤ S8192x32x5.size a
  hwx2_3 : ∀ i : grid2.Coords, EltTy.bits .f32 = 32 ∨ (Rect.block (s := S8192x32x5) S256x32x5.size (cc2_transform_3 i) (hinb2_3 i)).WholeWords (EltTy.packing .f32)

variable [Facts₀]

def scatter_S64_S1_S__n_0_0_0 : ScatterDims S64 S1 S_ where
  updateWindowDims := []
  insertedWindowDims := [0]
  scatterDimsToOperandDims := [0]
  indexVectorDim := 0
  wf := scatter_S64_S1_S__n_0_0_0_wf
def scatter_S8192_S64x1_S64_n_0_0_1 : ScatterDims S8192 S64x1 S64 where
  updateWindowDims := []
  insertedWindowDims := [0]
  scatterDimsToOperandDims := [0]
  indexVectorDim := 1
  wf := scatter_S8192_S64x1_S64_n_0_0_1_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def dot_S128x64_S64x16384_S128x16384_1_0_0_1_n_n : DotDims S128x64 S64x16384 S128x16384 where
  lhsContracting := [1]
  rhsContracting := [0]
  lhsNonContracting := [0]
  rhsNonContracting := [1]
  lhsBatch := []
  rhsBatch := []
  wf := dot_S128x64_S64x16384_S128x16384_1_0_0_1_n_n_wf
def dot_S128x128x128_S128x128x1_S128x128x1_1_1_2_2_0_0 : DotDims S128x128x128 S128x128x1 S128x128x1 where
  lhsContracting := [1]
  rhsContracting := [1]
  lhsNonContracting := [2]
  rhsNonContracting := [2]
  lhsBatch := [0]
  rhsBatch := [0]
  wf := dot_S128x128x128_S128x128x1_S128x128x1_1_1_2_2_0_0_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x64x64_S256x64x3_S256x64x3_1_1_2_2_0_0 : DotDims S256x64x64 S256x64x3 S256x64x3 where
  lhsContracting := [1]
  rhsContracting := [1]
  lhsNonContracting := [2]
  rhsNonContracting := [2]
  lhsBatch := [0]
  rhsBatch := [0]
  wf := dot_S256x64x64_S256x64x3_S256x64x3_1_1_2_2_0_0_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf
def dot_S256x32x32_S256x32x5_S256x32x5_1_1_2_2_0_0 : DotDims S256x32x32 S256x32x5 S256x32x5 where
  lhsContracting := [1]
  rhsContracting := [1]
  lhsNonContracting := [2]
  rhsNonContracting := [2]
  lhsBatch := [0]
  rhsBatch := [0]
  wf := dot_S256x32x32_S256x32x5_S256x32x5_1_1_2_2_0_0_wf

abbrev win0_0 : Pipeline.Window sig grid0 :=
  Pipeline.Window.ofSpec (Memref.whole main_v21) S128x128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S256x64x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S64x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S256x64x3.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S256x32x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S256x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S64x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S256x32x5.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x128x1 : Shape := ⟨3, ![8192, 128, 1]⟩
abbrev S8192x64x3 : Shape := ⟨3, ![8192, 64, 3]⟩
abbrev S8192x32x5 : Shape := ⟨3, ![8192, 32, 5]⟩
abbrev S64x21504 : Shape := ⟨2, ![64, 21504]⟩
abbrev S64 : Shape := ⟨1, ![64]⟩
abbrev S1 : Shape := ⟨1, ![1]⟩
abbrev S63 : Shape := ⟨1, ![63]⟩
abbrev S_ : Shape := ⟨0, ![]⟩
abbrev S8192 : Shape := ⟨1, ![8192]⟩
abbrev S64x1 : Shape := ⟨2, ![64, 1]⟩
abbrev S8192x1 : Shape := ⟨2, ![8192, 1]⟩
abbrev S1x1 : Shape := ⟨2, ![1, 1]⟩
abbrev S64x16384 : Shape := ⟨2, ![64, 16384]⟩
abbrev S64x128x128 : Shape := ⟨3, ![64, 128, 128]⟩
abbrev S8192x128x128 : Shape := ⟨3, ![8192, 128, 128]⟩
abbrev S64x4096 : Shape := ⟨2, ![64, 4096]⟩
abbrev S64x64x64 : Shape := ⟨3, ![64, 64, 64]⟩
abbrev S8192x64x64 : Shape := ⟨3, ![8192, 64, 64]⟩
abbrev S64x1024 : Shape := ⟨2, ![64, 1024]⟩
abbrev S64x32x32 : Shape := ⟨3, ![64, 32, 32]⟩
abbrev S8192x32x32 : Shape := ⟨3, ![8192, 32, 32]⟩

abbrev nBuf : Space → Nat
  | .hbm => 102
  | .vmem => 0
  | .smem => 0
  | _ => 0

abbrev bufTy : (tb : Table) → Fin (tcTables nBuf tb) → BufTy
  | .hbm, ⟨0, _⟩ => ⟨S8192x128x1, .f32⟩
  | .hbm, ⟨1, _⟩ => ⟨S8192x64x3, .f32⟩
  | .hbm, ⟨2, _⟩ => ⟨S8192x32x5, .f32⟩
  | .hbm, ⟨3, _⟩ => ⟨S64x21504, .f32⟩
  | .hbm, ⟨4, _⟩ => ⟨S64, .i32⟩
  | .hbm, ⟨5, _⟩ => ⟨S64, .i32⟩
  | .hbm, ⟨6, _⟩ => ⟨S1, .i32⟩
  | .hbm, ⟨7, _⟩ => ⟨S63, .i32⟩
  | .hbm, ⟨8, _⟩ => ⟨S64, .i32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S64, .i32⟩
  | .hbm, ⟨13, _⟩ => ⟨S_, .i32⟩
  | .hbm, ⟨14, _⟩ => ⟨S_, .i32⟩
  | .hbm, ⟨15, _⟩ => ⟨S64, .i32⟩
  | .hbm, ⟨16, _⟩ => ⟨S_, .i32⟩
  | .hbm, ⟨17, _⟩ => ⟨S8192, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S64, .i32⟩
  | .hbm, ⟨25, _⟩ => ⟨S64x1, .i32⟩
  | .hbm, ⟨26, _⟩ => ⟨S_, .i32⟩
  | .hbm, ⟨27, _⟩ => ⟨S64, .i32⟩
  | .hbm, ⟨28, _⟩ => ⟨S8192, .i32⟩
  | .hbm, ⟨29, _⟩ => ⟨S_, .i32⟩
  | .hbm, ⟨30, _⟩ => ⟨S_, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S1, .i32⟩
  | .hbm, ⟨44, _⟩ => ⟨S_, .i32⟩
  | .hbm, ⟨45, _⟩ => ⟨S8192x1, .i32⟩
  | .hbm, ⟨46, _⟩ => ⟨S8192x1, .i1⟩
  | .hbm, ⟨47, _⟩ => ⟨S1x1, .i32⟩
  | .hbm, ⟨48, _⟩ => ⟨S8192x1, .i32⟩
  | .hbm, ⟨49, _⟩ => ⟨S8192x1, .i1⟩
  | .hbm, ⟨50, _⟩ => ⟨S8192x1, .i1⟩
  | .hbm, ⟨51, _⟩ => ⟨S_, .i1⟩
  | .hbm, ⟨52, _⟩ => ⟨S8192, .i1⟩
  | .hbm, ⟨53, _⟩ => ⟨S8192, .i32⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S64x16384, .f32⟩
  | .hbm, ⟨58, _⟩ => ⟨S64x128x128, .f32⟩
  | .hbm, ⟨59, _⟩ => ⟨S_, .i32⟩
  | .hbm, ⟨60, _⟩ => ⟨S8192, .i32⟩
  | .hbm, ⟨61, _⟩ => ⟨S8192, .i1⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S8192, .i32⟩
  | .hbm, ⟨66, _⟩ => ⟨S8192x1, .i32⟩
  | .hbm, ⟨67, _⟩ => ⟨S8192x128x128, .f32⟩
  | .hbm, ⟨68, _⟩ => ⟨S8192x128x1, .f32⟩
  | .hbm, ⟨69, _⟩ => ⟨S_, .f32⟩
  | .hbm, ⟨70, _⟩ => ⟨S8192x128x1, .f32⟩
  | .hbm, ⟨71, _⟩ => ⟨S8192x128x1, .f32⟩
  | .hbm, ⟨72, _⟩ => ⟨S64x4096, .f32⟩
  | .hbm, ⟨73, _⟩ => ⟨S64x64x64, .f32⟩
  | .hbm, ⟨74, _⟩ => ⟨S_, .i32⟩
  | .hbm, ⟨75, _⟩ => ⟨S8192, .i32⟩
  | .hbm, ⟨76, _⟩ => ⟨S8192, .i1⟩
  | .hbm, ⟨77, _⟩ => ⟨S_, .i32⟩
  | .hbm, ⟨78, _⟩ => ⟨S8192, .i32⟩
  | .hbm, ⟨79, _⟩ => ⟨S8192, .i32⟩
  | .hbm, ⟨80, _⟩ => ⟨S8192, .i32⟩
  | .hbm, ⟨81, _⟩ => ⟨S8192x1, .i32⟩
  | .hbm, ⟨82, _⟩ => ⟨S8192x64x64, .f32⟩
  | .hbm, ⟨83, _⟩ => ⟨S8192x64x3, .f32⟩
  | .hbm, ⟨84, _⟩ => ⟨S_, .f32⟩
  | .hbm, ⟨85, _⟩ => ⟨S8192x64x3, .f32⟩
  | .hbm, ⟨86, _⟩ => ⟨S8192x64x3, .f32⟩
  | .hbm, ⟨87, _⟩ => ⟨S64x1024, .f32⟩
  | .hbm, ⟨88, _⟩ => ⟨S64x32x32, .f32⟩
  | .hbm, ⟨89, _⟩ => ⟨S_, .i32⟩
  | .hbm, ⟨90, _⟩ => ⟨S8192, .i32⟩
  | .hbm, ⟨91, _⟩ => ⟨S8192, .i1⟩
  | .hbm, ⟨92, _⟩ => ⟨S_, .i32⟩
  | .hbm, ⟨93, _⟩ => ⟨S8192, .i32⟩
  | .hbm, ⟨94, _⟩ => ⟨S8192, .i32⟩
  | .hbm, ⟨95, _⟩ => ⟨S8192, .i32⟩
  | .hbm, ⟨96, _⟩ => ⟨S8192x1, .i32⟩
  | .hbm, ⟨97, _⟩ => ⟨S8192x32x32, .f32⟩
  | .hbm, ⟨98, _⟩ => ⟨S8192x32x5, .f32⟩
  | .hbm, ⟨99, _⟩ => ⟨S_, .f32⟩
  | .hbm, ⟨100, _⟩ => ⟨S8192x32x5, .f32⟩
  | .hbm, ⟨101, _⟩ => ⟨S8192x32x5, .f32⟩
  | _, _ => ⟨S8192x128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_call1_call0_c : Ref sig .tc := ⟨.hbm, 13, rfl⟩
abbrev main_call1_call0_v0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_call2_call0_c : Ref sig .tc := ⟨.hbm, 29, rfl⟩
abbrev main_call2_call0_v0 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_c_4 : Ref sig .tc := ⟨.hbm, 54, rfl⟩
abbrev main_call3_v14 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_c_6 : Ref sig .tc := ⟨.hbm, 59, rfl⟩
abbrev main_v20 : Ref sig .tc := ⟨.hbm, 60, rfl⟩
abbrev main_v21 : Ref sig .tc := ⟨.hbm, 61, rfl⟩
abbrev main_c_7 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_c_8 : Ref sig .tc := ⟨.hbm, 74, rfl⟩
abbrev main_v32 : Ref sig .tc := ⟨.hbm, 75, rfl⟩
abbrev main_v33 : Ref sig .tc := ⟨.hbm, 76, rfl⟩
abbrev main_c_9 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_10 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_c_11 : Ref sig .tc := ⟨.hbm, 89, rfl⟩
abbrev main_v44 : Ref sig .tc := ⟨.hbm, 90, rfl⟩
abbrev main_v45 : Ref sig .tc := ⟨.hbm, 91, rfl⟩
abbrev main_c_12 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_13 : Ref sig .tc := ⟨.hbm, 99, rfl⟩
abbrev main_v52 : Ref sig .tc := ⟨.hbm, 100, rfl⟩
abbrev main_v53 : Ref sig .tc := ⟨.hbm, 101, rfl⟩

abbrev nD : Nat := 1
abbrev τ : Topo := Topo.v7x

variable {F : FTy → Type} [FloatOps F]

class Facts₀ : Prop where
  slices_S64_S1_63 : S64.Slices ![63] S1
  slices_S64_S63_0 : S64.Slices ![0] S63
  concatenates_S1_S63_S64_d0 : Shape.Concatenates [S1, S63] S64 0
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S8192 : S_.BroadcastsInDim S8192 (![] : Fin 0 → Fin S8192.rank)
  bcast_S_S64 : S_.BroadcastsInDim S64 (![] : Fin 0 → Fin S64.rank)
  bcast_S64_S64x1_0 : S64.BroadcastsInDim S64x1 (![0] : Fin 1 → Fin S64x1.rank)
  reduceWindows_S8192_S8192_w8192s1p8191_0 : S8192.ReduceWindows (![8192] : Fin 1 → Nat) ![1] ![8191] ![0] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  slices_S64x21504_S64x16384_0_0 : S64x21504.Slices ![0, 0] S64x16384
  shapeCasts_S64x16384_S64x128x128 : S64x16384.ShapeCasts S64x128x128
  bcast_S_S8192x128x1 : S_.BroadcastsInDim S8192x128x1 (![] : Fin 0 → Fin S8192x128x1.rank)
  slices_S64x21504_S64x4096_0_16384 : S64x21504.Slices ![0, 16384] S64x4096
  shapeCasts_S64x4096_S64x64x64 : S64x4096.ShapeCasts S64x64x64
  bcast_S_S8192x64x3 : S_.BroadcastsInDim S8192x64x3 (![] : Fin 0 → Fin S8192x64x3.rank)
  slices_S64x21504_S64x1024_0_20480 : S64x21504.Slices ![0, 20480] S64x1024
  shapeCasts_S64x1024_S64x32x32 : S64x1024.ShapeCasts S64x32x32
  bcast_S_S8192x32x5 : S_.BroadcastsInDim S8192x32x5 (![] : Fin 0 → Fin S8192x32x5.rank)
  scatter_S64_S1_S__n_0_0_0_wf : ScatterDims.WF S64 S1 S_ [] [0] [0] 0
  scatter_S8192_S64x1_S64_n_0_0_1_wf : ScatterDims.WF S8192 S64x1 S64 [] [0] [0] 1
  gather_S64_S8192x1_S8192_n_0_n_n_0_1_1_wf : GatherDims.WF S64 S8192x1 S8192 [] [0] [] [0] [] 1 ![1]
  gather_S64x128x128_S8192x1_S8192x128x128_12_0_n_n_0_1_1128128_wf : GatherDims.WF S64x128x128 S8192x1 S8192x128x128 [1, 2] [0] [] [0] [] 1 ![1, 128, 128]
  dot_S8192x128x128_S8192x128x1_S8192x128x1_1_1_2_2_0_0_wf : DotDims.WF S8192x128x128 S8192x128x1 S8192x128x1 [1] [1] [2] [2] [0] [0]
  gather_S64x64x64_S8192x1_S8192x64x64_12_0_n_n_0_1_16464_wf : GatherDims.WF S64x64x64 S8192x1 S8192x64x64 [1, 2] [0] [] [0] [] 1 ![1, 64, 64]
  dot_S8192x64x64_S8192x64x3_S8192x64x3_1_1_2_2_0_0_wf : DotDims.WF S8192x64x64 S8192x64x3 S8192x64x3 [1] [1] [2] [2] [0] [0]
  gather_S64x32x32_S8192x1_S8192x32x32_12_0_n_n_0_1_13232_wf : GatherDims.WF S64x32x32 S8192x1 S8192x32x32 [1, 2] [0] [] [0] [] 1 ![1, 32, 32]
  dot_S8192x32x32_S8192x32x5_S8192x32x5_1_1_2_2_0_0_wf : DotDims.WF S8192x32x32 S8192x32x5 S8192x32x5 [1] [1] [2] [2] [0] [0]

variable [Facts₀]

def scatter_S64_S1_S__n_0_0_0 : ScatterDims S64 S1 S_ where
  updateWindowDims := []
  insertedWindowDims := [0]
  scatterDimsToOperandDims := [0]
  indexVectorDim := 0
  wf := scatter_S64_S1_S__n_0_0_0_wf
def scatter_S8192_S64x1_S64_n_0_0_1 : ScatterDims S8192 S64x1 S64 where
  updateWindowDims := []
  insertedWindowDims := [0]
  scatterDimsToOperandDims := [0]
  indexVectorDim := 1
  wf := scatter_S8192_S64x1_S64_n_0_0_1_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def gather_S64x128x128_S8192x1_S8192x128x128_12_0_n_n_0_1_1128128 : GatherDims S64x128x128 S8192x1 S8192x128x128 where
  offsetDims := [1, 2]
  collapsedSliceDims := [0]
  operandBatchingDims := []
  startIndicesBatchingDims := []
  startIndexMap := [0]
  indexVectorDim := 1
  sliceSizes := ![1, 128, 128]
  wf := gather_S64x128x128_S8192x1_S8192x128x128_12_0_n_n_0_1_1128128_wf
def dot_S8192x128x128_S8192x128x1_S8192x128x1_1_1_2_2_0_0 : DotDims S8192x128x128 S8192x128x1 S8192x128x1 where
  lhsContracting := [1]
  rhsContracting := [1]
  lhsNonContracting := [2]
  rhsNonContracting := [2]
  lhsBatch := [0]
  rhsBatch := [0]
  wf := dot_S8192x128x128_S8192x128x1_S8192x128x1_1_1_2_2_0_0_wf
def gather_S64x64x64_S8192x1_S8192x64x64_12_0_n_n_0_1_16464 : GatherDims S64x64x64 S8192x1 S8192x64x64 where
  offsetDims := [1, 2]
  collapsedSliceDims := [0]
  operandBatchingDims := []
  startIndicesBatchingDims := []
  startIndexMap := [0]
  indexVectorDim := 1
  sliceSizes := ![1, 64, 64]
  wf := gather_S64x64x64_S8192x1_S8192x64x64_12_0_n_n_0_1_16464_wf
def dot_S8192x64x64_S8192x64x3_S8192x64x3_1_1_2_2_0_0 : DotDims S8192x64x64 S8192x64x3 S8192x64x3 where
  lhsContracting := [1]
  rhsContracting := [1]
  lhsNonContracting := [2]
  rhsNonContracting := [2]
  lhsBatch := [0]
  rhsBatch := [0]
  wf := dot_S8192x64x64_S8192x64x3_S8192x64x3_1_1_2_2_0_0_wf
def gather_S64x32x32_S8192x1_S8192x32x32_12_0_n_n_0_1_13232 : GatherDims S64x32x32 S8192x1 S8192x32x32 where
  offsetDims := [1, 2]
  collapsedSliceDims := [0]
  operandBatchingDims := []
  startIndicesBatchingDims := []
  startIndexMap := [0]
  indexVectorDim := 1
  sliceSizes := ![1, 32, 32]
  wf := gather_S64x32x32_S8192x1_S8192x32x32_12_0_n_n_0_1_13232_wf
def dot_S8192x32x32_S8192x32x5_S8192x32x5_1_1_2_2_0_0 : DotDims S8192x32x32 S8192x32x5 S8192x32x5 where
  lhsContracting := [1]
  rhsContracting := [1]
  lhsNonContracting := [2]
  rhsNonContracting := [2]
  lhsBatch := [0]
  rhsBatch := [0]
  wf := dot_S8192x32x32_S8192x32x5_S8192x32x5_1_1_2_2_0_0_wf

class Facts : Prop extends Facts₀ where

variable [Facts]
-- ==== Proof.Spec.lean ====
import Idealize.ShloMosaic.PureOps.Ideal
import Idealize.ShloMosaic.Lib.ValueIdx
import Mathlib.Algebra.BigOperators.Group.Finset.Basic

/-!
# The indexed linear map, as one function of the arguments

Rows `n` of an `[N, mul, ir]` array `x` are grouped into 64 segments by a map `s`; segment `g`
owns row `g` of the weight table `w : [64, W]`, and of that row the `mul * mul` entries from column
`off` on, read as a `mul × mul` mixing matrix (input channel `m` major, output channel `o` minor).
The result at `(n, o, i)` is `c * Σ_m w[s n, off + m * mul + o] * x[n, m, i]`: the matrix of the row's
segment applied to each of the `ir` components alike, scaled by `c`.
-/

open Idealize.ShloMosaic Idealize.ShloMosaic.ValueIdx

namespace Cert.Spec

/-- Column `off + (m * mul + o)` of the weight table lies inside it when the block of `mul * mul`
    columns from `off` does. -/
theorem col_lt {mul W off m o : Nat} (h : off + mul * mul ≤ W) (hm : m < mul) (ho : o < mul) :
    off + (m * mul + o) < W := by
  have h1 : m * mul + o < (m + 1) * mul := by rw [Nat.add_mul, Nat.one_mul]; omega
  have h2 : (m + 1) * mul ≤ mul * mul := Nat.mul_le_mul_right _ hm
  omega

noncomputable section

/-- The indexed linear map: `c * Σ_m w[s n, off + m * mul + o] * x[n, m, i]` at `(n, o, i)`. -/
def mix (N mul ir W off : Nat) (h : off + mul * mul ≤ W) (c : EReal)
    (x : (⟨3, ![N, mul, ir]⟩ : Shape).Idx → EReal) (w : (⟨2, ![64, W]⟩ : Shape).Idx → EReal)
    (s : Fin N → Fin 64) : (⟨3, ![N, mul, ir]⟩ : Shape).Idx → EReal :=
  fun j => c * ∑ m : Fin mul,
    w (ix2 (s (j 0)) ⟨off + (m.val * mul + (j 1).val), col_lt h m.isLt (j 1).isLt⟩) * x (ix3 (j 0) m (j 2))

/-- The three irreps of this kernel: 128 scalars, 64 vectors, 32 rank-2 tensors per row, their
    mixing matrices at columns 0, 16384 and 20480 of the 21504-column table, the scale written as the
    32-bit pattern both programs carry. -/
def Y0 := mix 8192 128 1 21504 0 (by decide) (Ideal.ofBits .f32 0x3C3504F3#32)
def Y1 := mix 8192 64 3 21504 16384 (by decide) (Ideal.ofBits .f32 0x3C800000#32)
def Y2 := mix 8192 32 5 21504 20480 (by decide) (Ideal.ofBits .f32 0x3CB504F3#32)

end

end Cert.Spec
-- ==== Proof.LibCount.lean ====
import Idealize.ShloMosaic.PureOps.Ideal
import Idealize.ShloMosaic.PureOps.Contract
import Idealize.ShloMosaic.PureOps.ShapeOps
import Idealize.ShloMosaic.Lib.ValueIdx
import Mathlib.Data.Finset.Card
import Mathlib.Data.Fintype.Basic
import Mathlib.Data.EReal.Basic
import Mathlib.Algebra.BigOperators.Group.Finset.Basic

/-!
# Counting by scattering ones: in 32-bit integers, or in exact floats

Scattering the constant one, with addition, into an array of zeros leaves at each position `i`
the number of update positions whose result index is `i`. Done with 32-bit integer addition, the
number is held modulo `2 ^ 32`; when there are fewer than `2 ^ 31` update positions in all, no
count wraps or reaches the sign bit, so converting the integer counts to (exact) floats gives the
same array as scattering the float one into float zeros with exact addition.
-/

open Idealize.ShloMosaic

namespace Cert.LibCount

noncomputable section

/-- One pass of "add the word 1 at the position the key names, if it names one" over a list of
    keys, starting from the array `x`: at each position the start value plus the number of keys
    naming that position, that number taken modulo `2 ^ 32`. By induction on the list, the start
    array arbitrary: a key naming `i` moves one unit from the count into the start value at `i`,
    any other key leaves both alone. -/
theorem foldl_add_one_apply {ι κ : Type} [DecidableEq ι] (g : κ → Option ι) (l : List κ)
    (x : ι → BitVec 32) (i : ι) :
    (l.foldl (fun r n =>
        match g n with
        | some k => fun i' => if i' = k then IntOp.addi (r k) (1#32) else r i'
        | none => r) x) i
      = x i + BitVec.ofNat 32 (l.countP fun n => g n = some i) := by
  induction l generalizing x with
  | nil => simp
  | cons n l ih =>
    rw [List.foldl_cons, ih, List.countP_cons]
    cases h : g n with
    | none => simp
    | some k =>
      by_cases hk : i = k
      · subst hk
        simp [IntOp.addi, BitVec.ofNat_add, BitVec.add_assoc, BitVec.add_comm]
      · have hk' : ¬ k = i := fun e => hk e.symm
        simp [hk, hk']

/-- A natural number below `2 ^ 31`, written as a 32-bit word, reads back as itself when the
    word is taken as a signed integer: it is below `2 ^ 32`, so it does not wrap, and twice it is
    below `2 ^ 32`, so the sign bit is clear. -/
theorem toInt_ofNat_of_lt {c : Nat} (hc : c < 2 ^ 31) : (BitVec.ofNat 32 c).toInt = (c : Int) := by
  have h1 : (BitVec.ofNat 32 c).toNat = c := by
    rw [BitVec.toNat_ofNat]; exact Nat.mod_eq_of_lt (by omega)
  rw [BitVec.toInt_eq_toNat_of_lt (by rw [h1]; omega), h1]

/-- Counting along the row-major enumeration: the number of positions `n` of the enumeration whose
    multi-index satisfies `P` is the number of multi-indices satisfying `P`, the enumeration being
    a bijection between the multi-indices and the positions and listing each position once. -/
theorem countP_finRange_rowMajor (su : Shape) (P : su.Idx → Prop) [DecidablePred P] :
    (List.finRange su.numel).countP (fun n => P (su.rowMajor.symm n))
      = (Finset.univ.filter P).card := by
  have h := List.Nodup.card_eq_countP (l := List.finRange su.numel)
    (P := fun n => P (su.rowMajor.symm n)) (List.nodup_finRange _)
  rw [← h]
  refine Finset.card_equiv su.rowMajor.symm ?_
  intro n
  simp

/-- The integer scatter of ones into zeros holds at `i` the number of update positions whose
    result index is `i`, as a 32-bit word. -/
theorem scatter_ones_apply {s si su : Shape} {w : Nat} (d : ScatterDims s si su) (idx : IVec si w) (i : s.Idx) :
    Host.scatter d IntOp.addi (fun _ => (0#32 : BitVec 32)) idx (fun _ => (1#32 : BitVec 32)) i
      = BitVec.ofNat 32 (Finset.univ.filter (fun j => d.resultIdx? j idx = some i)).card := by
  have h := foldl_add_one_apply (fun n => d.resultIdx? (su.rowMajor.symm n) idx)
    (List.finRange su.numel) (fun _ => (0#32 : BitVec 32)) i
  rw [countP_finRange_rowMajor su (fun j => d.resultIdx? j idx = some i), BitVec.zero_add] at h
  unfold Host.scatter
  -- the scatter's step and the step of `foldl_add_one_apply` are the same function: case by case
  -- on the result index of the update position
  refine Eq.trans (congrArg (fun f => List.foldl f (fun _ => (0#32 : BitVec 32)) (List.finRange su.numel) i)
    (funext fun r => funext fun n => ?_)) h
  cases d.resultIdx? (su.rowMajor.symm n) idx <;> rfl

/-- The exact float scatter-add of ones into zeros holds at `i` the number of update positions
    whose result index is `i`: a sum of ones over a finite set is the set's size. -/
theorem hostScatterAdd_ones_apply {s si su : Shape} {w : Nat} (d : ScatterDims s si su) (idx : IVec si w) (i : s.Idx) :
    Ideal.hostScatterAdd d (fun _ => (0 : EReal)) idx (fun _ => (1 : EReal)) i
      = (((Finset.univ.filter (fun j => d.resultIdx? j idx = some i)).card : ℝ) : EReal) := by
  unfold Ideal.hostScatterAdd
  rw [zero_add, Finset.sum_const, nsmul_one]
  rfl

/-- Counting in 32-bit integers and converting to floats, or counting in exact floats: the same
    array, when the update has fewer than `2 ^ 31` positions. Each count is at most the number of
    update positions, so below `2 ^ 31`, and the word holding it reads back, signed, as the count. -/
theorem sitofp_scatter_ones_ideal {s si su : Shape} {w : Nat} (d : ScatterDims s si su) (idx : IVec si w)
    (hN : su.numel < 2 ^ 31) :
    (sitofp .f32 (Host.scatter d IntOp.addi (fun _ => (0#32 : BitVec 32)) idx (fun _ => (1#32 : BitVec 32))) : FVec Ideal s .f32)
      = Ideal.hostScatterAdd d (fun _ => (0 : EReal)) idx (fun _ => (1 : EReal)) := by
  funext i
  rw [ValueIdx.sitofp_apply, hostScatterAdd_ones_apply, scatter_ones_apply]
  have hc : (Finset.univ.filter (fun j => d.resultIdx? j idx = some i)).card < 2 ^ 31 := by
    refine lt_of_le_of_lt (Finset.card_le_univ _) ?_
    rw [su.card_idx]; exact hN
  show (((BitVec.ofNat 32 _).toInt : ℝ) : EReal) = _
  rw [toInt_ofNat_of_lt hc, Int.cast_natCast]

/-- The same, the float side written as the host's scatter-add operation at the ideal instance. -/
theorem sitofp_scatter_ones {s si su : Shape} {w : Nat} (d : ScatterDims s si su) (idx : IVec si w)
    (hN : su.numel < 2 ^ 31) :
    (sitofp .f32 (Host.scatter d IntOp.addi (fun _ => (0#32 : BitVec 32)) idx (fun _ => (1#32 : BitVec 32))) : FVec Ideal s .f32)
      = Host.scatterAdd (F := Ideal) d (fun _ => (0 : EReal)) idx (fun _ => (1 : EReal)) :=
  sitofp_scatter_ones_ideal d idx hN

end

end Cert.LibCount
-- ==== Proof.LibCumsum.lean ====
import Idealize.ShloMosaic.PureOps.Contract
import Idealize.ShloMosaic.Lib.ValueIdx
import Mathlib.Algebra.BigOperators.Group.Finset.Basic
import Mathlib.Algebra.BigOperators.Fin
import Mathlib.Algebra.Order.BigOperators.Group.Finset

/-!
# A cumulative sum written as a windowed reduction, in 32-bit integers

The cumulative sum of a vector of length `N` is written as a windowed reduction by addition: the
window is `N` wide, the vector is padded with `N - 1` zeros in front, and the window slides by one.
Window `j` then covers positions `j - (N - 1), …, j` of the vector, the ones below zero being padding,
so its sum is the sum of the entries at positions `≤ j`. With 32-bit integer addition the sum is held
modulo `2 ^ 32`: when entry `k` is the word of a natural number `c k`, the result at `j` is the word of
`∑ k ≤ j, c k`.
-/

open Idealize.ShloMosaic Idealize.ShloMosaic.ValueIdx

open scoped BigOperators

namespace Cert.LibCumsum

/-- Adding, one after the other, the words of the natural numbers `g' n` to the word of `a` gives the
    word of `a` plus their sum. -/
theorem foldl_addi_ofNat {κ : Type} (l : List κ) (g : κ → BitVec 32) (g' : κ → ℕ)
    (hg : ∀ n ∈ l, g n = BitVec.ofNat 32 (g' n)) (a : ℕ) :
    l.foldl (fun r n => IntOp.addi r (g n)) (BitVec.ofNat 32 a) = BitVec.ofNat 32 (a + (l.map g').sum) := by
  induction l generalizing a with
  | nil => simp
  | cons n l ih =>
    rw [List.foldl_cons, hg n (List.mem_cons_self ..)]
    have : IntOp.addi (BitVec.ofNat 32 a) (BitVec.ofNat 32 (g' n)) = BitVec.ofNat 32 (a + g' n) := by
      simp [IntOp.addi, BitVec.ofNat_add]
    rw [this, ih (fun m hm => hg m (List.mem_cons_of_mem _ hm)), List.map_cons, List.sum_cons, Nat.add_assoc]

/-- In a rank-1 shape the row-major position of an index is its coordinate; read backwards, the
    index at position `n` has coordinate `n`. -/
theorem rowMajor_symm_val_one {d : Fin 1 → ℕ} (n : Fin (⟨1, d⟩ : Shape).numel) :
    ((⟨1, d⟩ : Shape).rowMajor.symm n 0).val = n.val := by
  have h := Shape.rowMajor_val_one ((⟨1, d⟩ : Shape).rowMajor.symm n)
  rw [Equiv.apply_symm_apply] at h
  exact h.symm

/-- A vector of natural numbers continued by zero beyond its length. -/
def ext0 {N : ℕ} (c : Fin N → ℕ) (k : ℕ) : ℕ := if h : k < N then c ⟨k, h⟩ else 0

/-- The windowed reduction by 32-bit addition from zero, rank 1, stride one, `p` zeros in front, read at `j`: the
    word of the sum, over the window's `W` positions `n`, of the entry at `j + n - p` where that is a position of
    the vector, entry `k` being the word of the natural number `c k`. -/
theorem reduceWindow_addi_apply {N M W p : ℕ} {u : Shape} (x : IVec ⟨1, ![N]⟩ 32) (c : Fin N → ℕ)
    (hx : ∀ k : Fin N, x (ix1 k) = BitVec.ofNat 32 (c k)) (init : u.Idx → BitVec 32)
    (h : (⟨1, ![N]⟩ : Shape).ReduceWindows ![W] ![1] ![p] ![0] ⟨1, ![M]⟩) (hu : 0 < u.numel)
    (hinit : init (Shape.Idx.first hu) = 0#32) (j : Fin M) :
    Host.reduceWindow IntOp.addi ![W] ![1] ![p] ![0] x init h hu (ix1 j)
      = BitVec.ofNat 32 (∑ n ∈ Finset.range W, if p ≤ j.val + n then ext0 c (j.val + n - p) else 0) := by
  have hx' : ∀ i : (⟨1, ![N]⟩ : Shape).Idx, x i = BitVec.ofNat 32 (ext0 c (i 0).val) := by
    intro i
    have hlt : (i 0).val < N := (i 0).isLt
    have e : i = ix1 (⟨(i 0).val, hlt⟩ : Fin N) := by funext d; match d with | ⟨0, _⟩ => rfl
    have e2 : ext0 c (i 0).val = c ⟨(i 0).val, hlt⟩ := dif_pos hlt
    calc x i = x (ix1 (⟨(i 0).val, hlt⟩ : Fin N)) := congrArg x e
      _ = BitVec.ofNat 32 (c ⟨(i 0).val, hlt⟩) := hx _
      _ = _ := by rw [e2]
  unfold Host.reduceWindow
  simp only []
  rw [hinit]
  have key := foldl_addi_ofNat (List.finRange (⟨1, ![W]⟩ : Shape).numel)
    (fun n => if hin : ∀ a : Fin 1, ![p] a ≤ (ix1 j (Fin.cast h.1.symm a)).val * ![1] a + ((⟨1, ![W]⟩ : Shape).rowMajor.symm n a).val ∧
        (ix1 j (Fin.cast h.1.symm a)).val * ![1] a + ((⟨1, ![W]⟩ : Shape).rowMajor.symm n a).val - ![p] a < ![N] a
      then x fun a => ⟨(ix1 j (Fin.cast h.1.symm a)).val * ![1] a + ((⟨1, ![W]⟩ : Shape).rowMajor.symm n a).val - ![p] a, (hin a).2⟩
      else 0#32)
    (fun n => if p ≤ j.val + n.val then ext0 c (j.val + n.val - p) else 0) ?_ 0
  · refine Eq.trans key ?_
    rw [Nat.zero_add, ← Fin.sum_univ_def,
      Fin.sum_univ_eq_sum_range (fun n => if p ≤ j.val + n then ext0 c (j.val + n - p) else 0), Shape.numel_rank1]
    rfl
  · intro n _
    have hn : ((⟨1, ![W]⟩ : Shape).rowMajor.symm n 0).val = n.val := rowMajor_symm_val_one n
    by_cases hin : ∀ a : Fin 1, ![p] a ≤ (ix1 j (Fin.cast h.1.symm a)).val * ![1] a + ((⟨1, ![W]⟩ : Shape).rowMajor.symm n a).val ∧
        (ix1 j (Fin.cast h.1.symm a)).val * ![1] a + ((⟨1, ![W]⟩ : Shape).rowMajor.symm n a).val - ![p] a < ![N] a
    · rw [dif_pos hin, hx']
      have h0 : p ≤ j.val * 1 + ((⟨1, ![W]⟩ : Shape).rowMajor.symm n 0).val ∧
          j.val * 1 + ((⟨1, ![W]⟩ : Shape).rowMajor.symm n 0).val - p < N := hin 0
      rw [hn, Nat.mul_one] at h0
      show BitVec.ofNat 32 (ext0 c (j.val * 1 + ((⟨1, ![W]⟩ : Shape).rowMajor.symm n 0).val - p)) = _
      rw [hn, Nat.mul_one, if_pos h0.1]
    · rw [dif_neg hin]
      have hin' : ¬(p ≤ j.val + n.val ∧ j.val + n.val - p < N) := fun hc => hin fun a => by
        obtain rfl : a = 0 := Subsingleton.elim _ _
        show p ≤ j.val * 1 + ((⟨1, ![W]⟩ : Shape).rowMajor.symm n 0).val ∧
          j.val * 1 + ((⟨1, ![W]⟩ : Shape).rowMajor.symm n 0).val - p < N
        rw [hn, Nat.mul_one]; exact hc
      by_cases hp : p ≤ j.val + n.val
      · rw [if_pos hp]
        unfold ext0
        rw [dif_neg (fun hlt => hin' ⟨hp, hlt⟩)]
      · rw [if_neg hp]

/-- The window sums re-indexed: with a window of `p + 1` positions and `p` zeros in front, window `j`
    covers the positions `k = j + n - p` for `n = p - j, …, p`, that is `k = 0, …, j`. -/
theorem sum_window_eq_prefix (f : ℕ → ℕ) (p j : ℕ) (hj : j ≤ p) :
    (∑ n ∈ Finset.range (p + 1), if p ≤ j + n then f (j + n - p) else 0) = ∑ k ∈ Finset.range (j + 1), f k := by
  rw [← Finset.sum_filter]
  refine Finset.sum_nbij' (fun n => j + n - p) (fun k => k + p - j) ?_ ?_ ?_ ?_ (fun _ _ => rfl)
  all_goals
    intro a ha
    simp only [Finset.mem_filter, Finset.mem_range] at ha ⊢
    omega

/-- A prefix sum of a vector of natural numbers is at most its total. -/
theorem sum_prefix_le {N : ℕ} (c : Fin N → ℕ) (m : ℕ) (hm : m ≤ N) :
    ∑ k ∈ Finset.range m, ext0 c k ≤ ∑ k : Fin N, c k := by
  have h1 : ∑ k ∈ Finset.range m, ext0 c k ≤ ∑ k ∈ Finset.range N, ext0 c k :=
    Finset.sum_le_sum_of_subset (Finset.range_mono hm)
  refine le_trans h1 (le_of_eq ?_)
  rw [Finset.sum_range]
  refine Finset.sum_congr rfl fun k _ => ?_
  exact dif_pos k.isLt

/-- THE CUMULATIVE SUM READ AT `j`: a window of `N` positions over `N - 1` zeros and then the vector,
    moved by one, summed with 32-bit addition from zero, holds at `j` the word of the sum of the
    entries at positions `≤ j`, when entry `k` is the word of the natural number `c k`. -/
theorem reduceWindow_cumsum_apply {N p : ℕ} (hp : p + 1 = N) {u : Shape} (x : IVec ⟨1, ![N]⟩ 32) (c : Fin N → ℕ)
    (hx : ∀ k : Fin N, x (ix1 k) = BitVec.ofNat 32 (c k)) (init : u.Idx → BitVec 32)
    (h : (⟨1, ![N]⟩ : Shape).ReduceWindows ![N] ![1] ![p] ![0] ⟨1, ![N]⟩) (hu : 0 < u.numel)
    (hinit : init (Shape.Idx.first hu) = 0#32) (j : Fin N) :
    Host.reduceWindow IntOp.addi ![N] ![1] ![p] ![0] x init h hu (ix1 j)
      = BitVec.ofNat 32 (∑ k ∈ Finset.range (j.val + 1), ext0 c k) := by
  rw [reduceWindow_addi_apply x c hx init h hu hinit j]
  subst hp
  rw [sum_window_eq_prefix (ext0 c) p j.val (by have := j.isLt; omega)]

end Cert.LibCumsum
-- ==== Proof.LibSegment.lean ====
/-
  A row gather and a row scatter-add, read at one index.

  Gathering whole rows of an `[M, C]` table at a column `[E, 1]` of row numbers gives an `[E, C]` array whose entry
  `(e, c)` is the table's entry `(r, c)`, `r` the `e`-th row number read as a signed integer and clamped into
  `[0, M - 1]`. Scatter-adding the rows of an `[E, C]` array of updates into an `[N, C]` operand at a column
  `[E, 1]` of destination rows gives, at `(n, c)`, the operand's entry plus the sum over all `e` whose destination,
  read as a signed integer, is exactly `n`, of the update's entry `(e, c)` (a destination outside `[0, N)` contributes
  nothing, since it equals no `n`). The same holds for an `[E]` vector of updates scatter-added into an `[N]` vector.
  The scatter statements are at the exact-arithmetic instance (entries are extended reals), where the sum's order does
  not matter. All extents are arbitrary naturals; nothing here enumerates an index set.
-/
import Idealize.ShloMosaic.Lib.ValueIdx

noncomputable section

open scoped BigOperators

namespace Cert.LibSegment

open Idealize.ShloMosaic Idealize.ShloMosaic.ValueIdx

/-! ## The dimension numbers -/

/-- Scatter of `[E, C]` update rows into an `[N, C]` operand at `[E, 1]` destination rows: the update's axis 1 is the
    window (a whole row), operand axis 0 is the inserted one the index names. -/
abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of an `[E]` vector of updates into an `[N]` operand at `[E, 1]` destinations: no window axis. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Gather of whole rows of an `[M, C]` table at `[E, 1]` row numbers: slices `[1, C]`, operand axis 0 collapsed, the
    result's axis 1 the offset along the row. -/
abbrev rowGather (M E C : ℕ) (wf : GatherDims.WF ⟨2, ![M, C]⟩ ⟨2, ![E, 1]⟩ ⟨2, ![E, C]⟩ [1] [0] [] [0] [] 1 ![1, C]) :
    GatherDims ⟨2, ![M, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, M - 1]`. -/
def clampRow (M : ℕ) (hM : 0 < M) {w : ℕ} (z : BitVec w) : Fin M := ⟨min z.toInt.toNat (M - 1), by omega⟩

/-! ## The gather at an index -/

/-- THE ROW GATHER READ AT `(e, c)`: the table at the clamped row the `e`-th start index names, column `c`. -/
theorem gather_rows_apply {α : Type} {M E C w : ℕ} (hM : 0 < M)
    (wf : GatherDims.WF ⟨2, ![M, C]⟩ ⟨2, ![E, 1]⟩ ⟨2, ![E, C]⟩ [1] [0] [] [0] [] 1 ![1, C])
    (x : (⟨2, ![M, C]⟩ : Shape).Idx → α) (idx : IVec ⟨2, ![E, 1]⟩ w) (e : Fin E) (c : Fin C) :
    Host.gather (rowGather M E C wf) x idx (ix2 e c) = x (ix2 (clampRow M hM (idx (ix2 e (0 : Fin 1)))) c) := by
  unfold Host.gather
  congr 1
  funext a
  refine Fin.ext ?_
  match a with
  | ⟨0, _⟩ =>
    show (rowGather M E C wf).start (ix2 e c) idx (0 : Fin 2) + (rowGather M E C wf).batchCoord (ix2 e c) (0 : Fin 2)
      + (rowGather M E C wf).offCoord (ix2 e c) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather M E C wf).startIndexMap from List.mem_singleton.mpr rfl)]
    have hsi : (rowGather M E C wf).siIdx (ix2 e c) ⟨List.idxOf (0 : Fin 2) (rowGather M E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather M E C wf).start (ix2 e c) idx (1 : Fin 2) + (rowGather M E C wf).batchCoord (ix2 e c) (1 : Fin 2)
      + (rowGather M E C wf).offCoord (ix2 e c) (1 : Fin 2) = c.val
    rw [GatherDims.batchCoord_eq_zero _ _ _ List.not_mem_nil]
    have hs : (rowGather M E C wf).start (ix2 e c) idx (1 : Fin 2) = 0 := rfl
    have ho : (rowGather M E C wf).offCoord (ix2 e c) (1 : Fin 2) = c.val := rfl
    rw [hs, ho]; omega

/-! ## Where an update lands -/

/-- An update index lands on operand index `i` exactly when, on every operand axis, start plus window coordinate is
    `i`'s coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hall
      have h' := congrArg Fin.val (congrFun (Option.some.inj h) a)
      simp only at h'
      have := hall a
      omega
    · exact absurd h (by simp)
  · intro h
    have hall : ∀ a, 0 ≤ d.start j idx a + (d.window j a : ℤ) ∧ d.start j idx a + (d.window j a : ℤ) < s.size a := by
      intro a; rw [h a]; exact ⟨Int.natCast_nonneg _, by exact_mod_cast (i a).isLt⟩
    rw [dif_pos hall]
    congr 1
    funext a
    refine Fin.ext ?_
    show (d.start j idx a + (d.window j a : ℤ)).toNat = (i a).val
    rw [h a]; exact Int.toNat_natCast _

section Rows
variable {N E C w : ℕ} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window starts at the `e`-th destination, read signed. -/
theorem rowScatter_start0 :
    (rowScatter N E C wf).start (ix2 e c') idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The row-scatter's update `(e, c')` lands on `(n, c)` exactly when the `e`-th destination is `n` and `c' = c`. -/
theorem rowScatter_resultIdx?_iff (n : Fin N) (c : Fin C) :
    (rowScatter N E C wf).resultIdx? (ix2 e c') idx = some (ix2 n c)
      ↔ (idx (ix2 e (0 : Fin 1))).toInt = (n.val : ℤ) ∧ c' = c := by
  rw [resultIdx?_eq_some_iff]
  have hw0 : (rowScatter N E C wf).window (ix2 e c') (0 : Fin 2) = 0 := rfl
  have hs1 : (rowScatter N E C wf).start (ix2 e c') idx (1 : Fin 2) = 0 := rfl
  have hw1 : (rowScatter N E C wf).window (ix2 e c') (1 : Fin 2) = c'.val := rfl
  constructor
  · intro h
    have h0 := h (0 : Fin 2)
    have h1 := h (1 : Fin 2)
    rw [rowScatter_start0, hw0] at h0
    rw [hs1, hw1] at h1
    have h0' : (idx (ix2 e (0 : Fin 1))).toInt + ((0 : ℕ) : ℤ) = (n.val : ℤ) := h0
    have h1' : (0 : ℤ) + (c'.val : ℤ) = (c.val : ℤ) := h1
    exact ⟨by omega, Fin.ext (by omega)⟩
  · rintro ⟨hz, rfl⟩ a
    match a with
    | ⟨0, _⟩ =>
      show (rowScatter N E C wf).start (ix2 e c') idx (0 : Fin 2) + ((rowScatter N E C wf).window (ix2 e c') (0 : Fin 2) : ℤ) = (n.val : ℤ)
      rw [rowScatter_start0, hw0, hz]; simp
    | ⟨1, _⟩ =>
      show (rowScatter N E C wf).start (ix2 e c') idx (1 : Fin 2) + ((rowScatter N E C wf).window (ix2 e c') (1 : Fin 2) : ℤ) = (c'.val : ℤ)
      rw [hs1, hw1]; simp

end Rows

/-! ## The row scatter-add at an index -/

/-- THE ROW SCATTER-ADD READ AT `(n, c)`: the operand's entry plus the sum, over the updates `e` whose destination is
    `n`, of the update's entry `(e, c)`. -/
theorem scatterAdd_rows_apply {N E C w : ℕ} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowScatter N E C wf) x idx upd (ix2 n c)
      = x (ix2 n c) + ∑ e : Fin E, if (idx (ix2 e (0 : Fin 1))).toInt = (n.val : ℤ) then upd (ix2 e c) else 0 := by
  show Ideal.hostScatterAdd (rowScatter N E C wf) x idx upd (ix2 n c) = _
  unfold Ideal.hostScatterAdd
  congr 1
  rw [Finset.sum_filter, sum_idx2]
  refine Finset.sum_congr rfl fun e _ => ?_
  simp only [rowScatter_resultIdx?_iff]
  by_cases hz : (idx (ix2 e (0 : Fin 1))).toInt = (n.val : ℤ)
  · simp only [hz, true_and, if_true]
    rw [Finset.sum_ite_eq' Finset.univ c (fun c' => upd (ix2 e c'))]
    simp
  · simp only [hz, false_and, if_false]
    exact Finset.sum_const_zero

/-! ## The vector scatter-add at an index -/

/-- A rank-1 index set is its one coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Vec
variable {N E w : ℕ} (wf : ScatterDims.WF ⟨1, ![N]⟩ ⟨2, ![E, 1]⟩ ⟨1, ![E]⟩ [] [0] [0] 1)
  (idx : IVec ⟨2, ![E, 1]⟩ w) (e : Fin E)

/-- On the operand's one axis the window starts at the `e`-th destination, read signed. -/
theorem vecScatter_start0 :
    (vecScatter N E wf).start (ix1 e) idx (0 : Fin 1) = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The vector scatter's update `e` lands on `n` exactly when the `e`-th destination is `n`. -/
theorem vecScatter_resultIdx?_iff (n : Fin N) :
    (vecScatter N E wf).resultIdx? (ix1 e) idx = some (ix1 n) ↔ (idx (ix2 e (0 : Fin 1))).toInt = (n.val : ℤ) := by
  rw [resultIdx?_eq_some_iff]
  have hw0 : (vecScatter N E wf).window (ix1 e) (0 : Fin 1) = 0 := rfl
  constructor
  · intro h
    have h0 := h (0 : Fin 1)
    rw [vecScatter_start0, hw0] at h0
    have h0' : (idx (ix2 e (0 : Fin 1))).toInt + ((0 : ℕ) : ℤ) = (n.val : ℤ) := h0
    omega
  · intro hz a
    match a with
    | ⟨0, _⟩ =>
      show (vecScatter N E wf).start (ix1 e) idx (0 : Fin 1) + ((vecScatter N E wf).window (ix1 e) (0 : Fin 1) : ℤ) = (n.val : ℤ)
      rw [vecScatter_start0, hw0, hz]; simp

end Vec

/-- THE VECTOR SCATTER-ADD READ AT `n`: the operand's entry plus the sum, over the updates `e` whose destination is `n`,
    of the update's entry `e`. -/
theorem scatterAdd_vec_apply {N E w : ℕ} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : ℤ) then upd (ix1 e) else 0 := by
  show Ideal.hostScatterAdd (vecScatter N E wf) x idx upd (ix1 n) = _
  unfold Ideal.hostScatterAdd
  congr 1
  rw [Finset.sum_filter, sum_idx1]
  refine Finset.sum_congr rfl fun e _ => ?_
  simp only [vecScatter_resultIdx?_iff]

end Cert.LibSegment

end
-- ==== Proof.SidRange.lean ====
import proofs.«171389_j21672404975706_2_alg».proof.KernelIdeal
import proofs.«171389_j21672404975706_2_alg».proof.Proof.LibCount
import proofs.«171389_j21672404975706_2_alg».proof.Proof.LibCumsum
import proofs.«171389_j21672404975706_2_alg».proof.Proof.LibSegment
import Idealize.ShloMosaic.Lib.ValueIdx
import Idealize.ShloMosaic.Lib.Affine
import Idealize.ShloMosaic.Lib.Pipeline.Value

/-!
# The segment ids are in range

The host part of the program turns the 64 counts into 8192 segment ids: a one is added at each
of 64 scatter positions into an array of 8192 zeros, the array is summed cumulatively, one is
subtracted, and the 64-entry table `0, 1, …, 63` is read at the result (a negative position
counted from the end, a position outside the table giving the fill word). Whatever the 64
scatter positions are, every cumulative sum is a number between 0 and 64, so every position read
is inside the table and every segment id is one of `0, …, 63`.
-/

open Idealize.ShloMosaic Idealize.ShloMosaic.ValueIdx

open scoped BigOperators

namespace Cert.KernelIdeal.Sid

/-! ## General facts -/

/-- Counts of disjoint sets: for a partial map `f` from a finite set and distinct targets `g k`, the
    numbers of arguments sent to each target add up to at most the number of arguments, the sets
    of arguments sent to distinct targets being disjoint. -/
theorem sum_card_fiber_le {ι ι' κ : Type} [Fintype ι'] [Fintype κ] [DecidableEq κ] [DecidableEq ι]
    (f : κ → Option ι) (g : ι' → ι) (hg : Function.Injective g) :
    ∑ k : ι', (Finset.univ.filter (fun j => f j = some (g k))).card ≤ Fintype.card κ := by
  rw [← Finset.card_biUnion]
  · exact Finset.card_le_univ _
  · intro k _ k' _ hne
    show Disjoint (Finset.univ.filter (fun j => f j = some (g k))) (Finset.univ.filter (fun j => f j = some (g k')))
    rw [Finset.disjoint_filter]
    intro j _ h1 h2
    exact hne (hg (Option.some.inj (h1.symm.trans h2)))

/-- Folding `and` over one-bit words that are all `1`, from `1`, gives `1`. -/
theorem foldl_andi_ones {κ : Type} (l : List κ) (g : κ → BitVec 1) (hg : ∀ n, g n = 1#1) :
    l.foldl (fun r n => IntOp.andi r (g n)) 1#1 = 1#1 := by
  induction l with
  | nil => rfl
  | cons n l ih =>
    rw [List.foldl_cons, hg n]
    exact ih

/-- The `and`-reduction of an array of ones, from the initial value one, is one at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  unfold Host.reduce
  rw [hinit]
  exact foldl_andi_ones _ (fun n => x (s.rowMajor.symm n)) (fun n => hx _)

/-- Gather of single entries of an `[M]` table at `[E, 1]` positions: slices `[1]`, the operand's axis
    collapsed. -/
abbrev vecGather (M E : ℕ) (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the table at the position the `e`-th start index names, read signed
    and clamped into `[0, M - 1]`. -/
theorem gather_vec_apply {α : Type} {M E w : ℕ} (hM : 0 < M)
    (wf : GatherDims.WF ⟨1, ![M]⟩ ⟨2, ![E, 1]⟩ ⟨1, ![E]⟩ [] [0] [] [0] [] 1 ![1])
    (x : (⟨1, ![M]⟩ : Shape).Idx → α) (idx : IVec ⟨2, ![E, 1]⟩ w) (e : Fin E) :
    Host.gather (vecGather M E wf) x idx (ix1 e) = x (ix1 (Cert.LibSegment.clampRow M hM (idx (ix2 e (0 : Fin 1))))) := by
  unfold Host.gather
  congr 1
  funext a
  obtain rfl : a = 0 := Subsingleton.elim _ _
  refine Fin.ext ?_
  show (vecGather M E wf).start (ix1 e) idx 0 + (vecGather M E wf).batchCoord (ix1 e) 0
    + (vecGather M E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather M E wf).startIndexMap from List.mem_singleton.mpr rfl)]
  have hsi : (vecGather M E wf).siIdx (ix1 e) ⟨List.idxOf (0 : Fin 1) (vecGather M E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- A natural number below `M`, as a 32-bit start index, names itself after clamping (`M` below `2 ^ 31`). -/
theorem clampRow_ofNat {M t : ℕ} (hM : 0 < M) (hM' : M ≤ 2 ^ 31) (ht : t < M) :
    Cert.LibSegment.clampRow M hM (BitVec.ofNat 32 t) = ⟨t, ht⟩ := by
  unfold Cert.LibSegment.clampRow
  refine Fin.ext ?_
  show min (BitVec.ofNat 32 t).toInt.toNat (M - 1) = t
  rw [Cert.LibCount.toInt_ofNat_of_lt (by omega), Int.toNat_natCast]
  omega

/-- One less than the word of a positive natural number is the word of its predecessor. -/
theorem ofNat_sub_one {P : ℕ} (hP : 0 < P) : BitVec.ofNat 32 P - 1#32 = BitVec.ofNat 32 (P - 1) := by
  obtain ⟨Q, rfl⟩ : ∃ Q, P = Q + 1 := ⟨P - 1, by omega⟩
  rw [BitVec.ofNat_add, Nat.add_sub_cancel]
  show BitVec.ofNat 32 Q + 1#32 - 1#32 = _
  exact BitVec.add_sub_cancel _ _

open Cert.KernelIdeal Idealize.ShloMosaic

variable [Cert.KernelIdeal.Facts]
open Facts₀ Facts

noncomputable section

/-- The scatter positions: @main's %0 … %11 composed, as a function of the counts (%arg4). -/
def scatterPos (counts : IVec S64 32) : IVec S64x1 32 :=
  let v1 : IVec S64 32 := concatenate S64 0 [⟨S1, extractStridedSlice S1 ![63] counts slices_S64_S1_63⟩,
    ⟨S63, extractStridedSlice S63 ![0] counts slices_S64_S63_0⟩] concatenates_S1_S63_S64_d0
  let v2 : IVec S1 32 := broadcastInDim S1 ![] bcast_S_S1 (constantI S_ 32 0#32)
  let v3 : IVec S64 32 := Host.scatter scatter_S64_S1_S__n_0_0_0 (fun _ b => b) v1 v2 (constantI S_ 32 0#32)
  let v4 : IVec S64 32 := Host.reduceWindow IntOp.addi ![64] ![1] ![63] ![0] v3
    (broadcastInDim S_ ![] bcast_S_S_ (constantI S_ 32 0#32)) reduceWindows_S64_S64_w64s1p63_0 h_S_
  let v6 : IVec S64 32 := broadcastInDim S64 ![] bcast_S_S64 (constantI S_ 32 0#32)
  let v7 : IVec S64 1 := cmpi .slt v4 v6
  let v8 : IVec S64 32 := broadcastInDim S64 ![] bcast_S_S64 (constantI S_ 32 8192#32)
  let v9 : IVec S64 32 := addi v4 v8
  let v10 : IVec S64 32 := select v7 v9 v4
  broadcastInDim S64x1 ![0] bcast_S64_S64x1_0 v10

/-- The segment ids from the scatter positions: @main's %5, %12 … %17 composed (zeros, ones, scatter-add, cumsum, minus one, take). -/
def sidTail (idx : IVec S64x1 32) : IVec S8192 32 :=
  let v0 : IVec S64 32 := iotaInDim S64 32 0
  let v5 : IVec S8192 32 := broadcastInDim S8192 ![] bcast_S_S8192 (constantI S_ 32 0#32)
  let v12 : IVec S64 32 := broadcastInDim S64 ![] bcast_S_S64 (constantI S_ 32 1#32)
  let v13 : IVec S8192 32 := Host.scatter scatter_S8192_S64x1_S64_n_0_0_1 IntOp.addi v5 idx v12
  let v14 : IVec S8192 32 := Host.reduceWindow IntOp.addi ![8192] ![1] ![8191] ![0] v13
    (broadcastInDim S_ ![] bcast_S_S_ (constantI S_ 32 0#32)) reduceWindows_S8192_S8192_w8192s1p8191_0 h_S_
  let v15 : IVec S8192 32 := broadcastInDim S8192 ![] bcast_S_S8192 (constantI S_ 32 1#32)
  let v16 : IVec S8192 32 := subi v14 v15
  let t0 : IVec S8192 32 := broadcastInDim S8192 ![] bcast_S_S8192 (constantI S_ 32 0#32)
  let t1 : IVec S8192 1 := cmpi .slt v16 t0
  let t2 : IVec S8192 32 := broadcastInDim S8192 ![] bcast_S_S8192 (constantI S_ 32 64#32)
  let t3 : IVec S8192 32 := addi v16 t2
  let t4 : IVec S8192 32 := select t1 t3 v16
  let t5 : IVec S8192x1 32 := broadcastInDim S8192x1 ![0] bcast_S8192_S8192x1_0 t4
  let c1 : IVec S1 32 := constantI S1 32 63#32
  let t6 : IVec S8192x1 32 := broadcastInDim S8192x1 ![] bcast_S_S8192x1 (constantI S_ 32 0#32)
  let t7 : IVec S8192x1 1 := cmpi .sge t5 t6
  let t8 : IVec S1x1 32 := broadcastInDim S1x1 ![1] bcast_S1_S1x1_1 c1
  let t9 : IVec S8192x1 32 := broadcastInDim S8192x1 ![0, 1] bcast_S1x1_S8192x1_0_1 t8
  let t10 : IVec S8192x1 1 := cmpi .sle t5 t9
  let t11 : IVec S8192x1 1 := andi t7 t10
  let t12 : IVec S8192 1 := Host.reduce IntOp.andi t11 (constantI S_ 1 1#1) reducesTo_S8192x1_S8192_d1 h_S_
  let t13 : IVec S8192 32 := Host.gather gather_S64_S8192x1_S8192_n_0_n_n_0_1_1 v0 t5
  let t14 : IVec S8192 32 := broadcastInDim S8192 ![] bcast_S_S8192 (constantI S_ 32 2147483648#32)
  select t12 t13 t14

/-- %17 of @main. -/
def sid (counts : IVec S64 32) : IVec S8192 32 := sidTail (scatterPos counts)

/-! ## The chain, read at an index -/

/-- The number of update positions of a scatter whose result index is `i`. -/
def cnt {s si su : Shape} {w : ℕ} (d : ScatterDims s si su) (idx : IVec si w) (i : s.Idx) : ℕ :=
  (Finset.univ.filter (fun j => d.resultIdx? j idx = some i)).card

/-- The 64 update positions are shared out among the result indices: the counts add up to at most 64. -/
theorem sum_cnt_le (idx : IVec S64x1 32) :
    ∑ i : Fin 8192, cnt scatter_S8192_S64x1_S64_n_0_0_1 idx (ix1 i) ≤ 64 := by
  have h := sum_card_fiber_le (fun j : S64.Idx => scatter_S8192_S64x1_S64_n_0_0_1.resultIdx? j idx)
    (fun i : Fin 8192 => (ix1 i : S8192.Idx)) (fun a b hab => congrFun hab 0)
  rw [Shape.card_idx] at h
  exact h

/-- Reading the table `0, …, 63` at given positions: @_take's %5 … %15 as a function of %4. -/
def takeAt (t4 : IVec S8192 32) : IVec S8192 32 :=
  let v0 : IVec S64 32 := iotaInDim S64 32 0
  let t5 : IVec S8192x1 32 := broadcastInDim S8192x1 ![0] bcast_S8192_S8192x1_0 t4
  let c1 : IVec S1 32 := constantI S1 32 63#32
  let t6 : IVec S8192x1 32 := broadcastInDim S8192x1 ![] bcast_S_S8192x1 (constantI S_ 32 0#32)
  let t7 : IVec S8192x1 1 := cmpi .sge t5 t6
  let t8 : IVec S1x1 32 := broadcastInDim S1x1 ![1] bcast_S1_S1x1_1 c1
  let t9 : IVec S8192x1 32 := broadcastInDim S8192x1 ![0, 1] bcast_S1x1_S8192x1_0_1 t8
  let t10 : IVec S8192x1 1 := cmpi .sle t5 t9
  let t11 : IVec S8192x1 1 := andi t7 t10
  let t12 : IVec S8192 1 := Host.reduce IntOp.andi t11 (constantI S_ 1 1#1) reducesTo_S8192x1_S8192_d1 h_S_
  let t13 : IVec S8192 32 := Host.gather gather_S64_S8192x1_S8192_n_0_n_n_0_1_1 v0 t5
  let t14 : IVec S8192 32 := broadcastInDim S8192 ![] bcast_S_S8192 (constantI S_ 32 2147483648#32)
  select t12 t13 t14

/-- The positions, wrapped: @_take's %0 … %4 as a function of the cumulative sums less one. -/
def wrapOf (v16 : IVec S8192 32) : IVec S8192 32 :=
  select (cmpi .slt v16 (broadcastInDim S8192 ![] bcast_S_S8192 (constantI S_ 32 0#32)))
    (addi v16 (broadcastInDim S8192 ![] bcast_S_S8192 (constantI S_ 32 64#32))) v16

/-- The cumulative sums less one: @main's %5, %12 … %16 as a function of the scatter positions. -/
def lessOne (idx : IVec S64x1 32) : IVec S8192 32 :=
  subi (Host.reduceWindow IntOp.addi ![8192] ![1] ![8191] ![0]
      (Host.scatter scatter_S8192_S64x1_S64_n_0_0_1 IntOp.addi (broadcastInDim S8192 ![] bcast_S_S8192 (constantI S_ 32 0#32)) idx
        (broadcastInDim S64 ![] bcast_S_S64 (constantI S_ 32 1#32)))
      (broadcastInDim S_ ![] bcast_S_S_ (constantI S_ 32 0#32)) reduceWindows_S8192_S8192_w8192s1p8191_0 h_S_)
    (broadcastInDim S8192 ![] bcast_S_S8192 (constantI S_ 32 1#32))

/-- The segment ids as the three stages composed. -/
theorem sidTail_eq (idx : IVec S64x1 32) : sidTail idx = takeAt (wrapOf (lessOne idx)) := rfl

/-- The wrapped position: `63` when the cumulative sum is `0` (one less is `-1`, counted from the end), else one less. -/
def pos (P : ℕ) : ℕ := if P = 0 then 63 else P - 1

/-- The wrapped position is inside the table. -/
theorem pos_lt {P : ℕ} (hP : P ≤ 64) : pos P < 64 := by unfold pos; split_ifs <;> omega

/-- %4 of @_take at a word `P - 1`, `0 ≤ P ≤ 64`: the word of the wrapped position. -/
theorem wrap_word {P : ℕ} (hP : P ≤ 64) :
    Scalar.select (IntOp.cmpi .slt (BitVec.ofNat 32 P - 1#32) 0#32) (IntOp.addi (BitVec.ofNat 32 P - 1#32) 64#32)
      (BitVec.ofNat 32 P - 1#32) = BitVec.ofNat 32 (pos P) := by
  by_cases h0 : P = 0
  · subst h0; decide
  · have hpos : pos P = P - 1 := if_neg h0
    rw [hpos, ofNat_sub_one (by omega)]
    have hc : IntOp.cmpi .slt (BitVec.ofNat 32 (P - 1)) 0#32 = 0#1 := by
      refine eq_zero_of_ne_one fun h1 => ?_
      have := IntOp.cmpi_slt.mp h1
      rw [Cert.LibCount.toInt_ofNat_of_lt (by omega)] at this
      have h00 : (0#32 : BitVec 32).toInt = 0 := by decide
      omega
    rw [hc, select_zero]

/-- Where every cumulative sum less one is the word `P - 1` of some `0 ≤ P ≤ 64`, the wrapped positions are the words
    of the `pos P`. -/
theorem wrapOf_apply (v16 : IVec S8192 32) (Pf : Fin 8192 → ℕ) (hP : ∀ n, Pf n ≤ 64)
    (h16 : ∀ n, v16 (ix1 n) = BitVec.ofNat 32 (Pf n) - 1#32) (m : Fin 8192) :
    wrapOf v16 (ix1 m) = BitVec.ofNat 32 (pos (Pf m)) := by
  show Scalar.select (IntOp.cmpi .slt (v16 (ix1 m)) 0#32) (IntOp.addi (v16 (ix1 m)) 64#32) (v16 (ix1 m)) = _
  rw [h16 m]
  exact wrap_word (hP m)

/-- Reading the table at positions that are the words of numbers below 64 gives those words: both bound tests
    hold, the position is its own clamp, and entry `t` of the table is the word of `t`. -/
theorem takeAt_apply (t4 : IVec S8192 32) (tf : Fin 8192 → ℕ) (ht : ∀ m, tf m < 64)
    (h4 : ∀ m, t4 (ix1 m) = BitVec.ofNat 32 (tf m)) (n : Fin 8192) :
    takeAt t4 (ix1 n) = BitVec.ofNat 32 (tf n) := by
  have h5 : ∀ j : S8192x1.Idx, broadcastInDim S8192x1 ![0] bcast_S8192_S8192x1_0 t4 j
      = BitVec.ofNat 32 (tf ⟨(j 0).val, idx2_lt0 j⟩) := by
    intro j
    rw [broadcastInDim_apply ![0] bcast_S8192_S8192x1_0 t4 j (ix1 ⟨(j 0).val, idx2_lt0 j⟩) (fun a => by
      obtain rfl : a = 0 := Subsingleton.elim _ _
      show (j 0).val = if (8192 : ℕ) = 1 then 0 else (j 0).val
      rw [if_neg (by decide)])]
    exact h4 _
  have h11 : ∀ j : S8192x1.Idx, andi (cmpi .sge (broadcastInDim S8192x1 ![0] bcast_S8192_S8192x1_0 t4)
        (broadcastInDim S8192x1 ![] bcast_S_S8192x1 (constantI S_ 32 0#32)))
      (cmpi .sle (broadcastInDim S8192x1 ![0] bcast_S8192_S8192x1_0 t4)
        (broadcastInDim S8192x1 ![0, 1] bcast_S1x1_S8192x1_0_1 (broadcastInDim S1x1 ![1] bcast_S1_S1x1_1 (constantI S1 32 63#32)))) j = 1#1 := by
    intro j
    show IntOp.andi (IntOp.cmpi .sge (broadcastInDim S8192x1 ![0] bcast_S8192_S8192x1_0 t4 j) 0#32)
      (IntOp.cmpi .sle (broadcastInDim S8192x1 ![0] bcast_S8192_S8192x1_0 t4 j) 63#32) = 1#1
    have hlt := ht ⟨(j 0).val, idx2_lt0 j⟩
    have hi := Cert.LibCount.toInt_ofNat_of_lt (c := tf ⟨(j 0).val, idx2_lt0 j⟩) (by omega)
    have h0 : (0#32 : BitVec 32).toInt = 0 := by decide
    have h63 : (63#32 : BitVec 32).toInt = 63 := by decide
    rw [h5 j, IntOp.cmpi_sge.mpr (by rw [hi, h0]; omega), IntOp.cmpi_sle.mpr (by rw [hi, h63]; omega)]
    decide
  unfold takeAt
  show Scalar.select (Host.reduce IntOp.andi _ (constantI S_ 1 1#1) reducesTo_S8192x1_S8192_d1 h_S_ (ix1 n))
    (Host.gather gather_S64_S8192x1_S8192_n_0_n_n_0_1_1 (iotaInDim S64 32 0)
      (broadcastInDim S8192x1 ![0] bcast_S8192_S8192x1_0 t4) (ix1 n)) _ = _
  rw [reduce_andi_ones _ _ _ _ h11 rfl, select_one]
  refine Eq.trans (gather_vec_apply (by decide) gather_S64_S8192x1_S8192_n_0_n_n_0_1_1_wf _ _ n) ?_
  rw [h5 (ix2 n (0 : Fin 1))]
  show iotaInDim S64 32 0 (ix1 (Cert.LibSegment.clampRow 64 _ (BitVec.ofNat 32 (tf n)))) = _
  rw [clampRow_ofNat (by decide) (by decide) (ht n)]
  rfl

/-- A difference of integer vectors at an index is the difference of the elements. -/
theorem subi_apply' {s : Shape} {w : ℕ} (a b : IVec s w) (i : s.Idx) : subi a b i = IntOp.subi (a i) (b i) := rfl

/-- The cumulative sum of the counts at `n`, as a natural number. -/
def psum (idx : IVec S64x1 32) (n : Fin 8192) : ℕ :=
  ∑ k ∈ Finset.range (n.val + 1),
    Cert.LibCumsum.ext0 (fun i : Fin 8192 => cnt scatter_S8192_S64x1_S64_n_0_0_1 idx (ix1 i)) k

/-- Every cumulative sum is at most the total of the counts, so at most 64. -/
theorem psum_le (idx : IVec S64x1 32) (n : Fin 8192) : psum idx n ≤ 64 :=
  le_trans (Cert.LibCumsum.sum_prefix_le _ _ (by have := n.isLt; omega)) (sum_cnt_le idx)

/-- The cumulative sums less one at `n`: the scatter leaves the counts, the windowed reduction sums them up to
    `n`, and one is subtracted. -/
theorem lessOne_apply (idx : IVec S64x1 32) (n : Fin 8192) :
    lessOne idx (ix1 n) = BitVec.ofNat 32 (psum idx n) - 1#32 := by
  have hx : ∀ k : Fin 8192,
      Host.scatter scatter_S8192_S64x1_S64_n_0_0_1 IntOp.addi (broadcastInDim S8192 ![] bcast_S_S8192 (constantI S_ 32 0#32)) idx
        (broadcastInDim S64 ![] bcast_S_S64 (constantI S_ 32 1#32)) (ix1 k)
      = BitVec.ofNat 32 (cnt scatter_S8192_S64x1_S64_n_0_0_1 idx (ix1 k)) :=
    fun k => Cert.LibCount.scatter_ones_apply scatter_S8192_S64x1_S64_n_0_0_1 idx (ix1 k)
  unfold lessOne
  rw [subi_apply', show broadcastInDim S8192 ![] bcast_S_S8192 (constantI S_ 32 1#32) (ix1 n) = 1#32 from rfl]
  rw [Cert.LibCumsum.reduceWindow_cumsum_apply (N := 8192) (p := 8191) rfl _ _ hx _
    reduceWindows_S8192_S8192_w8192s1p8191_0 h_S_ rfl n]
  rfl

theorem sidTail_range (idx : IVec S64x1 32) :
    ∃ s : Fin 8192 → Fin 64, ∀ n : Fin 8192, sidTail idx (ValueIdx.ix1 n) = BitVec.ofNat 32 (s n).val := by
  refine ⟨fun n => ⟨pos (psum idx n), pos_lt (psum_le idx n)⟩, fun n => ?_⟩
  rw [sidTail_eq]
  exact takeAt_apply _ (fun m => pos (psum idx m)) (fun m => pos_lt (psum_le idx m))
    (wrapOf_apply _ (psum idx) (psum_le idx) (lessOne_apply idx)) n

theorem sid_range (counts : IVec S64 32) :
    ∃ s : Fin 8192 → Fin 64, ∀ n : Fin 8192, sid counts (ValueIdx.ix1 n) = BitVec.ofNat 32 (s n).val :=
  sidTail_range (scatterPos counts)

end

end Cert.KernelIdeal.Sid
-- ==== Proof.KernelRun.lean ====
import proofs.«171389_j21672404975706_2_alg».proof.Proof.Gen.KernelIdeal.Frame

/-!
# The idealized kernel's run, with every buffer's final contents named

The program is three pipelined regions among stretches of host operations. Its run ends, on every
core, with each unscoped buffer holding the value of a fold through the program: a stretch of host
operations applies them in order, a region leaves its arrays at what its write-backs produce and every
other buffer as it found it. The frame certificate keeps of this only that the arguments end as
launched; here the same launch is stated with the whole final valuation, so that the three result
arrays can be read from it.
-/

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state each
    unscoped buffer of each core holds the fold's value `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

end Cert.KernelIdeal.RunValue

end
-- ==== Proof.Walk.lean ====
import proofs.«171389_j21672404975706_2_alg».proof.Proof.Gen.KernelIdeal.Frame
import Idealize.ShloMosaic.Lib.StableHlo.Run
import Idealize.ShloMosaic.PureOps.Ideal
import Idealize.ShloMosaic.Lib.Pipeline.Value

/-!
# Reading the fold: what each region finds, and where each result ends

The final valuation is a fold through the program. No host operation and no region writes an
argument array, so at every boundary an argument holds its launch contents. Each region finds its
input rows at the argument array (a change of float format is the identity on the extended reals), its
weight table at a slice of the weight argument, and its id column at the same buffer in all three
regions: that buffer is an input window of every region, so a region leaves it as it found it. Each
result array is the fourth window's array of its own region and is touched by nothing afterwards.
-/

set_option maxRecDepth 16384

noncomputable section

open Idealize.ShloMosaic Idealize.ShloMosaic.TcCoe Idealize.SL.Sem
open Idealize.ShloMosaic.StableHlo
open Idealize.ShloMosaic.Pipeline (Dat)
open Cert.KernelIdeal Cert.KernelIdeal.Gen

namespace Cert.KernelIdeal.Walk

variable (m : (ℓ : Loc nD τ sig) → Buf (Elt Ideal) ℓ) (ρ : Dev nD → PrngReg)

/-- The float arguments at launch, on core `c`. -/
abbrev xs0 (c : Dev nD) : S8192x128x1.Idx → EReal := m ((c : Thread nD τ).loc main_arg0)
abbrev xs1 (c : Dev nD) : S8192x64x3.Idx → EReal := m ((c : Thread nD τ).loc main_arg1)
abbrev xs2 (c : Dev nD) : S8192x32x5.Idx → EReal := m ((c : Thread nD τ).loc main_arg2)
abbrev ws (c : Dev nD) : S64x21504.Idx → EReal := m ((c : Thread nD τ).loc main_arg3)

/-! ## The arguments at the boundaries -/

theorem W9_arg1 (c : Dev nD) : W9 m ρ c (Proc.devRef .tc main_arg1) = m ((c : Thread nD τ).loc main_arg1) := by
  show StableHlo.after hostOps0_8 (W8 m ρ c) (Proc.devRef .tc main_arg1) = _
  after_results <;> rfl
theorem W9_arg2 (c : Dev nD) : W9 m ρ c (Proc.devRef .tc main_arg2) = m ((c : Thread nD τ).loc main_arg2) := by
  show StableHlo.after hostOps0_8 (W8 m ρ c) (Proc.devRef .tc main_arg2) = _
  after_results <;> rfl
theorem W9_arg3 (c : Dev nD) : W9 m ρ c (Proc.devRef .tc main_arg3) = m ((c : Thread nD τ).loc main_arg3) := by
  show StableHlo.after hostOps0_8 (W8 m ρ c) (Proc.devRef .tc main_arg3) = _
  after_results <;> rfl

theorem W10_arg1 (c : Dev nD) : W10 m ρ c (Proc.devRef .tc main_arg1) = m ((c : Thread nD τ).loc main_arg1) :=
  (W10_of_ne m ρ c main_arg1 (by decide)).trans (W9_arg1 m ρ c)
theorem W10_arg2 (c : Dev nD) : W10 m ρ c (Proc.devRef .tc main_arg2) = m ((c : Thread nD τ).loc main_arg2) :=
  (W10_of_ne m ρ c main_arg2 (by decide)).trans (W9_arg2 m ρ c)
theorem W10_arg3 (c : Dev nD) : W10 m ρ c (Proc.devRef .tc main_arg3) = m ((c : Thread nD τ).loc main_arg3) :=
  (W10_of_ne m ρ c main_arg3 (by decide)).trans (W9_arg3 m ρ c)

theorem W11_arg2 (c : Dev nD) : W11 m ρ c (Proc.devRef .tc main_arg2) = m ((c : Thread nD τ).loc main_arg2) := by
  show StableHlo.after hostOps1 (W10 m ρ c) (Proc.devRef .tc main_arg2) = _
  after_results
  exact W10_arg2 m ρ c
theorem W11_arg3 (c : Dev nD) : W11 m ρ c (Proc.devRef .tc main_arg3) = m ((c : Thread nD τ).loc main_arg3) := by
  show StableHlo.after hostOps1 (W10 m ρ c) (Proc.devRef .tc main_arg3) = _
  after_results
  exact W10_arg3 m ρ c

theorem W12_arg2 (c : Dev nD) : W12 m ρ c (Proc.devRef .tc main_arg2) = m ((c : Thread nD τ).loc main_arg2) :=
  (W12_of_ne m ρ c main_arg2 (by decide)).trans (W11_arg2 m ρ c)
theorem W12_arg3 (c : Dev nD) : W12 m ρ c (Proc.devRef .tc main_arg3) = m ((c : Thread nD τ).loc main_arg3) :=
  (W12_of_ne m ρ c main_arg3 (by decide)).trans (W11_arg3 m ρ c)

/-! ## What region 0 finds -/

theorem inp0 (c : Dev nD) : (V9 m ρ c main_v21 : S8192x128x1.Idx → EReal) = xs0 m c := by
  show StableHlo.after hostOps0_8 (W8 m ρ c) (Proc.devRef .tc main_v21) = _
  after_results <;> rfl

theorem tbl0 (c : Dev nD) : (V9 m ρ c main_v20 : S64x16384.Idx → EReal)
    = truncf (F := Ideal) .bf16 (extractStridedSlice S64x16384 ![0, 0] (ws m c) slices_S64x21504_S64x16384_0_0) bitsLt_bf16_f32 := by
  show StableHlo.after hostOps0_8 (W8 m ρ c) (Proc.devRef .tc main_v20) = _
  after_results <;> rfl

/-! ## What region 1 finds -/

theorem inp1 (c : Dev nD) : (V11 m ρ c main_v25 : S8192x64x3.Idx → EReal) = xs1 m c := by
  show StableHlo.after hostOps1 (W10 m ρ c) (Proc.devRef .tc main_v25) = _
  after_results
  rw [W10_arg1]
  rfl

theorem tbl1 (c : Dev nD) : (V11 m ρ c main_v24 : S64x4096.Idx → EReal)
    = truncf (F := Ideal) .bf16 (extractStridedSlice S64x4096 ![0, 16384] (ws m c) slices_S64x21504_S64x4096_0_16384) bitsLt_bf16_f32 := by
  show StableHlo.after hostOps1 (W10 m ρ c) (Proc.devRef .tc main_v24) = _
  after_results
  rw [W10_arg3]

theorem ids1 (c : Dev nD) : (V11 m ρ c main_v18 : S8192x1.Idx → BitVec 32) = V9 m ρ c main_v18 := by
  show StableHlo.after hostOps1 (W10 m ρ c) (Proc.devRef .tc main_v18) = _
  after_results
  exact (W10_arr m ρ c 1).trans (((dat0 (V9 m ρ) c).arrAt_in 1 rfl cfg0.N).trans (A_eq0 (V9 m ρ) c 1))

/-! ## What region 2 finds -/

theorem inp2 (c : Dev nD) : (V13 m ρ c main_v29 : S8192x32x5.Idx → EReal) = xs2 m c := by
  show StableHlo.after hostOps2 (W12 m ρ c) (Proc.devRef .tc main_v29) = _
  after_results
  rw [W12_arg2]
  rfl

theorem tbl2 (c : Dev nD) : (V13 m ρ c main_v28 : S64x1024.Idx → EReal)
    = truncf (F := Ideal) .bf16 (extractStridedSlice S64x1024 ![0, 20480] (ws m c) slices_S64x21504_S64x1024_0_20480) bitsLt_bf16_f32 := by
  show StableHlo.after hostOps2 (W12 m ρ c) (Proc.devRef .tc main_v28) = _
  after_results
  rw [W12_arg3]

theorem ids2 (c : Dev nD) : (V13 m ρ c main_v18 : S8192x1.Idx → BitVec 32) = V9 m ρ c main_v18 := by
  show StableHlo.after hostOps2 (W12 m ρ c) (Proc.devRef .tc main_v18) = _
  after_results
  exact ((W12_arr m ρ c 1).trans (((dat1 (V11 m ρ) c).arrAt_in 1 rfl cfg1.N).trans (A_eq1 (V11 m ρ) c 1))).trans (ids1 m ρ c)

/-! ## Where the results end -/

theorem res0 (c : Dev nD) : W14 m ρ c (Proc.devRef .tc main_v22) = (dat0 (V9 m ρ) c).arrAt 3 cfg0.N :=
  calc W14 m ρ c (Proc.devRef .tc main_v22)
    _ = W13 m ρ c (Proc.devRef .tc main_v22) := W14_of_ne m ρ c main_v22 (by decide)
    _ = W12 m ρ c (Proc.devRef .tc main_v22) := by
          show StableHlo.after hostOps2 (W12 m ρ c) (Proc.devRef .tc main_v22) = _
          after_results
    _ = W11 m ρ c (Proc.devRef .tc main_v22) := W12_of_ne m ρ c main_v22 (by decide)
    _ = W10 m ρ c (Proc.devRef .tc main_v22) := by
          show StableHlo.after hostOps1 (W10 m ρ c) (Proc.devRef .tc main_v22) = _
          after_results
    _ = _ := W10_arr m ρ c 3

theorem res1 (c : Dev nD) : W14 m ρ c (Proc.devRef .tc main_v26) = (dat1 (V11 m ρ) c).arrAt 3 cfg1.N :=
  calc W14 m ρ c (Proc.devRef .tc main_v26)
    _ = W13 m ρ c (Proc.devRef .tc main_v26) := W14_of_ne m ρ c main_v26 (by decide)
    _ = W12 m ρ c (Proc.devRef .tc main_v26) := by
          show StableHlo.after hostOps2 (W12 m ρ c) (Proc.devRef .tc main_v26) = _
          after_results
    _ = _ := W12_arr m ρ c 3

theorem res2 (c : Dev nD) : W14 m ρ c (Proc.devRef .tc main_v30) = (dat2 (V13 m ρ) c).arrAt 3 cfg2.N :=
  W14_arr m ρ c 3

end Cert.KernelIdeal.Walk

end
-- ==== Proof.LibHotRows.lean ====
/-
  One-hot rows, and a row gather spelt as two matrix products, on the extended reals.

  A column of segment numbers `sid : [N, 1]` spread along a second axis of extent G and compared with that axis's
  coordinate gives the [N, G] array that is 1 at (n, sid n) and 0 elsewhere: two words of naturals below 2^32 are
  equal exactly when the naturals are, the one-bit verdict widened to 32 bits is the word 1 or 0, and its signed
  reading is the real 1 or 0. Against a [G, Q] table the plain product with that array picks row `sid n` of the
  table: in the sum over the G coordinates every term but one is `0 * t`, which is 0 for every extended real t, and
  the remaining one is `1 * t = t`. A [N, b * c] array and the [N, b, c] array of the same row-major order hold the
  same entries, entry (i, j, k) being entry (i, j * c + k). The batched product of [B, K, M] and [B, K, P]
  that contracts the middle axis of both and keeps the first as a batch axis, into a zero accumulator, read at
  (b, p, q), is the sum over k of l (b, k, p) * r (b, k, q). (Also: an offset vector written as a list of zeros is
  the constant zero, which is how a whole-array access is recognised.)
-/
import Idealize.ShloMosaic.PureOps.Ideal.Laws
import Idealize.ShloMosaic.Lib.ValueIdx
import Idealize.ShloMosaic.Lib.Pipeline.Value

noncomputable section

open scoped BigOperators

namespace Cert.LibHotRows

open Idealize.ShloMosaic Idealize.ShloMosaic.ValueIdx

/-! ## Zero offsets, however spelt -/

/-- The rank-2 offset vector written out as two zeros is the constant zero. -/
theorem zeros2 : (![0, 0] : Fin 2 → Nat) = fun _ => 0 := funext fun a => by fin_cases a <;> rfl

/-- The rank-3 offset vector written out as three zeros is the constant zero. -/
theorem zeros3 : (![0, 0, 0] : Fin 3 → Nat) = fun _ => 0 := funext fun a => by fin_cases a <;> rfl

/-! ## The one-hot entry -/

/-- The words of two naturals below 2^32 compared for equality, the verdict widened to 32 bits and read as a signed
    integer: the extended real 1 when the naturals are equal, 0 when they are not. -/
theorem hotWord (a b : ℕ) (ha : a < 2 ^ 32) (hb : b < 2 ^ 32) :
    FloatOps.sitofp (F := Ideal) .f32 ((IntOp.cmpi .eq (BitVec.ofNat 32 a) (BitVec.ofNat 32 b)).setWidth 32)
      = if a = b then (1 : EReal) else 0 := by
  by_cases h : a = b
  · subst h
    rw [if_pos rfl]
    have e : IntOp.cmpi .eq (BitVec.ofNat 32 a) (BitVec.ofNat 32 a) = 1#1 := by
      simp [IntOp.cmpi]
    rw [e]
    show (((((1#1 : BitVec 1).setWidth 32).toInt : ℤ) : ℝ) : EReal) = 1
    have : ((1#1 : BitVec 1).setWidth 32).toInt = 1 := by decide
    rw [this]; simp
  · rw [if_neg h]
    have hne : BitVec.ofNat 32 a ≠ BitVec.ofNat 32 b := fun hh => h (by
      have := congrArg BitVec.toNat hh
      rw [BitVec.toNat_ofNat, BitVec.toNat_ofNat, Nat.mod_eq_of_lt ha, Nat.mod_eq_of_lt hb] at this
      exact this)
    have e : IntOp.cmpi .eq (BitVec.ofNat 32 a) (BitVec.ofNat 32 b) = 0#1 := by
      show BitVec.ofBool (BitVec.ofNat 32 a == BitVec.ofNat 32 b) = 0#1
      rw [beq_eq_false_iff_ne.mpr hne]; rfl
    rw [e]
    show (((((0#1 : BitVec 1).setWidth 32).toInt : ℤ) : ℝ) : EReal) = 0
    have : ((0#1 : BitVec 1).setWidth 32).toInt = 0 := by decide
    rw [this]; simp

/-- A [N, 1] column spread along a second axis of extent G reads, at (n, k), the column's entry (n, 0). -/
theorem broadcastTo_n1_ng_apply {α : Type} {N G : ℕ} (v : (⟨2, ![N, 1]⟩ : Shape).Idx → α)
    (h : (⟨2, ![N, 1]⟩ : Shape).Broadcasts ⟨2, ![N, G]⟩) (n : Fin N) (k : Fin G) :
    broadcastTo ⟨2, ![N, G]⟩ v h (ix2 n k) = v (ix2 n (0 : Fin 1)) := by
  refine broadcastTo_apply v h (ix2 n k) (ix2 n (0 : Fin 1)) fun ax => ?_
  match ax with
  | ⟨0, _⟩ =>
    show n.val = if N = 1 then 0 else n.val
    split
    · have := n.isLt; omega
    · rfl
  | ⟨1, _⟩ => rfl

/-- The one-hot array of a column of segment numbers: the column, cast to its own shape, spread to [N, G], compared
    with the second axis's coordinate, widened, converted and narrowed, reads at (n, k) the extended real 1 when the
    row's segment number `e` is `k` and 0 otherwise. -/
theorem hot_apply {N G : ℕ} (hG : G ≤ 2 ^ 32) (sid : IVec ⟨2, ![N, 1]⟩ 32)
    (h1 : (⟨2, ![N, 1]⟩ : Shape).ShapeCasts ⟨2, ![N, 1]⟩)
    (h2 : (⟨2, ![N, 1]⟩ : Shape).Broadcasts ⟨2, ![N, G]⟩)
    (h3 : (⟨2, ![N, G]⟩ : Shape).Iotas .tc 32 [1]) (h4 : 1 < 32) (h5 : FTy.bits .bf16 < FTy.bits .f32)
    (n : Fin N) (k e : Fin G) (he : sid (ix2 n (0 : Fin 1)) = BitVec.ofNat 32 e.val) :
    (truncf .bf16 (sitofp (F := Ideal) .f32 (extui 32 (cmpi .eq
        (broadcastTo ⟨2, ![N, G]⟩ (shapeCast ⟨2, ![N, 1]⟩ sid h1) h2) (iota .tc ⟨2, ![N, G]⟩ 32 [1] h3)) h4)) h5
      : FVec Ideal ⟨2, ![N, G]⟩ .bf16) (ix2 n k) = if e.val = k.val then (1 : EReal) else 0 := by
  rw [truncf_apply, sitofp_apply, extui_apply]
  show FloatOps.sitofp (F := Ideal) .f32 ((IntOp.cmpi .eq
      (broadcastTo ⟨2, ![N, G]⟩ (shapeCast ⟨2, ![N, 1]⟩ sid h1) h2 (ix2 n k))
      (iota .tc ⟨2, ![N, G]⟩ 32 [1] h3 (ix2 n k))).setWidth 32) = _
  rw [broadcastTo_n1_ng_apply, shapeCast_self, he, iota_single_apply]
  exact hotWord e.val k.val (lt_of_lt_of_le e.isLt hG) (lt_of_lt_of_le k.isLt hG)

/-! ## The product with a one-hot row picks a row of the table -/

/-- A plain [N, G] × [G, Q] product into the zero accumulator whose left operand's row `n` is 1 at column `e` and 0
    elsewhere reads, at (n, q), the table's entry (e, q). -/
theorem hot_matmul_apply {N G Q : ℕ} {φ₁ φ₂ : FTy}
    (D : DotDims ⟨2, ![N, G]⟩ ⟨2, ![G, Q]⟩ ⟨2, ![N, Q]⟩)
    (hlc : D.lhsContracting = [1]) (hrc : D.rhsContracting = [0])
    (hl0 : ∀ (j : (⟨2, ![N, Q]⟩ : Shape).Idx) (c : D.contr.Idx), (D.lhsIdx j c 0).val = (j 0).val)
    (hr1 : ∀ (j : (⟨2, ![N, Q]⟩ : Shape).Idx) (c : D.contr.Idx), (D.rhsIdx j c 1).val = (j 1).val)
    (hrank : D.contr.rank = 1) (hsize : D.contr.size ⟨0, by omega⟩ = G)
    (prec : Option ContractPrecision)
    (hot : FVec Ideal ⟨2, ![N, G]⟩ φ₁) (t : FVec Ideal ⟨2, ![G, Q]⟩ φ₂) (n : Fin N) (e : Fin G)
    (hhot : ∀ k : Fin G, hot (ix2 n k) = if e.val = k.val then (1 : EReal) else 0) (q : Fin Q) :
    FloatOps.matmul D prec hot t (constant ⟨2, ![N, Q]⟩ .f32 0x00000000#32) (ix2 n q) = t (ix2 e q) := by
  rw [Ideal.matmul_constant_zero_apply, ← Equiv.sum_comp (contrEquiv1 D G hrank hsize).symm]
  have hterm : ∀ k : Fin G,
      hot (D.lhsIdx (ix2 n q) ((contrEquiv1 D G hrank hsize).symm k)) * t (D.rhsIdx (ix2 n q) ((contrEquiv1 D G hrank hsize).symm k))
        = hot (ix2 n k) * t (ix2 k q) := fun k => by
    have hk := contrEquiv1_symm_val D G hrank hsize k
    have el : D.lhsIdx (ix2 n q) ((contrEquiv1 D G hrank hsize).symm k) = ix2 n k := funext fun a => Fin.ext (by
      match a with
      | ⟨0, _⟩ => exact hl0 _ _
      | ⟨1, _⟩ => exact (D.lhsIdx_val_of_single hlc _ _).trans hk)
    have er : D.rhsIdx (ix2 n q) ((contrEquiv1 D G hrank hsize).symm k) = ix2 k q := funext fun a => Fin.ext (by
      match a with
      | ⟨0, _⟩ => exact (D.rhsIdx_val_of_single hrc _ _).trans hk
      | ⟨1, _⟩ => exact hr1 _ _)
    rw [el, er]
  rw [Finset.sum_congr rfl fun k _ => hterm k, Finset.sum_eq_single e]
  · rw [hhot e, if_pos rfl, one_mul]
  · intro k _ hk
    rw [hhot k, if_neg (fun h => hk (Fin.ext h.symm)), zero_mul]
  · intro h; exact absurd (Finset.mem_univ e) h

/-! ## A row of b * c entries read as a b × c matrix -/

/-- An [a, m] array with m = b * c cast to [a, b, c]: entry (i, j, k) is the array's entry (i, j * c + k). -/
theorem shapeCast_am_abc_apply {α : Type} {a b c m : ℕ} (x : (⟨2, ![a, m]⟩ : Shape).Idx → α)
    (h : (⟨2, ![a, m]⟩ : Shape).ShapeCasts ⟨3, ![a, b, c]⟩) (hm : m = b * c)
    (i : Fin a) (j : Fin b) (k : Fin c) (r : Fin m) (hr : r.val = j.val * c + k.val) :
    shapeCast ⟨3, ![a, b, c]⟩ x h (ix3 i j k) = x (ix2 i r) :=
  shapeCast_apply x h _ _ (by
    rw [Shape.rowMajor_val_two, Shape.rowMajor_val_three]
    show i.val * m + r.val = (i.val * b + j.val) * c + k.val
    rw [hr, hm, Nat.add_mul, Nat.mul_assoc, Nat.add_assoc])

/-! ## The batched product that contracts the middle axes -/

/-- The batched product [B, K, M] × [B, K, P] into the zero accumulator, the first axes a batch axis and the middle
    axes contracted, read at (b, p, q): the sum over the contraction coordinate k of l (b, k, p) · r (b, k, q). The
    facts about the batch and free axes hold by computation for given dimension numbers and are taken as
    hypotheses. -/
theorem matmul_batched_mid_zero_apply {B M K P : ℕ} {φ₁ φ₂ : FTy}
    (D : DotDims ⟨3, ![B, K, M]⟩ ⟨3, ![B, K, P]⟩ ⟨3, ![B, M, P]⟩)
    (hlc : D.lhsContracting = [1]) (hrc : D.rhsContracting = [1])
    (hl0 : ∀ (j : (⟨3, ![B, M, P]⟩ : Shape).Idx) (c : D.contr.Idx), (D.lhsIdx j c 0).val = (j 0).val)
    (hl2 : ∀ (j : (⟨3, ![B, M, P]⟩ : Shape).Idx) (c : D.contr.Idx), (D.lhsIdx j c 2).val = (j 1).val)
    (hr0 : ∀ (j : (⟨3, ![B, M, P]⟩ : Shape).Idx) (c : D.contr.Idx), (D.rhsIdx j c 0).val = (j 0).val)
    (hr2 : ∀ (j : (⟨3, ![B, M, P]⟩ : Shape).Idx) (c : D.contr.Idx), (D.rhsIdx j c 2).val = (j 2).val)
    (hrank : D.contr.rank = 1) (hsize : D.contr.size ⟨0, by omega⟩ = K)
    (prec : Option ContractPrecision)
    (l : FVec Ideal ⟨3, ![B, K, M]⟩ φ₁) (r : FVec Ideal ⟨3, ![B, K, P]⟩ φ₂) (b : Fin B) (p : Fin M) (q : Fin P) :
    FloatOps.matmul D prec l r (constant ⟨3, ![B, M, P]⟩ .f32 0x00000000#32) (ix3 b p q)
      = ∑ k : Fin K, l (ix3 b k p) * r (ix3 b k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix3 b p q) ((contrEquiv1 D K hrank hsize).symm k) = ix3 b k p := funext fun a => Fin.ext (by
    match a with
    | ⟨0, _⟩ => exact hl0 _ _
    | ⟨1, _⟩ => exact (D.lhsIdx_val_of_single hlc _ _).trans hk
    | ⟨2, _⟩ => exact hl2 _ _)
  have er : D.rhsIdx (ix3 b p q) ((contrEquiv1 D K hrank hsize).symm k) = ix3 b k q := funext fun a => Fin.ext (by
    match a with
    | ⟨0, _⟩ => exact hr0 _ _
    | ⟨1, _⟩ => exact (D.rhsIdx_val_of_single hrc _ _).trans hk
    | ⟨2, _⟩ => exact hr2 _ _)
  rw [el, er]

end Cert.LibHotRows

end
-- ==== Proof.Body0.lean ====
import proofs.«171389_j21672404975706_2_alg».proof.Proof.Gen.KernelIdeal.Frame
import proofs.«171389_j21672404975706_2_alg».proof.Proof.LibHotRows
import Idealize.ShloMosaic.PureOps.Ideal.Laws
import Idealize.ShloMosaic.Lib.ValueIdx
import Idealize.ShloMosaic.Lib.Pipeline.Value

/-!
# The body on a tile of 128 rows of [128, 1] blocks, read at an index

The tile holds 128 rows `x0 : [128, 128, 1]`, their segment numbers `x1 : [128, 1]` and the table
`x2 : [64, 16384]` whose row `g` is the 128 × 128 mixing matrix of segment `g`, input channel major. The body
compares the segment column with the coordinate 0 … 63 to get the one-hot array `[128, 64]`, multiplies it with the table
so that row `n` of the product `[128, 16384]` is the table's row `x1 n`, reads that row as a 128 × 128 matrix
(entry (m, o) at column `m * 128 + o`), contracts it with the row's block over the input channel `m`, and scales by the
constant 0.0110485433 carried as a 32-bit pattern. On the extended reals the one-hot product is exact — every term but one is
`0 * t = 0` and the remaining one is `1 * t = t` — so for a row whose segment number is `e` the result at (n, o, i) is
the constant times `Σ_m x2 (e, m * 128 + o) * x0 (n, m, i)`.
-/

noncomputable section

open scoped BigOperators

namespace Cert.KernelIdeal.BodyValue

open Cert.KernelIdeal Idealize.ShloMosaic Idealize.ShloMosaic.ValueIdx

variable [Cert.KernelIdeal.Facts]

/-- The body's arithmetic on a tile, at (n, o, i), for a row `n` whose segment number is `e`: the scale times the sum
    over the input channel `m` of the table's entry (e, m * 128 + o) times the block's entry (n, m, i). The outer
    product is the batched one contracting the middle axes; its left factor at (n, m, o) is the one-hot product at
    (n, m * 128 + o), which is the table's row `e` there. -/
theorem pay0_apply (x1 : Vec Ideal S128x1 .i32) (x2 : Vec Ideal S64x16384 .bf16) (x0 : Vec Ideal S128x128x1 .bf16)
    (n : Fin 128) (o : Fin 128) (i : Fin 1) (e : Fin 64)
    (he : x1 (ix2 n (0 : Fin 1)) = BitVec.ofNat 32 e.val) :
    Gen.k0_pay1 (F := Ideal) x1 x2 x0 (ix3 n o i)
      = Ideal.ofBits .f32 0x3C3504F3#32 * ∑ m : Fin 128, x2 (ix2 e ⟨m.val * 128 + o.val, by omega⟩) * x0 (ix3 n m i) := by
  unfold Gen.k0_pay1
  dsimp only
  rw [mulf_apply, broadcast_apply,
    shapeCast_self x0 Gen.shapeCasts_S128x128x1_S128x128x1, shapeCast_self x2 Gen.shapeCasts_S64x16384_S64x16384]
  refine congrArg (Ideal.ofBits .f32 0x3C3504F3#32 * ·) ?_
  refine (LibHotRows.matmul_batched_mid_zero_apply (φ₁ := .bf16) (φ₂ := .bf16) dot_S128x128x128_S128x128x1_S128x128x1_1_1_2_2_0_0 rfl rfl
    (fun _ _ => rfl) (fun _ _ => rfl) (fun _ _ => rfl) (fun _ _ => rfl) rfl rfl none _ _ n o i).trans ?_
  refine Finset.sum_congr rfl fun m _ => ?_
  refine congrArg (· * x0 (ix3 n m i)) ?_
  refine (LibHotRows.shapeCast_am_abc_apply _ Gen.shapeCasts_S128x16384_S128x128x128 (by norm_num) n m o
    ⟨m.val * 128 + o.val, by omega⟩ rfl).trans ?_
  rw [truncf_apply]
  exact LibHotRows.hot_matmul_apply (φ₁ := .bf16) (φ₂ := .bf16) dot_S128x64_S64x16384_S128x16384_1_0_0_1_n_n rfl rfl
    (fun _ _ => rfl) (fun _ _ => rfl) rfl rfl none _ x2 n e
    (fun k => LibHotRows.hot_apply (by norm_num) x1 Gen.shapeCasts_S128x1_S128x1 Gen.broadcasts_S128x1_S128x64
      Gen.iota_S128x64_d1_w32 Gen.natLt_1_32 Gen.bitsLt_bf16_f32 n k e he) _

/-- What the body leaves in the output tile, at (n, o, i): the tile is written once, whole, with the body's arithmetic
    on the three input tiles read whole. -/
theorem out0_3_apply (x0 : Vec Ideal S128x128x1 .bf16) (x1 : Vec Ideal S128x1 .i32) (x2 : Vec Ideal S64x16384 .bf16)
    (n : Fin 128) (o : Fin 128) (i : Fin 1) (e : Fin 64)
    (he : x1 (ix2 n (0 : Fin 1)) = BitVec.ofNat 32 e.val) :
    Gen.out0_3 (F := Ideal) x0 x1 x2 (ix3 n o i)
      = Ideal.ofBits .f32 0x3C3504F3#32 * ∑ m : Fin 128, x2 (ix2 e ⟨m.val * 128 + o.val, by omega⟩) * x0 (ix3 n m i) := by
  unfold Gen.out0_3
  rw [View.canon_unit_zero LibHotRows.zeros3]
  simp only [View.ld_unit_zero (S := S128x1) LibHotRows.zeros2, View.ld_unit_zero (S := S64x16384) LibHotRows.zeros2,
    View.ld_unit_zero (S := S128x128x1) LibHotRows.zeros3]
  exact pay0_apply x1 x2 x0 n o i e he

end Cert.KernelIdeal.BodyValue

end
-- ==== Proof.Final0.lean ====
import proofs.«171389_j21672404975706_2_alg».proof.Proof.Gen.KernelIdeal.Frame
import proofs.«171389_j21672404975706_2_alg».proof.Proof.Body0
import Idealize.ShloMosaic.Lib.Pipeline.Value
import Idealize.ShloMosaic.Lib.ValueIdx

/-!
# Region 0: from the blocks the grid points write back to the whole result array

Grid point `t` owns rows `128 * t … 128 * t + 127`: it reads those rows of the input array and of the
segment-id column, and the whole weight table, and writes back those rows of the result. Row `n` of
the result therefore depends only on row `n` of the input, the id of row `n`, and the table; the 64
blocks tile the 8192 rows, so the array after the region is one function of the three arrays the
region finds, index by index.
-/

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.Final0

variable (V : (c : Dev nD) → (b : Ref sig .tc) → Buf (Elt Ideal) ((c : Thread nD τ).loc b))

theorem hz : (![0, 0, 0] : Fin 3 → Nat) = fun _ => 0 := funext fun a => by fin_cases a <;> rfl

/-- The three arrays the region reads, as it finds them: the input rows, the id column, the table. -/
abbrev inp (c : Dev nD) : S8192x128x1.Idx → EReal := V c main_v21
abbrev ids (c : Dev nD) : S8192x1.Idx → BitVec 32 := V c main_v18
abbrev tbl (c : Dev nD) : S64x16384.Idx → EReal := V c main_v20

/-- The result array as one function of the three arrays the region finds: at `(n, o, i)` the scale times
    the sum over `m` of the table entry `(s n, m * 128 + o)` times the input at `(n, m, i)`. -/
def G (c : Dev nD) (s : Fin 8192 → Fin 64) : S8192x128x1.Idx → EReal := fun j =>
  Ideal.ofBits .f32 0x3C3504F3#32 * ∑ m : Fin 128,
    tbl V c (ix2 (s (j 0)) ⟨m.val * 128 + (j 1).val, by have := (j 1).isLt; have := m.isLt; simp only [Matrix.cons_val_one, Matrix.cons_val_zero] at *; omega⟩)
      * inp V c (ix3 (j 0) m (j 2))

/-- The printed index maps over the grid: the row windows sit at block `t`, the table window at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- What point `t` writes back is block `t` of `G`. -/
theorem flushed_eq (c : Dev nD) (s : Fin 8192 → Fin 64)
    (hs : ∀ n : Fin 8192, ids V c (ix2 n (0 : Fin 1)) = BitVec.ofNat 32 (s n).val)
    (t : Fin cfg0.N) :
    (dat0 V c).flushed 3 t = ((cfg0.win 3).blk t).view.read (Elt Ideal) (G V c s) := by
  show (cfg0.win 3).cut (grid0.coords t) ((dat0 V c).after 3 t) = _
  rw [after0_3]
  obtain ⟨e0, e1, e2, e3, e4, e5, e6, e7, e8, e9⟩ := idx_facts t
  have ht : t.val < 64 := t.isLt
  funext j
  obtain ⟨n, o, i, rfl⟩ : ∃ (n : Fin 128) (o : Fin 128) (i : Fin 1), j = ix3 n o i := ⟨j 0, j 1, j 2, eq_ix3 j⟩
  have hrow : t.val * 128 + n.val < 8192 := by have := n.isLt; omega
  -- the id of the row, read through the block
  have he : iblk0 V c 1 t (ix2 n (0 : Fin 1)) = BitVec.ofNat 32 (s ⟨t.val * 128 + n.val, hrow⟩).val := by
    rw [← hs ⟨t.val * 128 + n.val, hrow⟩]
    show ids V c (((cfg0.win 1).blk t).view.emb (ix2 n (0 : Fin 1))) = _
    congr 1
    funext a; apply Fin.ext
    match a with
    | ⟨0, _⟩ => show win0_1.index t (0 : Fin 2) * 128 + 1 * n.val = t.val * 128 + n.val; omega
    | ⟨1, _⟩ => show win0_1.index t (1 : Fin 2) * 1 + 1 * 0 = 0; omega
  refine (Cert.KernelIdeal.BodyValue.out0_3_apply (iblk0 V c 0 t) (iblk0 V c 1 t) (iblk0 V c 2 t) n o i
    (s ⟨t.val * 128 + n.val, hrow⟩) he).trans ?_
  -- the output index of the block entry
  have hemb : ((cfg0.win 3).blk t).view.emb (ix3 n o i) = (ix3 ⟨t.val * 128 + n.val, hrow⟩ o i : S8192x128x1.Idx) := by
    funext a; apply Fin.ext
    match a with
    | ⟨0, _⟩ => show win0_3.index t (0 : Fin 3) * 128 + 1 * n.val = t.val * 128 + n.val; omega
    | ⟨1, _⟩ => show win0_3.index t (1 : Fin 3) * 128 + 1 * o.val = o.val; omega
    | ⟨2, _⟩ => show win0_3.index t (2 : Fin 3) * 1 + 1 * i.val = i.val; omega
  show _ = G V c s (((cfg0.win 3).blk t).view.emb (ix3 n o i))
  rw [hemb]
  unfold G
  congr 1
  refine Finset.sum_congr rfl fun m _ => ?_
  congr 1
  · show tbl V c (((cfg0.win 2).blk t).view.emb (ix2 _ _)) = _
    congr 1
    funext a; apply Fin.ext
    match a with
    | ⟨0, _⟩ => show win0_2.index t (0 : Fin 2) * 64 + 1 * _ = _; rw [e5]; simp
    | ⟨1, _⟩ => show win0_2.index t (1 : Fin 2) * 16384 + 1 * _ = _; rw [e6]; simp
  · show inp V c (((cfg0.win 0).blk t).view.emb (ix3 n m i)) = _
    congr 1
    funext a; apply Fin.ext
    match a with
    | ⟨0, _⟩ => show win0_0.index t (0 : Fin 3) * 128 + 1 * n.val = t.val * 128 + n.val; omega
    | ⟨1, _⟩ => show win0_0.index t (1 : Fin 3) * 128 + 1 * m.val = m.val; omega
    | ⟨2, _⟩ => show win0_0.index t (2 : Fin 3) * 1 + 1 * i.val = i.val; omega

/-- An index of the result array is in point `t`'s block iff each coordinate is in the block's range. -/
theorem mem_blk (t : Fin cfg0.N) (i : S8192x128x1.Idx) :
    i ∈ ((cfg0.win 3).blk t).view.set ↔ ∀ a : Fin 3, win0_3.index t a * S128x128x1.size a ≤ (i a).val ∧ (i a).val < win0_3.index t a * S128x128x1.size a + S128x128x1.size a := by
  show i ∈ ((View.whole main_v22).slice (win0_3.rect t)).set ↔ _
  rw [View.set_slice_whole, Rect.mem_set_unit]
  exact Iff.rfl

/-- Every index of the result array is in the block of the point that owns its row. -/
theorem cover (i : S8192x128x1.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have hi2 : (i 2).val < 1 := (i 2).isLt
  refine ⟨⟨(i 0).val / 128, by show _ < 64; omega⟩, flush0_3 _, ?_⟩
  rw [mem_blk]
  obtain ⟨e0, e1, e2, e3, e4, e5, e6, e7, e8, e9⟩ := idx_facts ⟨(i 0).val / 128, by show _ < 64; omega⟩
  intro a
  match a with
  | ⟨0, _⟩ => show win0_3.index _ (0 : Fin 3) * 128 ≤ (i 0).val ∧ (i 0).val < win0_3.index _ (0 : Fin 3) * 128 + 128; rw [e7]; show (i 0).val / 128 * 128 ≤ _ ∧ _ < (i 0).val / 128 * 128 + 128; omega
  | ⟨1, _⟩ => show win0_3.index _ (1 : Fin 3) * 128 ≤ (i 1).val ∧ (i 1).val < win0_3.index _ (1 : Fin 3) * 128 + 128; rw [e8]; omega
  | ⟨2, _⟩ => show win0_3.index _ (2 : Fin 3) * 1 ≤ (i 2).val ∧ (i 2).val < win0_3.index _ (2 : Fin 3) * 1 + 1; rw [e9]; omega

/-- The result array after the region. -/
theorem final (c : Dev nD) (s : Fin 8192 → Fin 64)
    (hs : ∀ n : Fin 8192, ids V c (ix2 n (0 : Fin 1)) = BitVec.ofNat 32 (s n).val) :
    (dat0 V c).arrAt 3 cfg0.N = G V c s :=
  (dat0 V c).arrAt_eq_of_cover 3 (G V c s) (fun t _ => flushed_eq V c s hs t) cover

end Cert.KernelIdeal.Final0

end
-- ==== Proof.Body1.lean ====
import proofs.«171389_j21672404975706_2_alg».proof.Proof.Gen.KernelIdeal.Frame
import proofs.«171389_j21672404975706_2_alg».proof.Proof.LibHotRows
import Idealize.ShloMosaic.PureOps.Ideal.Laws
import Idealize.ShloMosaic.Lib.ValueIdx
import Idealize.ShloMosaic.Lib.Pipeline.Value

/-!
# The body on a tile of 256 rows of [64, 3] blocks, read at an index

The tile holds 256 rows `x0 : [256, 64, 3]`, their segment numbers `x1 : [256, 1]` and the table
`x2 : [64, 4096]` whose row `g` is the 64 × 64 mixing matrix of segment `g`, input channel major. The body
compares the segment column with the coordinate 0 … 63 to get the one-hot array `[256, 64]`, multiplies it with the table
so that row `n` of the product `[256, 4096]` is the table's row `x1 n`, reads that row as a 64 × 64 matrix
(entry (m, o) at column `m * 64 + o`), contracts it with the row's block over the input channel `m`, and scales by the
constant 0.015625 carried as a 32-bit pattern. On the extended reals the one-hot product is exact — every term but one is
`0 * t = 0` and the remaining one is `1 * t = t` — so for a row whose segment number is `e` the result at (n, o, i) is
the constant times `Σ_m x2 (e, m * 64 + o) * x0 (n, m, i)`.
-/

noncomputable section

open scoped BigOperators

namespace Cert.KernelIdeal.BodyValue

open Cert.KernelIdeal Idealize.ShloMosaic Idealize.ShloMosaic.ValueIdx

variable [Cert.KernelIdeal.Facts]

/-- The body's arithmetic on a tile, at (n, o, i), for a row `n` whose segment number is `e`: the scale times the sum
    over the input channel `m` of the table's entry (e, m * 64 + o) times the block's entry (n, m, i). The outer
    product is the batched one contracting the middle axes; its left factor at (n, m, o) is the one-hot product at
    (n, m * 64 + o), which is the table's row `e` there. -/
theorem pay1_apply (x1 : Vec Ideal S256x1 .i32) (x2 : Vec Ideal S64x4096 .bf16) (x0 : Vec Ideal S256x64x3 .bf16)
    (n : Fin 256) (o : Fin 64) (i : Fin 3) (e : Fin 64)
    (he : x1 (ix2 n (0 : Fin 1)) = BitVec.ofNat 32 e.val) :
    Gen.k1_pay1 (F := Ideal) x1 x2 x0 (ix3 n o i)
      = Ideal.ofBits .f32 0x3C800000#32 * ∑ m : Fin 64, x2 (ix2 e ⟨m.val * 64 + o.val, by omega⟩) * x0 (ix3 n m i) := by
  unfold Gen.k1_pay1
  dsimp only
  rw [mulf_apply, broadcast_apply,
    shapeCast_self x0 Gen.shapeCasts_S256x64x3_S256x64x3, shapeCast_self x2 Gen.shapeCasts_S64x4096_S64x4096]
  refine congrArg (Ideal.ofBits .f32 0x3C800000#32 * ·) ?_
  refine (LibHotRows.matmul_batched_mid_zero_apply (φ₁ := .bf16) (φ₂ := .bf16) dot_S256x64x64_S256x64x3_S256x64x3_1_1_2_2_0_0 rfl rfl
    (fun _ _ => rfl) (fun _ _ => rfl) (fun _ _ => rfl) (fun _ _ => rfl) rfl rfl none _ _ n o i).trans ?_
  refine Finset.sum_congr rfl fun m _ => ?_
  refine congrArg (· * x0 (ix3 n m i)) ?_
  refine (LibHotRows.shapeCast_am_abc_apply _ Gen.shapeCasts_S256x4096_S256x64x64 (by norm_num) n m o
    ⟨m.val * 64 + o.val, by omega⟩ rfl).trans ?_
  rw [truncf_apply]
  exact LibHotRows.hot_matmul_apply (φ₁ := .bf16) (φ₂ := .bf16) dot_S256x64_S64x4096_S256x4096_1_0_0_1_n_n rfl rfl
    (fun _ _ => rfl) (fun _ _ => rfl) rfl rfl none _ x2 n e
    (fun k => LibHotRows.hot_apply (by norm_num) x1 Gen.shapeCasts_S256x1_S256x1 Gen.broadcasts_S256x1_S256x64
      Gen.iota_S256x64_d1_w32 Gen.natLt_1_32 Gen.bitsLt_bf16_f32 n k e he) _

/-- What the body leaves in the output tile, at (n, o, i): the tile is written once, whole, with the body's arithmetic
    on the three input tiles read whole. -/
theorem out1_3_apply (x0 : Vec Ideal S256x64x3 .bf16) (x1 : Vec Ideal S256x1 .i32) (x2 : Vec Ideal S64x4096 .bf16)
    (n : Fin 256) (o : Fin 64) (i : Fin 3) (e : Fin 64)
    (he : x1 (ix2 n (0 : Fin 1)) = BitVec.ofNat 32 e.val) :
    Gen.out1_3 (F := Ideal) x0 x1 x2 (ix3 n o i)
      = Ideal.ofBits .f32 0x3C800000#32 * ∑ m : Fin 64, x2 (ix2 e ⟨m.val * 64 + o.val, by omega⟩) * x0 (ix3 n m i) := by
  unfold Gen.out1_3
  rw [View.canon_unit_zero LibHotRows.zeros3]
  simp only [View.ld_unit_zero (S := S256x1) LibHotRows.zeros2, View.ld_unit_zero (S := S64x4096) LibHotRows.zeros2,
    View.ld_unit_zero (S := S256x64x3) LibHotRows.zeros3]
  exact pay1_apply x1 x2 x0 n o i e he

end Cert.KernelIdeal.BodyValue

end
-- ==== Proof.Final1.lean ====
import proofs.«171389_j21672404975706_2_alg».proof.Proof.Gen.KernelIdeal.Frame
import proofs.«171389_j21672404975706_2_alg».proof.Proof.Body1
import Idealize.ShloMosaic.Lib.Pipeline.Value
import Idealize.ShloMosaic.Lib.ValueIdx

/-!
# Region 1: from the blocks the grid points write back to the whole result array

Grid point `t` owns rows `256 * t … 256 * t + 255`: it reads those rows of the input array and of the
segment-id column, and the whole weight table, and writes back those rows of the result. Row `n` of
the result therefore depends only on row `n` of the input, the id of row `n`, and the table; the 32
blocks tile the 8192 rows, so the array after the region is one function of the three arrays the
region finds, index by index.
-/

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.Final1

variable (V : (c : Dev nD) → (b : Ref sig .tc) → Buf (Elt Ideal) ((c : Thread nD τ).loc b))

theorem hz : (![0, 0, 0] : Fin 3 → Nat) = fun _ => 0 := funext fun a => by fin_cases a <;> rfl

/-- The three arrays the region reads, as it finds them: the input rows, the id column, the table. -/
abbrev inp (c : Dev nD) : S8192x64x3.Idx → EReal := V c main_v25
abbrev ids (c : Dev nD) : S8192x1.Idx → BitVec 32 := V c main_v18
abbrev tbl (c : Dev nD) : S64x4096.Idx → EReal := V c main_v24

/-- The result array as one function of the three arrays the region finds: at `(n, o, i)` the scale times
    the sum over `m` of the table entry `(s n, m * 64 + o)` times the input at `(n, m, i)`. -/
def G (c : Dev nD) (s : Fin 8192 → Fin 64) : S8192x64x3.Idx → EReal := fun j =>
  Ideal.ofBits .f32 0x3C800000#32 * ∑ m : Fin 64,
    tbl V c (ix2 (s (j 0)) ⟨m.val * 64 + (j 1).val, by have := (j 1).isLt; have := m.isLt; simp only [Matrix.cons_val_one, Matrix.cons_val_zero] at *; omega⟩)
      * inp V c (ix3 (j 0) m (j 2))

/-- The printed index maps over the grid: the row windows sit at block `t`, the table window at block 0. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- What point `t` writes back is block `t` of `G`. -/
theorem flushed_eq (c : Dev nD) (s : Fin 8192 → Fin 64)
    (hs : ∀ n : Fin 8192, ids V c (ix2 n (0 : Fin 1)) = BitVec.ofNat 32 (s n).val)
    (t : Fin cfg1.N) :
    (dat1 V c).flushed 3 t = ((cfg1.win 3).blk t).view.read (Elt Ideal) (G V c s) := by
  show (cfg1.win 3).cut (grid1.coords t) ((dat1 V c).after 3 t) = _
  rw [after1_3]
  obtain ⟨e0, e1, e2, e3, e4, e5, e6, e7, e8, e9⟩ := idx_facts t
  have ht : t.val < 32 := t.isLt
  funext j
  obtain ⟨n, o, i, rfl⟩ : ∃ (n : Fin 256) (o : Fin 64) (i : Fin 3), j = ix3 n o i := ⟨j 0, j 1, j 2, eq_ix3 j⟩
  have hrow : t.val * 256 + n.val < 8192 := by have := n.isLt; omega
  -- the id of the row, read through the block
  have he : iblk1 V c 1 t (ix2 n (0 : Fin 1)) = BitVec.ofNat 32 (s ⟨t.val * 256 + n.val, hrow⟩).val := by
    rw [← hs ⟨t.val * 256 + n.val, hrow⟩]
    show ids V c (((cfg1.win 1).blk t).view.emb (ix2 n (0 : Fin 1))) = _
    congr 1
    funext a; apply Fin.ext
    match a with
    | ⟨0, _⟩ => show win1_1.index t (0 : Fin 2) * 256 + 1 * n.val = t.val * 256 + n.val; omega
    | ⟨1, _⟩ => show win1_1.index t (1 : Fin 2) * 1 + 1 * 0 = 0; omega
  refine (Cert.KernelIdeal.BodyValue.out1_3_apply (iblk1 V c 0 t) (iblk1 V c 1 t) (iblk1 V c 2 t) n o i
    (s ⟨t.val * 256 + n.val, hrow⟩) he).trans ?_
  -- the output index of the block entry
  have hemb : ((cfg1.win 3).blk t).view.emb (ix3 n o i) = (ix3 ⟨t.val * 256 + n.val, hrow⟩ o i : S8192x64x3.Idx) := by
    funext a; apply Fin.ext
    match a with
    | ⟨0, _⟩ => show win1_3.index t (0 : Fin 3) * 256 + 1 * n.val = t.val * 256 + n.val; omega
    | ⟨1, _⟩ => show win1_3.index t (1 : Fin 3) * 64 + 1 * o.val = o.val; omega
    | ⟨2, _⟩ => show win1_3.index t (2 : Fin 3) * 3 + 1 * i.val = i.val; omega
  show _ = G V c s (((cfg1.win 3).blk t).view.emb (ix3 n o i))
  rw [hemb]
  unfold G
  congr 1
  refine Finset.sum_congr rfl fun m _ => ?_
  congr 1
  · show tbl V c (((cfg1.win 2).blk t).view.emb (ix2 _ _)) = _
    congr 1
    funext a; apply Fin.ext
    match a with
    | ⟨0, _⟩ => show win1_2.index t (0 : Fin 2) * 64 + 1 * _ = _; rw [e5]; simp
    | ⟨1, _⟩ => show win1_2.index t (1 : Fin 2) * 4096 + 1 * _ = _; rw [e6]; simp
  · show inp V c (((cfg1.win 0).blk t).view.emb (ix3 n m i)) = _
    congr 1
    funext a; apply Fin.ext
    match a with
    | ⟨0, _⟩ => show win1_0.index t (0 : Fin 3) * 256 + 1 * n.val = t.val * 256 + n.val; omega
    | ⟨1, _⟩ => show win1_0.index t (1 : Fin 3) * 64 + 1 * m.val = m.val; omega
    | ⟨2, _⟩ => show win1_0.index t (2 : Fin 3) * 3 + 1 * i.val = i.val; omega

/-- An index of the result array is in point `t`'s block iff each coordinate is in the block's range. -/
theorem mem_blk (t : Fin cfg1.N) (i : S8192x64x3.Idx) :
    i ∈ ((cfg1.win 3).blk t).view.set ↔ ∀ a : Fin 3, win1_3.index t a * S256x64x3.size a ≤ (i a).val ∧ (i a).val < win1_3.index t a * S256x64x3.size a + S256x64x3.size a := by
  show i ∈ ((View.whole main_v26).slice (win1_3.rect t)).set ↔ _
  rw [View.set_slice_whole, Rect.mem_set_unit]
  exact Iff.rfl

/-- Every index of the result array is in the block of the point that owns its row. -/
theorem cover (i : S8192x64x3.Idx) :
    ∃ t : Fin cfg1.N, (cfg1.win 3).flush t = true ∧ i ∈ ((cfg1.win 3).blk t).view.set := by
  have hi0 : (i 0).val < 8192 := (i 0).isLt
  have hi1 : (i 1).val < 64 := (i 1).isLt
  have hi2 : (i 2).val < 3 := (i 2).isLt
  refine ⟨⟨(i 0).val / 256, by show _ < 32; omega⟩, flush1_3 _, ?_⟩
  rw [mem_blk]
  obtain ⟨e0, e1, e2, e3, e4, e5, e6, e7, e8, e9⟩ := idx_facts ⟨(i 0).val / 256, by show _ < 32; omega⟩
  intro a
  match a with
  | ⟨0, _⟩ => show win1_3.index _ (0 : Fin 3) * 256 ≤ (i 0).val ∧ (i 0).val < win1_3.index _ (0 : Fin 3) * 256 + 256; rw [e7]; show (i 0).val / 256 * 256 ≤ _ ∧ _ < (i 0).val / 256 * 256 + 256; omega
  | ⟨1, _⟩ => show win1_3.index _ (1 : Fin 3) * 64 ≤ (i 1).val ∧ (i 1).val < win1_3.index _ (1 : Fin 3) * 64 + 64; rw [e8]; omega
  | ⟨2, _⟩ => show win1_3.index _ (2 : Fin 3) * 3 ≤ (i 2).val ∧ (i 2).val < win1_3.index _ (2 : Fin 3) * 3 + 3; rw [e9]; omega

/-- The result array after the region. -/
theorem final (c : Dev nD) (s : Fin 8192 → Fin 64)
    (hs : ∀ n : Fin 8192, ids V c (ix2 n (0 : Fin 1)) = BitVec.ofNat 32 (s n).val) :
    (dat1 V c).arrAt 3 cfg1.N = G V c s :=
  (dat1 V c).arrAt_eq_of_cover 3 (G V c s) (fun t _ => flushed_eq V c s hs t) cover

end Cert.KernelIdeal.Final1

end
-- ==== Proof.Body2.lean ====
import proofs.«171389_j21672404975706_2_alg».proof.Proof.Gen.KernelIdeal.Frame
import proofs.«171389_j21672404975706_2_alg».proof.Proof.LibHotRows
import Idealize.ShloMosaic.PureOps.Ideal.Laws
import Idealize.ShloMosaic.Lib.ValueIdx
import Idealize.ShloMosaic.Lib.Pipeline.Value

/-!
# The body on a tile of 256 rows of [32, 5] blocks, read at an index

The tile holds 256 rows `x0 : [256, 32, 5]`, their segment numbers `x1 : [256, 1]` and the table
`x2 : [64, 1024]` whose row `g` is the 32 × 32 mixing matrix of segment `g`, input channel major. The body
compares the segment column with the coordinate 0 … 63 to get the one-hot array `[256, 64]`, multiplies it with the table
so that row `n` of the product `[256, 1024]` is the table's row `x1 n`, reads that row as a 32 × 32 matrix
(entry (m, o) at column `m * 32 + o`), contracts it with the row's block over the input channel `m`, and scales by the
constant 0.0220970865 carried as a 32-bit pattern. On the extended reals the one-hot product is exact — every term but one is
`0 * t = 0` and the remaining one is `1 * t = t` — so for a row whose segment number is `e` the result at (n, o, i) is
the constant times `Σ_m x2 (e, m * 32 + o) * x0 (n, m, i)`.
-/

noncomputable section

open scoped BigOperators

namespace Cert.KernelIdeal.BodyValue

open Cert.KernelIdeal Idealize.ShloMosaic Idealize.ShloMosaic.ValueIdx

variable [Cert.KernelIdeal.Facts]

/-- The body's arithmetic on a tile, at (n, o, i), for a row `n` whose segment number is `e`: the scale times the sum
    over the input channel `m` of the table's entry (e, m * 32 + o) times the block's entry (n, m, i). The outer
    product is the batched one contracting the middle axes; its left factor at (n, m, o) is the one-hot product at
    (n, m * 32 + o), which is the table's row `e` there. -/
theorem pay2_apply (x1 : Vec Ideal S256x1 .i32) (x2 : Vec Ideal S64x1024 .bf16) (x0 : Vec Ideal S256x32x5 .bf16)
    (n : Fin 256) (o : Fin 32) (i : Fin 5) (e : Fin 64)
    (he : x1 (ix2 n (0 : Fin 1)) = BitVec.ofNat 32 e.val) :
    Gen.k2_pay1 (F := Ideal) x1 x2 x0 (ix3 n o i)
      = Ideal.ofBits .f32 0x3CB504F3#32 * ∑ m : Fin 32, x2 (ix2 e ⟨m.val * 32 + o.val, by omega⟩) * x0 (ix3 n m i) := by
  unfold Gen.k2_pay1
  dsimp only
  rw [mulf_apply, broadcast_apply,
    shapeCast_self x0 Gen.shapeCasts_S256x32x5_S256x32x5, shapeCast_self x2 Gen.shapeCasts_S64x1024_S64x1024]
  refine congrArg (Ideal.ofBits .f32 0x3CB504F3#32 * ·) ?_
  refine (LibHotRows.matmul_batched_mid_zero_apply (φ₁ := .bf16) (φ₂ := .bf16) dot_S256x32x32_S256x32x5_S256x32x5_1_1_2_2_0_0 rfl rfl
    (fun _ _ => rfl) (fun _ _ => rfl) (fun _ _ => rfl) (fun _ _ => rfl) rfl rfl none _ _ n o i).trans ?_
  refine Finset.sum_congr rfl fun m _ => ?_
  refine congrArg (· * x0 (ix3 n m i)) ?_
  refine (LibHotRows.shapeCast_am_abc_apply _ Gen.shapeCasts_S256x1024_S256x32x32 (by norm_num) n m o
    ⟨m.val * 32 + o.val, by omega⟩ rfl).trans ?_
  rw [truncf_apply]
  exact LibHotRows.hot_matmul_apply (φ₁ := .bf16) (φ₂ := .bf16) dot_S256x64_S64x1024_S256x1024_1_0_0_1_n_n rfl rfl
    (fun _ _ => rfl) (fun _ _ => rfl) rfl rfl none _ x2 n e
    (fun k => LibHotRows.hot_apply (by norm_num) x1 Gen.shapeCasts_S256x1_S256x1 Gen.broadcasts_S256x1_S256x64
      Gen.iota_S256x64_d1_w32 Gen.natLt_1_32 Gen.bitsLt_bf16_f32 n k e he) _

/-- What the body leaves in the output tile, at (n, o, i): the tile is written once, whole, with the body's arithmetic
    on the three input tiles read whole. -/
theorem out2_3_apply (x0 : Vec Ideal S256x32x5 .bf16) (x1 : Vec Ideal S256x1 .i32) (x2 : Vec Ideal S64x1024 .bf16)
    (n : Fin 256) (o : Fin 32) (i : Fin 5) (e : Fin 64)
    (he : x1 (ix2 n (0 : Fin 1)) = BitVec.ofNat 32 e.val) :
    Gen.out2_3 (F := Ideal) x0 x1 x2 (ix3 n o i)
      = Ideal.ofBits .f32 0x3CB504F3#32 * ∑ m : Fin 32, x2 (ix2 e ⟨m.val * 32 + o.val, by omega⟩) * x0 (ix3 n m i) := by
  unfold Gen.out2_3
  rw [View.canon_unit_zero LibHotRows.zeros3]
  simp only [View.ld_unit_zero (S := S256x1) LibHotRows.zeros2, View.ld_unit_zero (S := S64x1024) LibHotRows.zeros2,
    View.ld_unit_zero (S := S256x32x5) LibHotRows.zeros3]
  exact pay2_apply x1 x2 x0 n o i e he

end Cert.KernelIdeal.BodyValue

end
-- ==== Proof.Final2.lean ====
import proofs.«171389_j21672404975706_2_alg».proof.Proof.Gen.KernelIdeal.Frame
import proofs.«171389_j21672404975706_2_alg».proof.Proof.Body2
import Idealize.ShloMosaic.Lib.Pipeline.Value
import Idealize.ShloMosaic.Lib.ValueIdx

/-!
# Region 2: from the blocks the grid points write back to the whole result array

Grid point `t` owns rows `256 * t … 256 * t + 255`: it reads those rows of the input array and of the
segment-id column, and the whole weight table, and writes back those rows of the result. Row `n` of
the result therefore depends only on row `n` of the input, the id of row `n`, and the table; the 32
blocks tile the 8192 rows, so the array after the region is one function of the three arrays the
region finds, index by index.
-/

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.Final2

variable (V : (c : Dev nD) → (b : Ref sig .tc) → Buf (Elt Ideal) ((c : Thread nD τ).loc b))

theorem hz : (![0, 0, 0] : Fin 3 → Nat) = fun _ => 0 := funext fun a => by fin_cases a <;> rfl

/-- The three arrays the region reads, as it finds them: the input rows, the id column, the table. -/
abbrev inp (c : Dev nD) : S8192x32x5.Idx → EReal := V c main_v29
abbrev ids (c : Dev nD) : S8192x1.Idx → BitVec 32 := V c main_v18
abbrev tbl (c : Dev nD) : S64x1024.Idx → EReal := V c main_v28

/-- The result array as one function of the three arrays the region finds: at `(n, o, i)` the scale times
    the sum over `m` of the table entry `(s n, m * 32 + o)` times the input at `(n, m, i)`. -/
def G (c : Dev nD) (s : Fin 8192 → Fin 64) : S8192x32x5.Idx → EReal := fun j =>
  Ideal.ofBits .f32 0x3CB504F3#32 * ∑ m : Fin 32,
    tbl V c (ix2 (s (j 0)) ⟨m.val * 32 + (j 1).val, by have := (j 1).isLt; have := m.isLt; simp only [Matrix.cons_val_one, Matrix.cons_val_zero] at *; omega⟩)
      * inp V c (ix3 (j 0) m (j 2))

/-- The printed index maps over the grid: the row windows sit at block `t`, the table window at block 0. -/
theorem idx_facts : ∀ t : Fin cfg2.N,
    win2_0.index t (0 : Fin 3) = t.val ∧ win2_0.index t (1 : Fin 3) = 0 ∧ win2_0.index t (2 : Fin 3) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0 :=
  (by decide +kernel : ∀ t : Fin grid2.N, _)

/-- What point `t` writes back is block `t` of `G`. -/
theorem flushed_eq (c : Dev nD) (s : Fin 8192 → Fin 64)
    (hs : ∀ n : Fin 8192, ids V c (ix2 n (0 : Fin 1)) = BitVec.ofNat 32 (s n).val)
    (t : Fin cfg2.N) :
    (dat2 V c).flushed 3 t = ((cfg2.win 3).blk t).view.read (Elt Ideal) (G V c s) := by
  show (cfg2.win 3).cut (grid2.coords t) ((dat2 V c).after 3 t) = _
  rw [after2_3]
  obtain ⟨e0, e1, e2, e3, e4, e5, e6, e7, e8, e9⟩ := idx_facts t
  have ht : t.val < 32 := t.isLt
  funext j
  obtain ⟨n, o, i, rfl⟩ : ∃ (n : Fin 256) (o : Fin 32) (i : Fin 5), j = ix3 n o i := ⟨j 0, j 1, j 2, eq_ix3 j⟩
  have hrow : t.val * 256 + n.val < 8192 := by have := n.isLt; omega
  -- the id of the row, read through the block
  have he : iblk2 V c 1 t (ix2 n (0 : Fin 1)) = BitVec.ofNat 32 (s ⟨t.val * 256 + n.val, hrow⟩).val := by
    rw [← hs ⟨t.val * 256 + n.val, hrow⟩]
    show ids V c (((cfg2.win 1).blk t).view.emb (ix2 n (0 : Fin 1))) = _
    congr 1
    funext a; apply Fin.ext
    match a with
    | ⟨0, _⟩ => show win2_1.index t (0 : Fin 2) * 256 + 1 * n.val = t.val * 256 + n.val; omega
    | ⟨1, _⟩ => show win2_1.index t (1 : Fin 2) * 1 + 1 * 0 = 0; omega
  refine (Cert.KernelIdeal.BodyValue.out2_3_apply (iblk2 V c 0 t) (iblk2 V c 1 t) (iblk2 V c 2 t) n o i
    (s ⟨t.val * 256 + n.val, hrow⟩) he).trans ?_
  -- the output index of the block entry
  have hemb : ((cfg2.win 3).blk t).view.emb (ix3 n o i) = (ix3 ⟨t.val * 256 + n.val, hrow⟩ o i : S8192x32x5.Idx) := by
    funext a; apply Fin.ext
    match a with
    | ⟨0, _⟩ => show win2_3.index t (0 : Fin 3) * 256 + 1 * n.val = t.val * 256 + n.val; omega
    | ⟨1, _⟩ => show win2_3.index t (1 : Fin 3) * 32 + 1 * o.val = o.val; omega
    | ⟨2, _⟩ => show win2_3.index t (2 : Fin 3) * 5 + 1 * i.val = i.val; omega
  show _ = G V c s (((cfg2.win 3).blk t).view.emb (ix3 n o i))
  rw [hemb]
  unfold G
  congr 1
  refine Finset.sum_congr rfl fun m _ => ?_
  congr 1
  · show tbl V c (((cfg2.win 2).blk t).view.emb (ix2 _ _)) = _
    congr 1
    funext a; apply Fin.ext
    match a with
    | ⟨0, _⟩ => show win2_2.index t (0 : Fin 2) * 64 + 1 * _ = _; rw [e5]; simp
    | ⟨1, _⟩ => show win2_2.index t (1 : Fin 2) * 1024 + 1 * _ = _; rw [e6]; simp
  · show inp V c (((cfg2.win 0).blk t).view.emb (ix3 n m i)) = _
    congr 1
    funext a; apply Fin.ext
    match a with
    | ⟨0, _⟩ => show win2_0.index t (0 : Fin 3) * 256 + 1 * n.val = t.val * 256 + n.val; omega
    | ⟨1, _⟩ => show win2_0.index t (1 : Fin 3) * 32 + 1 * m.val = m.val; omega
    | ⟨2, _⟩ => show win2_0.index t (2 : Fin 3) * 5 + 1 * i.val = i.val; omega

/-- An index of the result array is in point `t`'s block iff each coordinate is in the block's range. -/
theorem mem_blk (t : Fin cfg2.N) (i : S8192x32x5.Idx) :
    i ∈ ((cfg2.win 3).blk t).view.set ↔ ∀ a : Fin 3, win2_3.index t a * S256x32x5.size a ≤ (i a).val ∧ (i a).val < win2_3.index t a * S256x32x5.size a + S256x32x5.size a := by
  show i ∈ ((View.whole main_v30).slice (win2_3.rect t)).set ↔ _
  rw [View.set_slice_whole, Rect.mem_set_unit]
  exact Iff.rfl

/-- Every index of the result array is in the block of the point that owns its row. -/
theorem cover (i : S8192x32x5.Idx) :
    ∃ t : Fin cfg2.N, (cfg2.win 3).flush t = true ∧ i ∈ ((cfg2.win 3).blk t).view.set := by
  have hi0 : (i 0).val < 8192 := (i 0).isLt
  have hi1 : (i 1).val < 32 := (i 1).isLt
  have hi2 : (i 2).val < 5 := (i 2).isLt
  refine ⟨⟨(i 0).val / 256, by show _ < 32; omega⟩, flush2_3 _, ?_⟩
  rw [mem_blk]
  obtain ⟨e0, e1, e2, e3, e4, e5, e6, e7, e8, e9⟩ := idx_facts ⟨(i 0).val / 256, by show _ < 32; omega⟩
  intro a
  match a with
  | ⟨0, _⟩ => show win2_3.index _ (0 : Fin 3) * 256 ≤ (i 0).val ∧ (i 0).val < win2_3.index _ (0 : Fin 3) * 256 + 256; rw [e7]; show (i 0).val / 256 * 256 ≤ _ ∧ _ < (i 0).val / 256 * 256 + 256; omega
  | ⟨1, _⟩ => show win2_3.index _ (1 : Fin 3) * 32 ≤ (i 1).val ∧ (i 1).val < win2_3.index _ (1 : Fin 3) * 32 + 32; rw [e8]; omega
  | ⟨2, _⟩ => show win2_3.index _ (2 : Fin 3) * 5 ≤ (i 2).val ∧ (i 2).val < win2_3.index _ (2 : Fin 3) * 5 + 5; rw [e9]; omega

/-- The result array after the region. -/
theorem final (c : Dev nD) (s : Fin 8192 → Fin 64)
    (hs : ∀ n : Fin 8192, ids V c (ix2 n (0 : Fin 1)) = BitVec.ofNat 32 (s n).val) :
    (dat2 V c).arrAt 3 cfg2.N = G V c s :=
  (dat2 V c).arrAt_eq_of_cover 3 (G V c s) (fun t _ => flushed_eq V c s hs t) cover

end Cert.KernelIdeal.Final2

end
-- ==== Proof.EntryIds.lean ====
import proofs.«171389_j21672404975706_2_alg».proof.Proof.Gen.KernelIdeal.Frame
import proofs.«171389_j21672404975706_2_alg».proof.Proof.SidRange
import Idealize.ShloMosaic.Lib.StableHlo.Run

/-!
# The segment ids the first kernel is launched with

The host operations before the first launch compute, from the counts, the segment ids and reshape
them to a column. Each stretch of operations is read as a function of the buffers it starts from; the
stretches composed give the column as the reshaped `Sid.sid` of the counts held at launch.
-/

noncomputable section

namespace Cert.KernelIdeal.Entry

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The counts core `c` holds at launch. -/
abbrev cnt (c : Dev nD) : S64.Idx → BitVec 32 := m ((c : Thread nD τ).loc main_arg4)

/-! ## The stretches' functions -/

/-- @_roll_static: the counts moved one place up, the last first. -/
def roll (counts : IVec S64 32) : IVec S64 32 :=
  concatenate S64 0 [⟨S1, extractStridedSlice S1 ![63] counts slices_S64_S1_63⟩,
    ⟨S63, extractStridedSlice S63 ![0] counts slices_S64_S63_0⟩] concatenates_S1_S63_S64_d0

/-- %c … %3 of @main: entry 0 set to zero. -/
def setFirst (v1 : IVec S64 32) : IVec S64 32 :=
  Host.scatter scatter_S64_S1_S__n_0_0_0 (fun _ b => b) v1 (broadcastInDim S1 ![] bcast_S_S1 (constantI S_ 32 0#32))
    (constantI S_ 32 0#32)

/-- @cumsum: the cumulative sum of 64 entries. -/
def cum64 (v3 : IVec S64 32) : IVec S64 32 :=
  Host.reduceWindow IntOp.addi ![64] ![1] ![63] ![0] v3
    (broadcastInDim S_ ![] bcast_S_S_ (constantI S_ 32 0#32)) reduceWindows_S64_S64_w64s1p63_0 h_S_

/-- %6 … %11 of @main: a negative start counted from the end, as a column. -/
def posOf (v4 : IVec S64 32) : IVec S64x1 32 :=
  broadcastInDim S64x1 ![0] bcast_S64_S64x1_0
    (select (cmpi .slt v4 (broadcastInDim S64 ![] bcast_S_S64 (constantI S_ 32 0#32)))
      (addi v4 (broadcastInDim S64 ![] bcast_S_S64 (constantI S_ 32 8192#32))) v4)

/-- %5, %12, %13 of @main: ones added at the positions into zeros. -/
def scat (v11 : IVec S64x1 32) : IVec S8192 32 :=
  Host.scatter scatter_S8192_S64x1_S64_n_0_0_1 IntOp.addi (broadcastInDim S8192 ![] bcast_S_S8192 (constantI S_ 32 0#32)) v11
    (broadcastInDim S64 ![] bcast_S_S64 (constantI S_ 32 1#32))

/-- @cumsum_1: the cumulative sum of 8192 entries. -/
def cum8192 (v13 : IVec S8192 32) : IVec S8192 32 :=
  Host.reduceWindow IntOp.addi ![8192] ![1] ![8191] ![0] v13
    (broadcastInDim S_ ![] bcast_S_S_ (constantI S_ 32 0#32)) reduceWindows_S8192_S8192_w8192s1p8191_0 h_S_

/-- %15, %16 of @main: one subtracted. -/
def less1 (v14 : IVec S8192 32) : IVec S8192 32 :=
  subi v14 (broadcastInDim S8192 ![] bcast_S_S8192 (constantI S_ 32 1#32))

/-- @_take: the table `v0` read at the positions `v16`, a negative one counted from the end, one outside the table
    giving the fill word. -/
def takeFn (v0 : IVec S64 32) (v16 : IVec S8192 32) : IVec S8192 32 :=
  let t0 : IVec S8192 32 := broadcastInDim S8192 ![] bcast_S_S8192 (constantI S_ 32 0#32)
  let t1 : IVec S8192 1 := cmpi .slt v16 t0
  let t2 : IVec S8192 32 := broadcastInDim S8192 ![] bcast_S_S8192 (constantI S_ 32 64#32)
  let t3 : IVec S8192 32 := addi v16 t2
  let t4 : IVec S8192 32 := select t1 t3 v16
  let t5 : IVec S8192x1 32 := broadcastInDim S8192x1 ![0] bcast_S8192_S8192x1_0 t4
  let c1 : IVec S1 32 := constantI S1 32 63#32
  let t6 : IVec S8192x1 32 := broadcastInDim S8192x1 ![] bcast_S_S8192x1 (constantI S_ 32 0#32)
  let t7 : IVec S8192x1 1 := cmpi .sge t5 t6
  let t8 : IVec S1x1 32 := broadcastInDim S1x1 ![1] bcast_S1_S1x1_1 c1
  let t9 : IVec S8192x1 32 := broadcastInDim S8192x1 ![0, 1] bcast_S1x1_S8192x1_0_1 t8
  let t10 : IVec S8192x1 1 := cmpi .sle t5 t9
  let t11 : IVec S8192x1 1 := andi t7 t10
  let t12 : IVec S8192 1 := Host.reduce IntOp.andi t11 (constantI S_ 1 1#1) reducesTo_S8192x1_S8192_d1 h_S_
  let t13 : IVec S8192 32 := Host.gather gather_S64_S8192x1_S8192_n_0_n_n_0_1_1 v0 t5
  let t14 : IVec S8192 32 := broadcastInDim S8192 ![] bcast_S_S8192 (constantI S_ 32 2147483648#32)
  select t12 t13 t14

/-- The stretches composed are `Sid.sid`. -/
theorem sid_eq (counts : IVec S64 32) :
    Cert.KernelIdeal.Sid.sid counts
      = takeFn (iotaInDim S64 32 0) (less1 (cum8192 (scat (posOf (cum64 (setFirst (roll counts))))))) := rfl

/-! ## Each stretch read at the buffer a later one reads

From any contents `G` of the buffers: the fold through the stretch's operations, read at one buffer, is the
stretch's function of the contents it starts from (or the contents themselves, at a buffer it does not write). The
operations' own bodies stay folded; only the chain of buffer updates is computed. -/

attribute [local irreducible] Host.reduce Host.gather Host.scatter Host.reduceWindow shapeCast broadcastInDim
  extractStridedSlice concatenate select cmpi addi subi andi iotaInDim constantI in
set_option maxRecDepth 8192 in
set_option maxHeartbeats 400000 in
/-- The last stretch reshapes the segment ids to a column. -/
theorem st8_v18 (G : Valuation τ sig (Elt Ideal)) :
    after (hostOps0_8 (F := Ideal)) G (Proc.devRef .tc main_v18) = shapeCast S8192x1 (G (Proc.devRef .tc main_v17) : S8192.Idx → BitVec 32) shapeCasts_S8192_S8192x1 := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- @_take's operations compute `takeFn` of the table and the positions. -/
theorem st7_v17 (G : Valuation τ sig (Elt Ideal)) :
    after (hostOps0_7 (F := Ideal)) G (Proc.devRef .tc main_v17) = takeFn (G (Proc.devRef .tc main_v0)) (G (Proc.devRef .tc main_v16)) := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- One is subtracted from the cumulative sums. -/
theorem st6_v16 (G : Valuation τ sig (Elt Ideal)) :
    after (hostOps0_6 (F := Ideal)) G (Proc.devRef .tc main_v16) = less1 (G (Proc.devRef .tc main_v14)) := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- Stretch 6 leaves the table `0, …, 63` where it was. -/
theorem st6_v0 (G : Valuation τ sig (Elt Ideal)) :
    after (hostOps0_6 (F := Ideal)) G (Proc.devRef .tc main_v0) = G (Proc.devRef .tc main_v0) := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- @cumsum_1's operations compute the cumulative sum of the 8192 counts. -/
theorem st5_v14 (G : Valuation τ sig (Elt Ideal)) :
    after (hostOps0_5 (F := Ideal)) G (Proc.devRef .tc main_v14) = cum8192 (G (Proc.devRef .tc main_v13)) := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- Stretch 5 leaves the table `0, …, 63` where it was. -/
theorem st5_v0 (G : Valuation τ sig (Elt Ideal)) :
    after (hostOps0_5 (F := Ideal)) G (Proc.devRef .tc main_v0) = G (Proc.devRef .tc main_v0) := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- The positions are wrapped and ones are added at them into zeros. -/
theorem st4_v13 (G : Valuation τ sig (Elt Ideal)) :
    after (hostOps0_4 (F := Ideal)) G (Proc.devRef .tc main_v13) = scat (posOf (G (Proc.devRef .tc main_v4))) := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- Stretch 4 leaves the table `0, …, 63` where it was. -/
theorem st4_v0 (G : Valuation τ sig (Elt Ideal)) :
    after (hostOps0_4 (F := Ideal)) G (Proc.devRef .tc main_v0) = G (Proc.devRef .tc main_v0) := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- @cumsum's operations compute the cumulative sum of the 64 entries. -/
theorem st3_v4 (G : Valuation τ sig (Elt Ideal)) :
    after (hostOps0_3 (F := Ideal)) G (Proc.devRef .tc main_v4) = cum64 (G (Proc.devRef .tc main_v3)) := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- Stretch 3 leaves the table `0, …, 63` where it was. -/
theorem st3_v0 (G : Valuation τ sig (Elt Ideal)) :
    after (hostOps0_3 (F := Ideal)) G (Proc.devRef .tc main_v0) = G (Proc.devRef .tc main_v0) := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- Entry 0 of the rolled counts is set to zero. -/
theorem st2_v3 (G : Valuation τ sig (Elt Ideal)) :
    after (hostOps0_2 (F := Ideal)) G (Proc.devRef .tc main_v3) = setFirst (G (Proc.devRef .tc main_v1)) := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- Stretch 2 leaves the table `0, …, 63` where it was. -/
theorem st2_v0 (G : Valuation τ sig (Elt Ideal)) :
    after (hostOps0_2 (F := Ideal)) G (Proc.devRef .tc main_v0) = G (Proc.devRef .tc main_v0) := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- @_roll_static's operations roll the counts. -/
theorem st1_v1 (G : Valuation τ sig (Elt Ideal)) :
    after (hostOps0_1 (F := Ideal)) G (Proc.devRef .tc main_v1) = roll (G (Proc.devRef .tc main_arg4)) := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- Stretch 1 leaves the table `0, …, 63` where it was. -/
theorem st1_v0 (G : Valuation τ sig (Elt Ideal)) :
    after (hostOps0_1 (F := Ideal)) G (Proc.devRef .tc main_v0) = G (Proc.devRef .tc main_v0) := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- The first stretch writes the table `0, …, 63`. -/
theorem st0_v0 (G : Valuation τ sig (Elt Ideal)) :
    after (hostOps0 (F := Ideal)) G (Proc.devRef .tc main_v0) = (iotaInDim S64 32 0 : S64.Idx → BitVec 32) := by
  simp only [after_cons, after_nil]
  rfl

attribute [local irreducible] Host.reduce Host.gather Host.scatter Host.reduceWindow shapeCast broadcastInDim
  extractStridedSlice concatenate select cmpi addi subi andi iotaInDim constantI in
set_option maxRecDepth 8192 in
set_option maxHeartbeats 400000 in
/-- The first stretch leaves the counts where they were. -/
theorem st0_arg4 (G : Valuation τ sig (Elt Ideal)) :
    after (hostOps0 (F := Ideal)) G (Proc.devRef .tc main_arg4) = G (Proc.devRef .tc main_arg4) := by
  simp only [after_cons, after_nil]
  rfl

/-! ## The stretches composed -/

/-- The segment-id column at the first launch is the reshaped `Sid.sid` of the counts. -/
theorem ids9 (c : Dev nD) : (V9 m ρ c main_v18 : S8192x1.Idx → BitVec 32)
    = shapeCast S8192x1 (Cert.KernelIdeal.Sid.sid (cnt m c)) shapeCasts_S8192_S8192x1 := by
  have e8 : W9 m ρ c (Proc.devRef .tc main_v18)
      = shapeCast S8192x1 (W8 m ρ c (Proc.devRef .tc main_v17) : S8192.Idx → BitVec 32) shapeCasts_S8192_S8192x1 :=
    st8_v18 (W8 m ρ c)
  have e7 : W8 m ρ c (Proc.devRef .tc main_v17) = takeFn (W7 m ρ c (Proc.devRef .tc main_v0)) (W7 m ρ c (Proc.devRef .tc main_v16)) :=
    st7_v17 (W7 m ρ c)
  have e6a : W7 m ρ c (Proc.devRef .tc main_v16) = less1 (W6 m ρ c (Proc.devRef .tc main_v14)) := st6_v16 (W6 m ρ c)
  have e6b : W7 m ρ c (Proc.devRef .tc main_v0) = W6 m ρ c (Proc.devRef .tc main_v0) := st6_v0 (W6 m ρ c)
  have e5a : W6 m ρ c (Proc.devRef .tc main_v14) = cum8192 (W5 m ρ c (Proc.devRef .tc main_v13)) := st5_v14 (W5 m ρ c)
  have e5b : W6 m ρ c (Proc.devRef .tc main_v0) = W5 m ρ c (Proc.devRef .tc main_v0) := st5_v0 (W5 m ρ c)
  have e4a : W5 m ρ c (Proc.devRef .tc main_v13) = scat (posOf (W4 m ρ c (Proc.devRef .tc main_v4))) := st4_v13 (W4 m ρ c)
  have e4b : W5 m ρ c (Proc.devRef .tc main_v0) = W4 m ρ c (Proc.devRef .tc main_v0) := st4_v0 (W4 m ρ c)
  have e3a : W4 m ρ c (Proc.devRef .tc main_v4) = cum64 (W3 m ρ c (Proc.devRef .tc main_v3)) := st3_v4 (W3 m ρ c)
  have e3b : W4 m ρ c (Proc.devRef .tc main_v0) = W3 m ρ c (Proc.devRef .tc main_v0) := st3_v0 (W3 m ρ c)
  have e2a : W3 m ρ c (Proc.devRef .tc main_v3) = setFirst (W2 m ρ c (Proc.devRef .tc main_v1)) := st2_v3 (W2 m ρ c)
  have e2b : W3 m ρ c (Proc.devRef .tc main_v0) = W2 m ρ c (Proc.devRef .tc main_v0) := st2_v0 (W2 m ρ c)
  have e1a : W2 m ρ c (Proc.devRef .tc main_v1) = roll (W1 m ρ c (Proc.devRef .tc main_arg4)) := st1_v1 (W1 m ρ c)
  have e1b : W2 m ρ c (Proc.devRef .tc main_v0) = W1 m ρ c (Proc.devRef .tc main_v0) := st1_v0 (W1 m ρ c)
  have e0a : W1 m ρ c (Proc.devRef .tc main_v0) = (iotaInDim S64 32 0 : S64.Idx → BitVec 32) := st0_v0 (W0 m ρ c)
  have e0b : W1 m ρ c (Proc.devRef .tc main_arg4) = cnt m c := st0_arg4 (W0 m ρ c)
  have hv0 : W7 m ρ c (Proc.devRef .tc main_v0) = (iotaInDim S64 32 0 : S64.Idx → BitVec 32) := by
    rw [e6b, e5b, e4b, e3b, e2b, e1b, e0a]
  have hv16 : W7 m ρ c (Proc.devRef .tc main_v16)
      = less1 (cum8192 (scat (posOf (cum64 (setFirst (roll (cnt m c))))))) := by
    rw [e6a, e5a, e4a, e3a, e2a, e1a, e0b]
  show W9 m ρ c (Proc.devRef .tc main_v18) = _
  rw [e8, e7, hv0, hv16, sid_eq]

end Cert.KernelIdeal.Entry

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.KernelValue.lean ====
import proofs.«171389_j21672404975706_2_alg».proof.Proof.Walk
import proofs.«171389_j21672404975706_2_alg».proof.Proof.Final0
import proofs.«171389_j21672404975706_2_alg».proof.Proof.Final1
import proofs.«171389_j21672404975706_2_alg».proof.Proof.Final2
import proofs.«171389_j21672404975706_2_alg».proof.Proof.EntryIds
import proofs.«171389_j21672404975706_2_alg».proof.Proof.LibColumn
import proofs.«171389_j21672404975706_2_alg».proof.Proof.Spec
import Idealize.ShloMosaic.Lib.Pipeline.Value

/-!
# The idealized kernel's three results, as functions of the arguments

Each result array ends at what its region's write-backs leave, which is one function of the three arrays
the region finds; those are the argument rows, a slice of the weight argument, and the id column. With
the ids written as the words of a segment map `s`, result `k` is the indexed linear map `Y_k` of the
arguments and `s`.
-/

set_option maxRecDepth 16384

noncomputable section

open Idealize.ShloMosaic Idealize.ShloMosaic.TcCoe Idealize.ShloMosaic.ValueIdx Idealize.SL.Sem
open Cert.KernelIdeal Cert.KernelIdeal.Gen Cert.KernelIdeal.Walk

namespace Cert.KernelIdeal.Value

variable (m : (ℓ : Loc nD τ sig) → Buf (Elt Ideal) ℓ) (ρ : Dev nD → PrngReg)

/-- The ids the region finds are the words `ofNat (s n)`. -/
theorem ids_at0 (c : Dev nD) (s : Fin 8192 → Fin 64)
    (hs : ∀ n : Fin 8192, Cert.KernelIdeal.Sid.sid (Entry.cnt m c) (ix1 n) = BitVec.ofNat 32 (s n).val) (n : Fin 8192) :
    Final0.ids (V9 m ρ) c (ix2 n (0 : Fin 1)) = BitVec.ofNat 32 (s n).val := by
  show (V9 m ρ c main_v18 : S8192x1.Idx → BitVec 32) (ix2 n (0 : Fin 1)) = _
  refine (congrFun (Entry.ids9 m ρ c) _).trans ?_
  exact (Cert.LibColumn.shapeCast_a_a1_apply _ _ n 0).trans (hs n)

/-- What the region's write-backs leave is the indexed linear map of the arguments: the table the region finds
    is the weight argument's columns from 0 on, its input rows are the argument's. -/
theorem G_eq0 (c : Dev nD) (s : Fin 8192 → Fin 64) :
    Final0.G (V9 m ρ) c s = Cert.Spec.Y0 (xs0 m c) (ws m c) s := by
  funext j
  unfold Final0.G Cert.Spec.Y0 Cert.Spec.mix
  refine congrArg (fun z : EReal => Ideal.ofBits .f32 0x3C3504F3#32 * z) (Finset.sum_congr rfl fun mm _ => ?_)
  have e1 : Final0.tbl (V9 m ρ) c (ix2 (s (j 0)) ⟨mm.val * 128 + (j 1).val, by have := (j 1).isLt; have := mm.isLt; simp only [Matrix.cons_val_one, Matrix.cons_val_zero] at *; omega⟩)
      = ws m c (ix2 (s (j 0)) ⟨0 + (mm.val * 128 + (j 1).val), Cert.Spec.col_lt (by decide) mm.isLt (j 1).isLt⟩) := by
    show (V9 m ρ c main_v20 : S64x16384.Idx → EReal) _ = _
    refine (congrFun (tbl0 m ρ c) _).trans ?_
    rw [ValueIdx.truncf_apply]
    refine extractStridedSlice_apply _ _ _ _ _ fun a => ?_
    match a with
    | ⟨0, _⟩ => exact (Nat.zero_add _).symm
    | ⟨1, _⟩ => rfl
  have e2 : Final0.inp (V9 m ρ) c (ix3 (j 0) mm (j 2)) = xs0 m c (ix3 (j 0) mm (j 2)) := by
    show (V9 m ρ c main_v21 : S8192x128x1.Idx → EReal) _ = _
    exact congrFun (inp0 m ρ c) _
  rw [e1, e2]

/-- Result 0 of the kernel is the indexed linear map of its input, the weight table and the segment map. -/
theorem out0 (c : Dev nD) (s : Fin 8192 → Fin 64)
    (hs : ∀ n : Fin 8192, Cert.KernelIdeal.Sid.sid (Entry.cnt m c) (ix1 n) = BitVec.ofNat 32 (s n).val) :
    W14 m ρ c (Proc.devRef .tc main_v22) = Cert.Spec.Y0 (xs0 m c) (ws m c) s :=
  ((res0 m ρ c).trans (Final0.final (V9 m ρ) c s (ids_at0 m ρ c s hs))).trans (G_eq0 m ρ c s)

/-- The ids the region finds are the words `ofNat (s n)`. -/
theorem ids_at1 (c : Dev nD) (s : Fin 8192 → Fin 64)
    (hs : ∀ n : Fin 8192, Cert.KernelIdeal.Sid.sid (Entry.cnt m c) (ix1 n) = BitVec.ofNat 32 (s n).val) (n : Fin 8192) :
    Final1.ids (V11 m ρ) c (ix2 n (0 : Fin 1)) = BitVec.ofNat 32 (s n).val := by
  show (V11 m ρ c main_v18 : S8192x1.Idx → BitVec 32) (ix2 n (0 : Fin 1)) = _
  refine (congrFun ((ids1 m ρ c).trans (Entry.ids9 m ρ c)) _).trans ?_
  exact (Cert.LibColumn.shapeCast_a_a1_apply _ _ n 0).trans (hs n)

/-- What the region's write-backs leave is the indexed linear map of the arguments: the table the region finds
    is the weight argument's columns from 16384 on, its input rows are the argument's. -/
theorem G_eq1 (c : Dev nD) (s : Fin 8192 → Fin 64) :
    Final1.G (V11 m ρ) c s = Cert.Spec.Y1 (xs1 m c) (ws m c) s := by
  funext j
  unfold Final1.G Cert.Spec.Y1 Cert.Spec.mix
  refine congrArg (fun z : EReal => Ideal.ofBits .f32 0x3C800000#32 * z) (Finset.sum_congr rfl fun mm _ => ?_)
  have e1 : Final1.tbl (V11 m ρ) c (ix2 (s (j 0)) ⟨mm.val * 64 + (j 1).val, by have := (j 1).isLt; have := mm.isLt; simp only [Matrix.cons_val_one, Matrix.cons_val_zero] at *; omega⟩)
      = ws m c (ix2 (s (j 0)) ⟨16384 + (mm.val * 64 + (j 1).val), Cert.Spec.col_lt (by decide) mm.isLt (j 1).isLt⟩) := by
    show (V11 m ρ c main_v24 : S64x4096.Idx → EReal) _ = _
    refine (congrFun (tbl1 m ρ c) _).trans ?_
    rw [ValueIdx.truncf_apply]
    refine extractStridedSlice_apply _ _ _ _ _ fun a => ?_
    match a with
    | ⟨0, _⟩ => exact (Nat.zero_add _).symm
    | ⟨1, _⟩ => rfl
  have e2 : Final1.inp (V11 m ρ) c (ix3 (j 0) mm (j 2)) = xs1 m c (ix3 (j 0) mm (j 2)) := by
    show (V11 m ρ c main_v25 : S8192x64x3.Idx → EReal) _ = _
    exact congrFun (inp1 m ρ c) _
  rw [e1, e2]

/-- Result 1 of the kernel is the indexed linear map of its input, the weight table and the segment map. -/
theorem out1 (c : Dev nD) (s : Fin 8192 → Fin 64)
    (hs : ∀ n : Fin 8192, Cert.KernelIdeal.Sid.sid (Entry.cnt m c) (ix1 n) = BitVec.ofNat 32 (s n).val) :
    W14 m ρ c (Proc.devRef .tc main_v26) = Cert.Spec.Y1 (xs1 m c) (ws m c) s :=
  ((res1 m ρ c).trans (Final1.final (V11 m ρ) c s (ids_at1 m ρ c s hs))).trans (G_eq1 m ρ c s)

/-- The ids the region finds are the words `ofNat (s n)`. -/
theorem ids_at2 (c : Dev nD) (s : Fin 8192 → Fin 64)
    (hs : ∀ n : Fin 8192, Cert.KernelIdeal.Sid.sid (Entry.cnt m c) (ix1 n) = BitVec.ofNat 32 (s n).val) (n : Fin 8192) :
    Final2.ids (V13 m ρ) c (ix2 n (0 : Fin 1)) = BitVec.ofNat 32 (s n).val := by
  show (V13 m ρ c main_v18 : S8192x1.Idx → BitVec 32) (ix2 n (0 : Fin 1)) = _
  refine (congrFun ((ids2 m ρ c).trans (Entry.ids9 m ρ c)) _).trans ?_
  exact (Cert.LibColumn.shapeCast_a_a1_apply _ _ n 0).trans (hs n)

/-- What the region's write-backs leave is the indexed linear map of the arguments: the table the region finds
    is the weight argument's columns from 20480 on, its input rows are the argument's. -/
theorem G_eq2 (c : Dev nD) (s : Fin 8192 → Fin 64) :
    Final2.G (V13 m ρ) c s = Cert.Spec.Y2 (xs2 m c) (ws m c) s := by
  funext j
  unfold Final2.G Cert.Spec.Y2 Cert.Spec.mix
  refine congrArg (fun z : EReal => Ideal.ofBits .f32 0x3CB504F3#32 * z) (Finset.sum_congr rfl fun mm _ => ?_)
  have e1 : Final2.tbl (V13 m ρ) c (ix2 (s (j 0)) ⟨mm.val * 32 + (j 1).val, by have := (j 1).isLt; have := mm.isLt; simp only [Matrix.cons_val_one, Matrix.cons_val_zero] at *; omega⟩)
      = ws m c (ix2 (s (j 0)) ⟨20480 + (mm.val * 32 + (j 1).val), Cert.Spec.col_lt (by decide) mm.isLt (j 1).isLt⟩) := by
    show (V13 m ρ c main_v28 : S64x1024.Idx → EReal) _ = _
    refine (congrFun (tbl2 m ρ c) _).trans ?_
    rw [ValueIdx.truncf_apply]
    refine extractStridedSlice_apply _ _ _ _ _ fun a => ?_
    match a with
    | ⟨0, _⟩ => exact (Nat.zero_add _).symm
    | ⟨1, _⟩ => rfl
  have e2 : Final2.inp (V13 m ρ) c (ix3 (j 0) mm (j 2)) = xs2 m c (ix3 (j 0) mm (j 2)) := by
    show (V13 m ρ c main_v29 : S8192x32x5.Idx → EReal) _ = _
    exact congrFun (inp2 m ρ c) _
  rw [e1, e2]

/-- Result 2 of the kernel is the indexed linear map of its input, the weight table and the segment map. -/
theorem out2 (c : Dev nD) (s : Fin 8192 → Fin 64)
    (hs : ∀ n : Fin 8192, Cert.KernelIdeal.Sid.sid (Entry.cnt m c) (ix1 n) = BitVec.ofNat 32 (s n).val) :
    W14 m ρ c (Proc.devRef .tc main_v30) = Cert.Spec.Y2 (xs2 m c) (ws m c) s :=
  ((res2 m ρ c).trans (Final2.final (V13 m ρ) c s (ids_at2 m ρ c s hs))).trans (G_eq2 m ρ c s)

end Cert.KernelIdeal.Value

end
-- ==== Proof.LibRowGather3.lean ====
/-
  A row gather of a rank-3 table and a batched contraction over the middle axis, read at one index.

  Gathering whole `[A, B]` slabs of an `[M, A, B]` table at a column `[E, 1]` of slab numbers gives an `[E, A, B]` array
  whose entry `(e, a, b)` is the table's entry `(r, a, b)`, `r` the `e`-th slab number read as a signed integer and clamped
  into `[0, M - 1]`. A `[G, C]` table with `C = A * B` recast as `[G, A, B]` holds at `(g, a, b)` the table's entry
  `(g, a * B + b)`. A 32-bit word written from a natural below `2 ^ 31` reads back, signed, as that natural; it is not
  negative, and clamping it into `[0, M - 1]` leaves it when it is below `M`. At the extended reals the product of an
  `[N, K, O]` array and an `[N, K, I]` array that pairs the leading axes and contracts the middle ones, read at
  `(n, o, i)`, is the sum over `k` of `l (n, k, o) * r (n, k, i)`. All extents are arbitrary naturals; nothing here
  enumerates an index set.
-/
import Idealize.ShloMosaic.Lib.Pipeline.Value
import Idealize.ShloMosaic.Lib.ValueIdx
import Idealize.ShloMosaic.PureOps.Ideal.Laws

noncomputable section

open scoped BigOperators

namespace Cert.LibRowGather3

open Idealize.ShloMosaic Idealize.ShloMosaic.ValueIdx

/-! ## Words written from small naturals -/

/-- A 32-bit word written from a natural below `2 ^ 31` reads back, signed, as that natural. -/
theorem toInt_ofNat32 {k : ℕ} (hk : k < 2 ^ 31) : (BitVec.ofNat 32 k).toInt = (k : ℤ) := by
  have h1 : (BitVec.ofNat 32 k).toNat = k := by
    rw [BitVec.toNat_ofNat]; exact Nat.mod_eq_of_lt (by omega)
  rw [BitVec.toInt_eq_toNat_of_lt (by rw [h1]; omega), h1]

/-- Such a word is not below zero in the signed order. -/
theorem slt_zero_ofNat32 {k : ℕ} (hk : k < 2 ^ 31) : IntOp.cmpi .slt (BitVec.ofNat 32 k) 0#32 = 0#1 := by
  show BitVec.ofBool ((BitVec.ofNat 32 k).slt 0#32) = 0#1
  have : (BitVec.ofNat 32 k).slt 0#32 = false := by
    rw [BitVec.slt, toInt_ofNat32 hk]
    simp
  rw [this]; rfl

/-- The slab a start index names: read signed, clamped into `[0, M - 1]`. -/
def clampRow (M : ℕ) (hM : 0 < M) {w : ℕ} (z : BitVec w) : Fin M := ⟨min z.toInt.toNat (M - 1), by omega⟩

/-- A slab number below `M`, written as a 32-bit word, names itself. -/
theorem clampRow_ofNat32 {M : ℕ} (hM : 0 < M) (hM' : M ≤ 2 ^ 31) (g : Fin M) :
    clampRow M hM (BitVec.ofNat 32 g.val) = g := by
  refine Fin.ext ?_
  show min (BitVec.ofNat 32 g.val).toInt.toNat (M - 1) = g.val
  rw [toInt_ofNat32 (by have := g.isLt; omega), Int.toNat_natCast]
  have := g.isLt; omega

/-! ## The gather at an index -/

/-- Gather of whole `[A, B]` slabs of an `[M, A, B]` table at `[E, 1]` slab numbers: slices `[1, A, B]`, operand axis 0
    collapsed, the result's axes 1 and 2 the offsets inside the slab. -/
abbrev rowGather3 (M E A B : ℕ)
    (wf : GatherDims.WF ⟨3, ![M, A, B]⟩ ⟨2, ![E, 1]⟩ ⟨3, ![E, A, B]⟩ [1, 2] [0] [] [0] [] 1 ![1, A, B]) :
    GatherDims ⟨3, ![M, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- THE SLAB GATHER READ AT `(e, a, b)`: the table at the clamped slab the `e`-th start index names, at `(a, b)`. -/
theorem gather_rows3_apply {α : Type} {M E A B w : ℕ} (hM : 0 < M)
    (wf : GatherDims.WF ⟨3, ![M, A, B]⟩ ⟨2, ![E, 1]⟩ ⟨3, ![E, A, B]⟩ [1, 2] [0] [] [0] [] 1 ![1, A, B])
    (x : (⟨3, ![M, A, B]⟩ : Shape).Idx → α) (idx : IVec ⟨2, ![E, 1]⟩ w) (e : Fin E) (a : Fin A) (b : Fin B) :
    Host.gather (rowGather3 M E A B wf) x idx (ix3 e a b) = x (ix3 (clampRow M hM (idx (ix2 e (0 : Fin 1)))) a b) := by
  unfold Host.gather
  congr 1
  funext ax
  refine Fin.ext ?_
  match ax with
  | ⟨0, _⟩ =>
    show (rowGather3 M E A B wf).start (ix3 e a b) idx (0 : Fin 3) + (rowGather3 M E A B wf).batchCoord (ix3 e a b) (0 : Fin 3)
      + (rowGather3 M E A B wf).offCoord (ix3 e a b) (0 : Fin 3) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowGather3 M E A B wf).startIndexMap from List.mem_singleton.mpr rfl)]
    have hsi : (rowGather3 M E A B wf).siIdx (ix3 e a b) ⟨List.idxOf (0 : Fin 3) (rowGather3 M E A B wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (rowGather3 M E A B wf).start (ix3 e a b) idx (1 : Fin 3) + (rowGather3 M E A B wf).batchCoord (ix3 e a b) (1 : Fin 3)
      + (rowGather3 M E A B wf).offCoord (ix3 e a b) (1 : Fin 3) = a.val
    rw [GatherDims.batchCoord_eq_zero _ _ _ List.not_mem_nil]
    have hs : (rowGather3 M E A B wf).start (ix3 e a b) idx (1 : Fin 3) = 0 := rfl
    have ho : (rowGather3 M E A B wf).offCoord (ix3 e a b) (1 : Fin 3) = a.val := rfl
    rw [hs, ho]; omega
  | ⟨2, _⟩ =>
    show (rowGather3 M E A B wf).start (ix3 e a b) idx (2 : Fin 3) + (rowGather3 M E A B wf).batchCoord (ix3 e a b) (2 : Fin 3)
      + (rowGather3 M E A B wf).offCoord (ix3 e a b) (2 : Fin 3) = b.val
    rw [GatherDims.batchCoord_eq_zero _ _ _ List.not_mem_nil]
    have hs : (rowGather3 M E A B wf).start (ix3 e a b) idx (2 : Fin 3) = 0 := rfl
    have ho : (rowGather3 M E A B wf).offCoord (ix3 e a b) (2 : Fin 3) = b.val := rfl
    rw [hs, ho]; omega

/-! ## A table of flattened slabs recast as slabs -/

/-- A `[G, C]` table with `C = A * B` cast to `[G, A, B]`: entry `(g, a, b)` is the table's entry `(g, a * B + b)`. -/
theorem shapeCast_gc_gab_apply {α : Type} {G A B C : ℕ} (x : (⟨2, ![G, C]⟩ : Shape).Idx → α)
    (h : (⟨2, ![G, C]⟩ : Shape).ShapeCasts ⟨3, ![G, A, B]⟩) (hC : C = A * B) (g : Fin G) (a : Fin A) (b : Fin B) (c : Fin C)
    (hc : c.val = a.val * B + b.val) :
    shapeCast ⟨3, ![G, A, B]⟩ x h (ix3 g a b) = x (ix2 g c) :=
  shapeCast_apply x h _ _ (by
    rw [Shape.rowMajor_val_two, Shape.rowMajor_val_three]
    show g.val * C + c.val = (g.val * A + a.val) * B + b.val
    rw [hc, hC, Nat.add_mul, Nat.mul_assoc, Nat.add_assoc])

/-! ## A batched contraction over the middle axes -/

/-- The product `[N, K, O] × [N, K, I]` that pairs the leading axes and contracts the middle ones, read at `(n, o, i)`:
    the sum over the contraction coordinate `k` of `l (n, k, o) * r (n, k, i)`. The facts about the batch and free axes
    hold by computation for given dimension numbers and are taken as hypotheses. -/
theorem dotGeneral_batched_mid_apply {N K O I : ℕ} {φ₁ φ₂ : FTy}
    (D : DotDims ⟨3, ![N, K, O]⟩ ⟨3, ![N, K, I]⟩ ⟨3, ![N, O, I]⟩)
    (hlc : D.lhsContracting = [1]) (hrc : D.rhsContracting = [1])
    (hl0 : ∀ (j : (⟨3, ![N, O, I]⟩ : Shape).Idx) (c : D.contr.Idx), (D.lhsIdx j c 0).val = (j 0).val)
    (hl2 : ∀ (j : (⟨3, ![N, O, I]⟩ : Shape).Idx) (c : D.contr.Idx), (D.lhsIdx j c 2).val = (j 1).val)
    (hr0 : ∀ (j : (⟨3, ![N, O, I]⟩ : Shape).Idx) (c : D.contr.Idx), (D.rhsIdx j c 0).val = (j 0).val)
    (hr2 : ∀ (j : (⟨3, ![N, O, I]⟩ : Shape).Idx) (c : D.contr.Idx), (D.rhsIdx j c 2).val = (j 2).val)
    (hrank : D.contr.rank = 1) (hsize : D.contr.size ⟨0, by omega⟩ = K)
    (prec : Option ContractPrecision) (sched : HostSchedule)
    (l : FVec Ideal ⟨3, ![N, K, O]⟩ φ₁) (r : FVec Ideal ⟨3, ![N, K, I]⟩ φ₂) (n : Fin N) (o : Fin O) (i : Fin I) :
    FloatOps.dotGeneral D prec sched l r (ix3 n o i) = ∑ k : Fin K, l (ix3 n k o) * r (ix3 n k i) := by
  rw [Ideal.dotGeneral_apply, ← Equiv.sum_comp (contrEquiv1 D K hrank hsize).symm]
  refine Finset.sum_congr rfl fun k _ => ?_
  have hk := contrEquiv1_symm_val D K hrank hsize k
  have el : D.lhsIdx (ix3 n o i) ((contrEquiv1 D K hrank hsize).symm k) = ix3 n k o := funext fun a => Fin.ext (by
    match a with
    | ⟨0, _⟩ => exact hl0 _ _
    | ⟨1, _⟩ => exact (D.lhsIdx_val_of_single hlc _ _).trans hk
    | ⟨2, _⟩ => exact hl2 _ _)
  have er : D.rhsIdx (ix3 n o i) ((contrEquiv1 D K hrank hsize).symm k) = ix3 n k i := funext fun a => Fin.ext (by
    match a with
    | ⟨0, _⟩ => exact hr0 _ _
    | ⟨1, _⟩ => exact (D.rhsIdx_val_of_single hrc _ _).trans hk
    | ⟨2, _⟩ => exact hr2 _ _)
  rw [el, er]

end Cert.LibRowGather3

end
-- ==== Proof.RefValue.lean ====
import proofs.«171389_j21672404975706_2_alg».proof.ReferenceIdeal
import proofs.«171389_j21672404975706_2_alg».proof.Proof.Spec
import Idealize.ShloMosaic.Lib.ValueIdx
import Idealize.ShloMosaic.PureOps.Ideal.Laws
import Idealize.ShloMosaic.Lib.IdealHost
import Idealize.ShloMosaic.Lib.Pipeline.Value
import proofs.«171389_j21672404975706_2_alg».proof.Proof.LibRowGather3

/-!
# The reference's three results, as functions of the arguments and the segment ids

Each result of the reference is a composition of pure operations on the weight table `w`, one
input `x` and the id vector `sd`: slice `mul * mul` columns of `w`, reshape them to a
`[64, mul, mul]` table, wrap negative ids, gather the table's rows by id, contract the gathered
`[N, mul, mul]` array with `x : [N, mul, ir]` over the middle axis (batched over rows), scale.
When the ids are the 32-bit words of a segment map `s`, each equals the indexed linear map of
`Cert.Spec`.
-/

open Idealize.ShloMosaic Idealize.ShloMosaic.ValueIdx

noncomputable section

namespace Cert.ReferenceIdeal.RefValue

open Cert.ReferenceIdeal
variable [Cert.ReferenceIdeal.Facts]
open Facts₀ Facts

/-- First result: slice columns `[0, 16384)`, reshape to `[64,128,128]`, wrap negative ids, row
    gather, batched product with `x`, scale. -/
def res0 (x : FVec Ideal S8192x128x1 .f32) (w : FVec Ideal S64x21504 .f32) (sd : IVec S8192 32) :
    FVec Ideal S8192x128x1 .f32 :=
  mulf (broadcastInDim S8192x128x1 ![] bcast_S_S8192x128x1 (constant (F := Ideal) S_ .f32 0x3C3504F3#32))
    (Host.dotGeneral (F := Ideal) dot_S8192x128x128_S8192x128x1_S8192x128x1_1_1_2_2_0_0 none
      (Host.gather gather_S64x128x128_S8192x1_S8192x128x128_12_0_n_n_0_1_1128128
        (shapeCast S64x128x128 (extractStridedSlice S64x16384 ![0, 0] w slices_S64x21504_S64x16384_0_0)
          shapeCasts_S64x16384_S64x128x128)
        (broadcastInDim S8192x1 ![0] bcast_S8192_S8192x1_0 (select (cmpi .slt sd (broadcastInDim S8192 ![] bcast_S_S8192 (constantI S_ 32 0#32)))
          (addi sd (broadcastInDim S8192 ![] bcast_S_S8192 (constantI S_ 32 64#32))) sd)))
      x)

/-- Second result: columns `[16384, 20480)` as a `[64,64,64]` table. -/
def res1 (x : FVec Ideal S8192x64x3 .f32) (w : FVec Ideal S64x21504 .f32) (sd : IVec S8192 32) :
    FVec Ideal S8192x64x3 .f32 :=
  mulf (broadcastInDim S8192x64x3 ![] bcast_S_S8192x64x3 (constant (F := Ideal) S_ .f32 0x3C800000#32))
    (Host.dotGeneral (F := Ideal) dot_S8192x64x64_S8192x64x3_S8192x64x3_1_1_2_2_0_0 none
      (Host.gather gather_S64x64x64_S8192x1_S8192x64x64_12_0_n_n_0_1_16464
        (shapeCast S64x64x64 (extractStridedSlice S64x4096 ![0, 16384] w slices_S64x21504_S64x4096_0_16384)
          shapeCasts_S64x4096_S64x64x64)
        (broadcastInDim S8192x1 ![0] bcast_S8192_S8192x1_0 (select (cmpi .slt sd (broadcastInDim S8192 ![] bcast_S_S8192 (constantI S_ 32 0#32)))
          (addi sd (broadcastInDim S8192 ![] bcast_S_S8192 (constantI S_ 32 64#32))) sd)))
      x)

/-- Third result: columns `[20480, 21504)` as a `[64,32,32]` table. -/
def res2 (x : FVec Ideal S8192x32x5 .f32) (w : FVec Ideal S64x21504 .f32) (sd : IVec S8192 32) :
    FVec Ideal S8192x32x5 .f32 :=
  mulf (broadcastInDim S8192x32x5 ![] bcast_S_S8192x32x5 (constant (F := Ideal) S_ .f32 0x3CB504F3#32))
    (Host.dotGeneral (F := Ideal) dot_S8192x32x32_S8192x32x5_S8192x32x5_1_1_2_2_0_0 none
      (Host.gather gather_S64x32x32_S8192x1_S8192x32x32_12_0_n_n_0_1_13232
        (shapeCast S64x32x32 (extractStridedSlice S64x1024 ![0, 20480] w slices_S64x21504_S64x1024_0_20480)
          shapeCasts_S64x1024_S64x32x32)
        (broadcastInDim S8192x1 ![0] bcast_S8192_S8192x1_0 (select (cmpi .slt sd (broadcastInDim S8192 ![] bcast_S_S8192 (constantI S_ 32 0#32)))
          (addi sd (broadcastInDim S8192 ![] bcast_S_S8192 (constantI S_ 32 64#32))) sd)))
      x)

open Cert.LibRowGather3 in
/-- The id column the gathers read: at `(n, 0)` the word of `s n`; it is not negative, so the wrap leaves it. -/
theorem ids_apply (sd : IVec S8192 32) (s : Fin 8192 → Fin 64)
    (hs : ∀ n : Fin 8192, sd (ix1 n) = BitVec.ofNat 32 (s n).val) (n : Fin 8192) :
    broadcastInDim S8192x1 ![0] bcast_S8192_S8192x1_0
      (select (cmpi .slt sd (broadcastInDim S8192 ![] bcast_S_S8192 (constantI S_ 32 0#32)))
        (addi sd (broadcastInDim S8192 ![] bcast_S_S8192 (constantI S_ 32 64#32))) sd) (ix2 n (0 : Fin 1))
      = BitVec.ofNat 32 (s n).val := by
  refine (broadcastInDim_apply _ _ _ _ (ix1 n) fun a => ?_).trans ?_
  · match a with
    | ⟨0, _⟩ => rfl
  · rw [select_apply]
    have hc : cmpi .slt sd (broadcastInDim S8192 ![] bcast_S_S8192 (constantI S_ 32 0#32)) (ix1 n) = 0#1 := by
      show IntOp.cmpi .slt (sd (ix1 n)) (broadcastInDim S8192 ![] bcast_S_S8192 (constantI S_ 32 0#32) (ix1 n)) = 0#1
      rw [broadcastInDim_scalar_apply, hs n]
      exact slt_zero_ofNat32 (by have := (s n).isLt; omega)
    rw [hc, select_zero, hs n]

open Cert.LibRowGather3 in
/-- With ids the words of a segment map `s`, the first result at `(n, o, i)` is the scale times
    `Σ_m w[s n, m * 128 + o] * x[n, m, i]`: the indexed linear map of the 128 scalars. -/
theorem res0_eq (x : FVec Ideal S8192x128x1 .f32) (w : FVec Ideal S64x21504 .f32) (sd : IVec S8192 32)
    (s : Fin 8192 → Fin 64) (hs : ∀ n : Fin 8192, sd (ix1 n) = BitVec.ofNat 32 (s n).val) :
    res0 x w sd = Cert.Spec.Y0 x w s := by
  funext j
  obtain ⟨n, o, i, rfl⟩ : ∃ (n : Fin 8192) (o : Fin 128) (i : Fin 1), j = ix3 n o i := ⟨j 0, j 1, j 2, eq_ix3 j⟩
  unfold res0
  rw [mulf_apply, broadcastInDim_scalar_apply, constant_apply]
  unfold Cert.Spec.Y0 Cert.Spec.mix
  refine congrArg (Ideal.ofBits .f32 0x3C3504F3#32 * ·) ?_
  refine (dotGeneral_batched_mid_apply dot_S8192x128x128_S8192x128x1_S8192x128x1_1_1_2_2_0_0 rfl rfl
    (fun _ _ => rfl) (fun _ _ => rfl) (fun _ _ => rfl) (fun _ _ => rfl) rfl rfl none .single _ x n o i).trans ?_
  refine Finset.sum_congr rfl fun m _ => ?_
  congr 1
  refine (gather_rows3_apply (by decide) gather_S64x128x128_S8192x1_S8192x128x128_12_0_n_n_0_1_1128128_wf _ _ n m o).trans ?_
  rw [ids_apply sd s hs n, clampRow_ofNat32 (by decide) (by decide) (s n)]
  have hcol : m.val * 128 + o.val < 16384 := by have := m.isLt; have := o.isLt; omega
  refine (shapeCast_gc_gab_apply _ _ rfl (s n) m o ⟨m.val * 128 + o.val, hcol⟩ rfl).trans ?_
  refine extractStridedSlice_apply _ _ _ _ _ fun a => ?_
  match a with
  | ⟨0, _⟩ => exact (Nat.zero_add _).symm
  | ⟨1, _⟩ => rfl

open Cert.LibRowGather3 in
/-- The second result at `(n, o, i)` is the scale times `Σ_m w[s n, 16384 + m * 64 + o] * x[n, m, i]`:
    the indexed linear map of the 64 vectors. -/
theorem res1_eq (x : FVec Ideal S8192x64x3 .f32) (w : FVec Ideal S64x21504 .f32) (sd : IVec S8192 32)
    (s : Fin 8192 → Fin 64) (hs : ∀ n : Fin 8192, sd (ix1 n) = BitVec.ofNat 32 (s n).val) :
    res1 x w sd = Cert.Spec.Y1 x w s := by
  funext j
  obtain ⟨n, o, i, rfl⟩ : ∃ (n : Fin 8192) (o : Fin 64) (i : Fin 3), j = ix3 n o i := ⟨j 0, j 1, j 2, eq_ix3 j⟩
  unfold res1
  rw [mulf_apply, broadcastInDim_scalar_apply, constant_apply]
  unfold Cert.Spec.Y1 Cert.Spec.mix
  refine congrArg (Ideal.ofBits .f32 0x3C800000#32 * ·) ?_
  refine (dotGeneral_batched_mid_apply dot_S8192x64x64_S8192x64x3_S8192x64x3_1_1_2_2_0_0 rfl rfl
    (fun _ _ => rfl) (fun _ _ => rfl) (fun _ _ => rfl) (fun _ _ => rfl) rfl rfl none .single _ x n o i).trans ?_
  refine Finset.sum_congr rfl fun m _ => ?_
  congr 1
  refine (gather_rows3_apply (by decide) gather_S64x64x64_S8192x1_S8192x64x64_12_0_n_n_0_1_16464_wf _ _ n m o).trans ?_
  rw [ids_apply sd s hs n, clampRow_ofNat32 (by decide) (by decide) (s n)]
  have hcol : m.val * 64 + o.val < 4096 := by have := m.isLt; have := o.isLt; omega
  refine (shapeCast_gc_gab_apply _ _ rfl (s n) m o ⟨m.val * 64 + o.val, hcol⟩ rfl).trans ?_
  refine extractStridedSlice_apply _ _ _ _ _ fun a => ?_
  match a with
  | ⟨0, _⟩ => exact (Nat.zero_add _).symm
  | ⟨1, _⟩ => rfl

open Cert.LibRowGather3 in
/-- The third result at `(n, o, i)` is the scale times `Σ_m w[s n, 20480 + m * 32 + o] * x[n, m, i]`:
    the indexed linear map of the 32 rank-2 tensors. -/
theorem res2_eq (x : FVec Ideal S8192x32x5 .f32) (w : FVec Ideal S64x21504 .f32) (sd : IVec S8192 32)
    (s : Fin 8192 → Fin 64) (hs : ∀ n : Fin 8192, sd (ix1 n) = BitVec.ofNat 32 (s n).val) :
    res2 x w sd = Cert.Spec.Y2 x w s := by
  funext j
  obtain ⟨n, o, i, rfl⟩ : ∃ (n : Fin 8192) (o : Fin 32) (i : Fin 5), j = ix3 n o i := ⟨j 0, j 1, j 2, eq_ix3 j⟩
  unfold res2
  rw [mulf_apply, broadcastInDim_scalar_apply, constant_apply]
  unfold Cert.Spec.Y2 Cert.Spec.mix
  refine congrArg (Ideal.ofBits .f32 0x3CB504F3#32 * ·) ?_
  refine (dotGeneral_batched_mid_apply dot_S8192x32x32_S8192x32x5_S8192x32x5_1_1_2_2_0_0 rfl rfl
    (fun _ _ => rfl) (fun _ _ => rfl) (fun _ _ => rfl) (fun _ _ => rfl) rfl rfl none .single _ x n o i).trans ?_
  refine Finset.sum_congr rfl fun m _ => ?_
  congr 1
  refine (gather_rows3_apply (by decide) gather_S64x32x32_S8192x1_S8192x32x32_12_0_n_n_0_1_13232_wf _ _ n m o).trans ?_
  rw [ids_apply sd s hs n, clampRow_ofNat32 (by decide) (by decide) (s n)]
  have hcol : m.val * 32 + o.val < 1024 := by have := m.isLt; have := o.isLt; omega
  refine (shapeCast_gc_gab_apply _ _ rfl (s n) m o ⟨m.val * 32 + o.val, hcol⟩ rfl).trans ?_
  refine extractStridedSlice_apply _ _ _ _ _ fun a => ?_
  match a with
  | ⟨0, _⟩ => exact (Nat.zero_add _).symm
  | ⟨1, _⟩ => rfl

end Cert.ReferenceIdeal.RefValue

end
-- ==== Proof.RefSid.lean ====
import proofs.«171389_j21672404975706_2_alg».proof.ReferenceIdeal
import proofs.«171389_j21672404975706_2_alg».proof.Proof.Gen.ReferenceIdeal
import Idealize.ShloMosaic.PureOps.Ideal

/-! # The reference's segment ids, as a pure function of the counts

The reference computes the segment ids (8192 entries: segment number `k` repeated `counts k` times, for `k` from 0 to 63) by host operations only: the counts
rolled by one with a zero written in front, their running sum (the first position of each segment), a one
added at each such position of a zero vector of length 8192, the running sum of that minus one (the segment
each position lies in), and a lookup of that in the table 0, …, 63 in fill mode. `sid` below is the literal
composition of those operations, in the order and spelling of the printed program, split in two at the
position table: `scatterPos` (the counts to the 64 scatter positions) and `sidTail` (the positions to the
8192 segment ids). -/

noncomputable section

namespace Cert.ReferenceIdeal.RefRun

open Cert.ReferenceIdeal Idealize.ShloMosaic

variable [Cert.ReferenceIdeal.Facts]
open Cert.ReferenceIdeal.Facts₀ Cert.ReferenceIdeal.Facts

/-- The counts rolled right by one: the last element, then the first 63. -/
def rolled (counts : IVec S64 32) : IVec S64 32 :=
  concatenate S64 0 [⟨S1, extractStridedSlice S1 ![63] counts slices_S64_S1_63⟩, ⟨S63, extractStridedSlice S63 ![0] counts slices_S64_S63_0⟩] concatenates_S1_S63_S64_d0

/-- The rolled counts with a zero written at position 0: `[0, counts 0, …, counts 62]`. -/
def shifted (counts : IVec S64 32) : IVec S64 32 :=
  Host.scatter scatter_S64_S1_S__n_0_0_0 (fun _ b => b) (rolled counts) (broadcastInDim S1 ![] bcast_S_S1 (constantI S_ 32 0#32)) (constantI S_ 32 0#32)

/-- The running sum of the shifted counts: the first position of each segment. -/
def starts (counts : IVec S64 32) : IVec S64 32 :=
  Host.reduceWindow IntOp.addi ![64] ![1] ![63] ![0] (shifted counts) (broadcastInDim S_ ![] bcast_S_S_ (constantI S_ 32 0#32)) reduceWindows_S64_S64_w64s1p63_0 h_S_

/-- The 64 scatter positions: each segment's first position, a negative one wrapped by 8192, as a column. -/
def scatterPos (counts : IVec S64 32) : IVec S64x1 32 :=
  broadcastInDim S64x1 ![0] bcast_S64_S64x1_0
    (select (cmpi .slt (starts counts) (broadcastInDim S64 ![] bcast_S_S64 (constantI S_ 32 0#32)))
      (addi (starts counts) (broadcastInDim S64 ![] bcast_S_S64 (constantI S_ 32 8192#32)))
      (starts counts))

/-- A one added at each scatter position of the zero vector of length 8192. -/
def marks (p : IVec S64x1 32) : IVec S8192 32 :=
  Host.scatter scatter_S8192_S64x1_S64_n_0_0_1 IntOp.addi (broadcastInDim S8192 ![] bcast_S_S8192 (constantI S_ 32 0#32)) p (broadcastInDim S64 ![] bcast_S_S64 (constantI S_ 32 1#32))

/-- The running sum of the marks, minus one: the segment each of the 8192 positions lies in. -/
def segIdx (p : IVec S64x1 32) : IVec S8192 32 :=
  subi (Host.reduceWindow IntOp.addi ![8192] ![1] ![8191] ![0] (marks p) (broadcastInDim S_ ![] bcast_S_S_ (constantI S_ 32 0#32)) reduceWindows_S8192_S8192_w8192s1p8191_0 h_S_)
    (broadcastInDim S8192 ![] bcast_S_S8192 (constantI S_ 32 1#32))

/-- The lookup index: a negative segment index wrapped by 64. -/
def takeIdx (q : IVec S8192 32) : IVec S8192 32 :=
  select (cmpi .slt q (broadcastInDim S8192 ![] bcast_S_S8192 (constantI S_ 32 0#32)))
    (addi q (broadcastInDim S8192 ![] bcast_S_S8192 (constantI S_ 32 64#32)))
    q

/-- The lookup index as a column. -/
def takeCol (q : IVec S8192 32) : IVec S8192x1 32 :=
  broadcastInDim S8192x1 ![0] bcast_S8192_S8192x1_0 (takeIdx q)

/-- Whether the lookup index is inside the table, `0 ≤ · ≤ 63`. -/
def takeOk (q : IVec S8192 32) : IVec S8192 1 :=
  Host.reduce IntOp.andi
    (andi (cmpi .sge (takeCol q) (broadcastInDim S8192x1 ![] bcast_S_S8192x1 (constantI S_ 32 0#32)))
      (cmpi .sle (takeCol q) (broadcastInDim S8192x1 ![0, 1] bcast_S1x1_S8192x1_0_1 (broadcastInDim S1x1 ![1] bcast_S1_S1x1_1 (constantI S1 32 63#32)))))
    (constantI S_ 1 1#1) reducesTo_S8192x1_S8192_d1 h_S_

/-- A lookup in a table of 64 entries in fill mode: the entry where the index is inside the table, the least integer where it is outside. -/
def take (tbl : IVec S64 32) (q : IVec S8192 32) : IVec S8192 32 :=
  select (takeOk q) (Host.gather gather_S64_S8192x1_S8192_n_0_n_n_0_1_1 tbl (takeCol q))
    (broadcastInDim S8192 ![] bcast_S_S8192 (constantI S_ 32 2147483648#32))

/-- The scatter positions to the 8192 segment ids. -/
def sidTail (p : IVec S64x1 32) : IVec S8192 32 :=
  take (iotaInDim S64 32 0) (segIdx p)

/-- The reference's segment ids of the counts. -/
def sid (counts : IVec S64 32) : IVec S8192 32 :=
  sidTail (scatterPos counts)

end Cert.ReferenceIdeal.RefRun

end
-- ==== Proof.RefOps.lean ====
import proofs.«171389_j21672404975706_2_alg».proof.ReferenceIdeal
import proofs.«171389_j21672404975706_2_alg».proof.Proof.Gen.ReferenceIdeal
import Idealize.ShloMosaic.PureOps.Ideal
import Idealize.ShloMosaic.Lib.StableHlo.Run
import Idealize.ShloMosaic.Lib.Pipeline.Frame

/-! # The reference's @main as a list of host operations

The reference's @main, with the module-local functions it calls (a roll by one, two running sums — each a
function calling the function that holds the windowed reduction —, and a table lookup in fill mode that
itself calls a select) unfolded at their call sites over the buffers of each call, is a straight line of 97
host operations. They are listed here in order, cut where the three results fall: the 52 that compute the
segment ids, 15 for each of the first two results, and the last result's 15 (five in the program's first
window, ten in its second). -/

noncomputable section

namespace Cert.ReferenceIdeal.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

/-- The 52 operations that compute the segment ids from the counts: the iota; the roll (two slices, a concatenation); the zero written at position 0; the first running sum; the wrap of a negative start; the ones added at the starts; the second running sum, minus one; the table lookup in fill mode. -/
abbrev opsA : List (HloOp τ sig (Elt Ideal)) :=
  [ nullary main_v0 (iotaInDim S64 32 0),
    unary main_arg4 main_call0_v0 ((extractStridedSlice S1 ![63] · slices_S64_S1_63) : (⟨S64, .i32⟩ : BufTy).Contents (Elt Ideal) → (⟨S1, .i32⟩ : BufTy).Contents (Elt Ideal)),
    unary main_arg4 main_call0_v1 ((extractStridedSlice S63 ![0] · slices_S64_S63_0) : (⟨S64, .i32⟩ : BufTy).Contents (Elt Ideal) → (⟨S63, .i32⟩ : BufTy).Contents (Elt Ideal)),
    binary main_call0_v0 main_call0_v1 main_v1 ((fun a b => concatenate S64 0 [⟨S1, a⟩, ⟨S63, b⟩] concatenates_S1_S63_S64_d0) : (⟨S1, .i32⟩ : BufTy).Contents (Elt Ideal) → (⟨S63, .i32⟩ : BufTy).Contents (Elt Ideal) → (⟨S64, .i32⟩ : BufTy).Contents (Elt Ideal)),
    nullary main_c (constantI S_ 32 0#32),
    unary main_c main_v2 (broadcastInDim S1 ![] bcast_S_S1 : (⟨S_, .i32⟩ : BufTy).Contents (Elt Ideal) → (⟨S1, .i32⟩ : BufTy).Contents (Elt Ideal)),
    nullary main_c_0 (constantI S_ 32 0#32),
    ternary main_v1 main_v2 main_c_0 main_v3 ((fun x i u => Host.scatter scatter_S64_S1_S__n_0_0_0 (fun _ b => b) x i u) : (⟨S64, .i32⟩ : BufTy).Contents (Elt Ideal) → (⟨S1, .i32⟩ : BufTy).Contents (Elt Ideal) → (⟨S_, .i32⟩ : BufTy).Contents (Elt Ideal) → (⟨S64, .i32⟩ : BufTy).Contents (Elt Ideal)),
    nullary main_call1_call0_c (constantI S_ 32 0#32),
    unary main_call1_call0_c main_call1_call0_v0 ((broadcastInDim S_ ![] bcast_S_S_) : (⟨S_, .i32⟩ : BufTy).Contents (Elt Ideal) → (⟨S_, .i32⟩ : BufTy).Contents (Elt Ideal)),
    binary main_v3 main_call1_call0_v0 main_v4 ((fun x v => Host.reduceWindow IntOp.addi ![64] ![1] ![63] ![0] x v reduceWindows_S64_S64_w64s1p63_0 h_S_) : (⟨S64, .i32⟩ : BufTy).Contents (Elt Ideal) → (⟨S_, .i32⟩ : BufTy).Contents (Elt Ideal) → (⟨S64, .i32⟩ : BufTy).Contents (Elt Ideal)),
    nullary main_c_1 (constantI S_ 32 0#32),
    unary main_c_1 main_v5 (broadcastInDim S8192 ![] bcast_S_S8192 : (⟨S_, .i32⟩ : BufTy).Contents (Elt Ideal) → (⟨S8192, .i32⟩ : BufTy).Contents (Elt Ideal)),
    nullary main_c_2 (constantI S_ 32 0#32),
    unary main_c_2 main_v6 (broadcastInDim S64 ![] bcast_S_S64 : (⟨S_, .i32⟩ : BufTy).Contents (Elt Ideal) → (⟨S64, .i32⟩ : BufTy).Contents (Elt Ideal)),
    binary main_v4 main_v6 main_v7 (cmpi .slt : (⟨S64, .i32⟩ : BufTy).Contents (Elt Ideal) → (⟨S64, .i32⟩ : BufTy).Contents (Elt Ideal) → (⟨S64, .i1⟩ : BufTy).Contents (Elt Ideal)),
    nullary main_c_3 (constantI S_ 32 8192#32),
    unary main_c_3 main_v8 (broadcastInDim S64 ![] bcast_S_S64 : (⟨S_, .i32⟩ : BufTy).Contents (Elt Ideal) → (⟨S64, .i32⟩ : BufTy).Contents (Elt Ideal)),
    binary main_v4 main_v8 main_v9 (addi : (⟨S64, .i32⟩ : BufTy).Contents (Elt Ideal) → (⟨S64, .i32⟩ : BufTy).Contents (Elt Ideal) → (⟨S64, .i32⟩ : BufTy).Contents (Elt Ideal)),
    ternary main_v7 main_v9 main_v4 main_v10 (select : (⟨S64, .i1⟩ : BufTy).Contents (Elt Ideal) → (⟨S64, .i32⟩ : BufTy).Contents (Elt Ideal) → (⟨S64, .i32⟩ : BufTy).Contents (Elt Ideal) → (⟨S64, .i32⟩ : BufTy).Contents (Elt Ideal)),
    unary main_v10 main_v11 (broadcastInDim S64x1 ![0] bcast_S64_S64x1_0 : (⟨S64, .i32⟩ : BufTy).Contents (Elt Ideal) → (⟨S64x1, .i32⟩ : BufTy).Contents (Elt Ideal)),
    nullary main_c_4 (constantI S_ 32 1#32),
    unary main_c_4 main_v12 (broadcastInDim S64 ![] bcast_S_S64 : (⟨S_, .i32⟩ : BufTy).Contents (Elt Ideal) → (⟨S64, .i32⟩ : BufTy).Contents (Elt Ideal)),
    ternary main_v5 main_v11 main_v12 main_v13 ((fun x i u => Host.scatter scatter_S8192_S64x1_S64_n_0_0_1 IntOp.addi x i u) : (⟨S8192, .i32⟩ : BufTy).Contents (Elt Ideal) → (⟨S64x1, .i32⟩ : BufTy).Contents (Elt Ideal) → (⟨S64, .i32⟩ : BufTy).Contents (Elt Ideal) → (⟨S8192, .i32⟩ : BufTy).Contents (Elt Ideal)),
    nullary main_call2_call0_c (constantI S_ 32 0#32),
    unary main_call2_call0_c main_call2_call0_v0 ((broadcastInDim S_ ![] bcast_S_S_) : (⟨S_, .i32⟩ : BufTy).Contents (Elt Ideal) → (⟨S_, .i32⟩ : BufTy).Contents (Elt Ideal)),
    binary main_v13 main_call2_call0_v0 main_v14 ((fun x v => Host.reduceWindow IntOp.addi ![8192] ![1] ![8191] ![0] x v reduceWindows_S8192_S8192_w8192s1p8191_0 h_S_) : (⟨S8192, .i32⟩ : BufTy).Contents (Elt Ideal) → (⟨S_, .i32⟩ : BufTy).Contents (Elt Ideal) → (⟨S8192, .i32⟩ : BufTy).Contents (Elt Ideal)),
    nullary main_c_5 (constantI S_ 32 1#32),
    unary main_c_5 main_v15 (broadcastInDim S8192 ![] bcast_S_S8192 : (⟨S_, .i32⟩ : BufTy).Contents (Elt Ideal) → (⟨S8192, .i32⟩ : BufTy).Contents (Elt Ideal)),
    binary main_v14 main_v15 main_v16 (subi : (⟨S8192, .i32⟩ : BufTy).Contents (Elt Ideal) → (⟨S8192, .i32⟩ : BufTy).Contents (Elt Ideal) → (⟨S8192, .i32⟩ : BufTy).Contents (Elt Ideal)),
    nullary main_call3_c (constantI S_ 32 0#32),
    unary main_call3_c main_call3_v0 ((broadcastInDim S8192 ![] bcast_S_S8192) : (⟨S_, .i32⟩ : BufTy).Contents (Elt Ideal) → (⟨S8192, .i32⟩ : BufTy).Contents (Elt Ideal)),
    binary main_v16 main_call3_v0 main_call3_v1 ((cmpi .slt) : (⟨S8192, .i32⟩ : BufTy).Contents (Elt Ideal) → (⟨S8192, .i32⟩ : BufTy).Contents (Elt Ideal) → (⟨S8192, .i1⟩ : BufTy).Contents (Elt Ideal)),
    nullary main_call3_c_0 (constantI S_ 32 64#32),
    unary main_call3_c_0 main_call3_v2 ((broadcastInDim S8192 ![] bcast_S_S8192) : (⟨S_, .i32⟩ : BufTy).Contents (Elt Ideal) → (⟨S8192, .i32⟩ : BufTy).Contents (Elt Ideal)),
    binary main_v16 main_call3_v2 main_call3_v3 (addi : (⟨S8192, .i32⟩ : BufTy).Contents (Elt Ideal) → (⟨S8192, .i32⟩ : BufTy).Contents (Elt Ideal) → (⟨S8192, .i32⟩ : BufTy).Contents (Elt Ideal)),
    ternary main_call3_v1 main_call3_v3 main_v16 main_call3_v4 (select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)),
    unary main_call3_v4 main_call3_v5 ((broadcastInDim S8192x1 ![0] bcast_S8192_S8192x1_0) : (⟨S8192, .i32⟩ : BufTy).Contents (Elt Ideal) → (⟨S8192x1, .i32⟩ : BufTy).Contents (Elt Ideal)),
    nullary main_call3_c_1 (constantI S1 32 63#32),
    nullary main_call3_c_2 (constantI S_ 32 0#32),
    unary main_call3_c_2 main_call3_v6 ((broadcastInDim S8192x1 ![] bcast_S_S8192x1) : (⟨S_, .i32⟩ : BufTy).Contents (Elt Ideal) → (⟨S8192x1, .i32⟩ : BufTy).Contents (Elt Ideal)),
    binary main_call3_v5 main_call3_v6 main_call3_v7 ((cmpi .sge) : (⟨S8192x1, .i32⟩ : BufTy).Contents (Elt Ideal) → (⟨S8192x1, .i32⟩ : BufTy).Contents (Elt Ideal) → (⟨S8192x1, .i1⟩ : BufTy).Contents (Elt Ideal)),
    unary main_call3_c_1 main_call3_v8 ((broadcastInDim S1x1 ![1] bcast_S1_S1x1_1) : (⟨S1, .i32⟩ : BufTy).Contents (Elt Ideal) → (⟨S1x1, .i32⟩ : BufTy).Contents (Elt Ideal)),
    unary main_call3_v8 main_call3_v9 ((broadcastInDim S8192x1 ![0, 1] bcast_S1x1_S8192x1_0_1) : (⟨S1x1, .i32⟩ : BufTy).Contents (Elt Ideal) → (⟨S8192x1, .i32⟩ : BufTy).Contents (Elt Ideal)),
    binary main_call3_v5 main_call3_v9 main_call3_v10 ((cmpi .sle) : (⟨S8192x1, .i32⟩ : BufTy).Contents (Elt Ideal) → (⟨S8192x1, .i32⟩ : BufTy).Contents (Elt Ideal) → (⟨S8192x1, .i1⟩ : BufTy).Contents (Elt Ideal)),
    binary main_call3_v7 main_call3_v10 main_call3_v11 (andi : (⟨S8192x1, .i1⟩ : BufTy).Contents (Elt Ideal) → (⟨S8192x1, .i1⟩ : BufTy).Contents (Elt Ideal) → (⟨S8192x1, .i1⟩ : BufTy).Contents (Elt Ideal)),
    nullary main_call3_c_3 (constantI S_ 1 1#1),
    binary main_call3_v11 main_call3_c_3 main_call3_v12 ((fun x v => Host.reduce IntOp.andi x v reducesTo_S8192x1_S8192_d1 h_S_) : (⟨S8192x1, .i1⟩ : BufTy).Contents (Elt Ideal) → (⟨S_, .i1⟩ : BufTy).Contents (Elt Ideal) → (⟨S8192, .i1⟩ : BufTy).Contents (Elt Ideal)),
    binary main_v0 main_call3_v5 main_call3_v13 ((fun x i => Host.gather gather_S64_S8192x1_S8192_n_0_n_n_0_1_1 x i) : (⟨S64, .i32⟩ : BufTy).Contents (Elt Ideal) → (⟨S8192x1, .i32⟩ : BufTy).Contents (Elt Ideal) → (⟨S8192, .i32⟩ : BufTy).Contents (Elt Ideal)),
    nullary main_call3_c_4 (constantI S_ 32 2147483648#32),
    unary main_call3_c_4 main_call3_v14 ((broadcastInDim S8192 ![] bcast_S_S8192) : (⟨S_, .i32⟩ : BufTy).Contents (Elt Ideal) → (⟨S8192, .i32⟩ : BufTy).Contents (Elt Ideal)),
    ternary main_call3_v12 main_call3_v13 main_call3_v14 main_v17 (select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)) ]

/-- The 15 operations of the first result: slice and reshape of the weight table, wrap of a negative id, row gather, batched contraction, scaling. -/
abbrev opsB : List (HloOp τ sig (Elt Ideal)) :=
  [ unary main_arg3 main_v18 ((extractStridedSlice S64x16384 ![0, 0] · slices_S64x21504_S64x16384_0_0) : (⟨S64x21504, .f32⟩ : BufTy).Contents (Elt Ideal) → (⟨S64x16384, .f32⟩ : BufTy).Contents (Elt Ideal)),
    reshape main_v18 main_v19 rfl shapeCasts_S64x16384_S64x128x128,
    nullary main_c_6 (constantI S_ 32 0#32),
    unary main_c_6 main_v20 (broadcastInDim S8192 ![] bcast_S_S8192 : (⟨S_, .i32⟩ : BufTy).Contents (Elt Ideal) → (⟨S8192, .i32⟩ : BufTy).Contents (Elt Ideal)),
    binary main_v17 main_v20 main_v21 (cmpi .slt : (⟨S8192, .i32⟩ : BufTy).Contents (Elt Ideal) → (⟨S8192, .i32⟩ : BufTy).Contents (Elt Ideal) → (⟨S8192, .i1⟩ : BufTy).Contents (Elt Ideal)),
    nullary main_c_7 (constantI S_ 32 64#32),
    unary main_c_7 main_v22 (broadcastInDim S8192 ![] bcast_S_S8192 : (⟨S_, .i32⟩ : BufTy).Contents (Elt Ideal) → (⟨S8192, .i32⟩ : BufTy).Contents (Elt Ideal)),
    binary main_v17 main_v22 main_v23 (addi : (⟨S8192, .i32⟩ : BufTy).Contents (Elt Ideal) → (⟨S8192, .i32⟩ : BufTy).Contents (Elt Ideal) → (⟨S8192, .i32⟩ : BufTy).Contents (Elt Ideal)),
    ternary main_v21 main_v23 main_v17 main_v24 (select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)),
    unary main_v24 main_v25 (broadcastInDim S8192x1 ![0] bcast_S8192_S8192x1_0 : (⟨S8192, .i32⟩ : BufTy).Contents (Elt Ideal) → (⟨S8192x1, .i32⟩ : BufTy).Contents (Elt Ideal)),
    binary main_v19 main_v25 main_v26 ((fun x i => Host.gather gather_S64x128x128_S8192x1_S8192x128x128_12_0_n_n_0_1_1128128 x i) : (⟨S64x128x128, .f32⟩ : BufTy).Contents (Elt Ideal) → (⟨S8192x1, .i32⟩ : BufTy).Contents (Elt Ideal) → (⟨S8192x128x128, .f32⟩ : BufTy).Contents (Elt Ideal)),
    binary main_v26 main_arg0 main_v27 ((fun l r => Host.dotGeneral (F := Ideal) (φ₁ := .f32) (φ₂ := .f32) dot_S8192x128x128_S8192x128x1_S8192x128x1_1_1_2_2_0_0 none l r) : (⟨S8192x128x128, .f32⟩ : BufTy).Contents (Elt Ideal) → (⟨S8192x128x1, .f32⟩ : BufTy).Contents (Elt Ideal) → (⟨S8192x128x1, .f32⟩ : BufTy).Contents (Elt Ideal)),
    nullary main_cst (constant (F := Ideal) S_ .f32 0x3C3504F3#32),
    unary main_cst main_v28 (broadcastInDim S8192x128x1 ![] bcast_S_S8192x128x1 : (⟨S_, .f32⟩ : BufTy).Contents (Elt Ideal) → (⟨S8192x128x1, .f32⟩ : BufTy).Contents (Elt Ideal)),
    binary main_v28 main_v27 main_v29 (mulf (F := Ideal) (φ := .f32) : (⟨S8192x128x1, .f32⟩ : BufTy).Contents (Elt Ideal) → (⟨S8192x128x1, .f32⟩ : BufTy).Contents (Elt Ideal) → (⟨S8192x128x1, .f32⟩ : BufTy).Contents (Elt Ideal)) ]

/-- The 15 operations of the second result. -/
abbrev opsC : List (HloOp τ sig (Elt Ideal)) :=
  [ unary main_arg3 main_v30 ((extractStridedSlice S64x4096 ![0, 16384] · slices_S64x21504_S64x4096_0_16384) : (⟨S64x21504, .f32⟩ : BufTy).Contents (Elt Ideal) → (⟨S64x4096, .f32⟩ : BufTy).Contents (Elt Ideal)),
    reshape main_v30 main_v31 rfl shapeCasts_S64x4096_S64x64x64,
    nullary main_c_8 (constantI S_ 32 0#32),
    unary main_c_8 main_v32 (broadcastInDim S8192 ![] bcast_S_S8192 : (⟨S_, .i32⟩ : BufTy).Contents (Elt Ideal) → (⟨S8192, .i32⟩ : BufTy).Contents (Elt Ideal)),
    binary main_v17 main_v32 main_v33 (cmpi .slt : (⟨S8192, .i32⟩ : BufTy).Contents (Elt Ideal) → (⟨S8192, .i32⟩ : BufTy).Contents (Elt Ideal) → (⟨S8192, .i1⟩ : BufTy).Contents (Elt Ideal)),
    nullary main_c_9 (constantI S_ 32 64#32),
    unary main_c_9 main_v34 (broadcastInDim S8192 ![] bcast_S_S8192 : (⟨S_, .i32⟩ : BufTy).Contents (Elt Ideal) → (⟨S8192, .i32⟩ : BufTy).Contents (Elt Ideal)),
    binary main_v17 main_v34 main_v35 (addi : (⟨S8192, .i32⟩ : BufTy).Contents (Elt Ideal) → (⟨S8192, .i32⟩ : BufTy).Contents (Elt Ideal) → (⟨S8192, .i32⟩ : BufTy).Contents (Elt Ideal)),
    ternary main_v33 main_v35 main_v17 main_v36 (select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)),
    unary main_v36 main_v37 (broadcastInDim S8192x1 ![0] bcast_S8192_S8192x1_0 : (⟨S8192, .i32⟩ : BufTy).Contents (Elt Ideal) → (⟨S8192x1, .i32⟩ : BufTy).Contents (Elt Ideal)),
    binary main_v31 main_v37 main_v38 ((fun x i => Host.gather gather_S64x64x64_S8192x1_S8192x64x64_12_0_n_n_0_1_16464 x i) : (⟨S64x64x64, .f32⟩ : BufTy).Contents (Elt Ideal) → (⟨S8192x1, .i32⟩ : BufTy).Contents (Elt Ideal) → (⟨S8192x64x64, .f32⟩ : BufTy).Contents (Elt Ideal)),
    binary main_v38 main_arg1 main_v39 ((fun l r => Host.dotGeneral (F := Ideal) (φ₁ := .f32) (φ₂ := .f32) dot_S8192x64x64_S8192x64x3_S8192x64x3_1_1_2_2_0_0 none l r) : (⟨S8192x64x64, .f32⟩ : BufTy).Contents (Elt Ideal) → (⟨S8192x64x3, .f32⟩ : BufTy).Contents (Elt Ideal) → (⟨S8192x64x3, .f32⟩ : BufTy).Contents (Elt Ideal)),
    nullary main_cst_10 (constant (F := Ideal) S_ .f32 0x3C800000#32),
    unary main_cst_10 main_v40 (broadcastInDim S8192x64x3 ![] bcast_S_S8192x64x3 : (⟨S_, .f32⟩ : BufTy).Contents (Elt Ideal) → (⟨S8192x64x3, .f32⟩ : BufTy).Contents (Elt Ideal)),
    binary main_v40 main_v39 main_v41 (mulf (F := Ideal) (φ := .f32) : (⟨S8192x64x3, .f32⟩ : BufTy).Contents (Elt Ideal) → (⟨S8192x64x3, .f32⟩ : BufTy).Contents (Elt Ideal) → (⟨S8192x64x3, .f32⟩ : BufTy).Contents (Elt Ideal)) ]

/-- The first five operations of the third result (the last of the program's first window). -/
abbrev opsD0 : List (HloOp τ sig (Elt Ideal)) :=
  [ unary main_arg3 main_v42 ((extractStridedSlice S64x1024 ![0, 20480] · slices_S64x21504_S64x1024_0_20480) : (⟨S64x21504, .f32⟩ : BufTy).Contents (Elt Ideal) → (⟨S64x1024, .f32⟩ : BufTy).Contents (Elt Ideal)),
    reshape main_v42 main_v43 rfl shapeCasts_S64x1024_S64x32x32,
    nullary main_c_11 (constantI S_ 32 0#32),
    unary main_c_11 main_v44 (broadcastInDim S8192 ![] bcast_S_S8192 : (⟨S_, .i32⟩ : BufTy).Contents (Elt Ideal) → (⟨S8192, .i32⟩ : BufTy).Contents (Elt Ideal)),
    binary main_v17 main_v44 main_v45 (cmpi .slt : (⟨S8192, .i32⟩ : BufTy).Contents (Elt Ideal) → (⟨S8192, .i32⟩ : BufTy).Contents (Elt Ideal) → (⟨S8192, .i1⟩ : BufTy).Contents (Elt Ideal)) ]

/-- The last ten operations of the third result (the program's second window). -/
abbrev opsD1 : List (HloOp τ sig (Elt Ideal)) :=
  [ nullary main_c_12 (constantI S_ 32 64#32),
    unary main_c_12 main_v46 (broadcastInDim S8192 ![] bcast_S_S8192 : (⟨S_, .i32⟩ : BufTy).Contents (Elt Ideal) → (⟨S8192, .i32⟩ : BufTy).Contents (Elt Ideal)),
    binary main_v17 main_v46 main_v47 (addi : (⟨S8192, .i32⟩ : BufTy).Contents (Elt Ideal) → (⟨S8192, .i32⟩ : BufTy).Contents (Elt Ideal) → (⟨S8192, .i32⟩ : BufTy).Contents (Elt Ideal)),
    ternary main_v45 main_v47 main_v17 main_v48 (select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)),
    unary main_v48 main_v49 (broadcastInDim S8192x1 ![0] bcast_S8192_S8192x1_0 : (⟨S8192, .i32⟩ : BufTy).Contents (Elt Ideal) → (⟨S8192x1, .i32⟩ : BufTy).Contents (Elt Ideal)),
    binary main_v43 main_v49 main_v50 ((fun x i => Host.gather gather_S64x32x32_S8192x1_S8192x32x32_12_0_n_n_0_1_13232 x i) : (⟨S64x32x32, .f32⟩ : BufTy).Contents (Elt Ideal) → (⟨S8192x1, .i32⟩ : BufTy).Contents (Elt Ideal) → (⟨S8192x32x32, .f32⟩ : BufTy).Contents (Elt Ideal)),
    binary main_v50 main_arg2 main_v51 ((fun l r => Host.dotGeneral (F := Ideal) (φ₁ := .f32) (φ₂ := .f32) dot_S8192x32x32_S8192x32x5_S8192x32x5_1_1_2_2_0_0 none l r) : (⟨S8192x32x32, .f32⟩ : BufTy).Contents (Elt Ideal) → (⟨S8192x32x5, .f32⟩ : BufTy).Contents (Elt Ideal) → (⟨S8192x32x5, .f32⟩ : BufTy).Contents (Elt Ideal)),
    nullary main_cst_13 (constant (F := Ideal) S_ .f32 0x3CB504F3#32),
    unary main_cst_13 main_v52 (broadcastInDim S8192x32x5 ![] bcast_S_S8192x32x5 : (⟨S_, .f32⟩ : BufTy).Contents (Elt Ideal) → (⟨S8192x32x5, .f32⟩ : BufTy).Contents (Elt Ideal)),
    binary main_v52 main_v51 main_v53 (mulf (F := Ideal) (φ := .f32) : (⟨S8192x32x5, .f32⟩ : BufTy).Contents (Elt Ideal) → (⟨S8192x32x5, .f32⟩ : BufTy).Contents (Elt Ideal) → (⟨S8192x32x5, .f32⟩ : BufTy).Contents (Elt Ideal)) ]

/-- The 15 operations of the third result, as one list. -/
abbrev opsD : List (HloOp τ sig (Elt Ideal)) :=
  [ unary main_arg3 main_v42 ((extractStridedSlice S64x1024 ![0, 20480] · slices_S64x21504_S64x1024_0_20480) : (⟨S64x21504, .f32⟩ : BufTy).Contents (Elt Ideal) → (⟨S64x1024, .f32⟩ : BufTy).Contents (Elt Ideal)),
    reshape main_v42 main_v43 rfl shapeCasts_S64x1024_S64x32x32,
    nullary main_c_11 (constantI S_ 32 0#32),
    unary main_c_11 main_v44 (broadcastInDim S8192 ![] bcast_S_S8192 : (⟨S_, .i32⟩ : BufTy).Contents (Elt Ideal) → (⟨S8192, .i32⟩ : BufTy).Contents (Elt Ideal)),
    binary main_v17 main_v44 main_v45 (cmpi .slt : (⟨S8192, .i32⟩ : BufTy).Contents (Elt Ideal) → (⟨S8192, .i32⟩ : BufTy).Contents (Elt Ideal) → (⟨S8192, .i1⟩ : BufTy).Contents (Elt Ideal)),
    nullary main_c_12 (constantI S_ 32 64#32),
    unary main_c_12 main_v46 (broadcastInDim S8192 ![] bcast_S_S8192 : (⟨S_, .i32⟩ : BufTy).Contents (Elt Ideal) → (⟨S8192, .i32⟩ : BufTy).Contents (Elt Ideal)),
    binary main_v17 main_v46 main_v47 (addi : (⟨S8192, .i32⟩ : BufTy).Contents (Elt Ideal) → (⟨S8192, .i32⟩ : BufTy).Contents (Elt Ideal) → (⟨S8192, .i32⟩ : BufTy).Contents (Elt Ideal)),
    ternary main_v45 main_v47 main_v17 main_v48 (select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)),
    unary main_v48 main_v49 (broadcastInDim S8192x1 ![0] bcast_S8192_S8192x1_0 : (⟨S8192, .i32⟩ : BufTy).Contents (Elt Ideal) → (⟨S8192x1, .i32⟩ : BufTy).Contents (Elt Ideal)),
    binary main_v43 main_v49 main_v50 ((fun x i => Host.gather gather_S64x32x32_S8192x1_S8192x32x32_12_0_n_n_0_1_13232 x i) : (⟨S64x32x32, .f32⟩ : BufTy).Contents (Elt Ideal) → (⟨S8192x1, .i32⟩ : BufTy).Contents (Elt Ideal) → (⟨S8192x32x32, .f32⟩ : BufTy).Contents (Elt Ideal)),
    binary main_v50 main_arg2 main_v51 ((fun l r => Host.dotGeneral (F := Ideal) (φ₁ := .f32) (φ₂ := .f32) dot_S8192x32x32_S8192x32x5_S8192x32x5_1_1_2_2_0_0 none l r) : (⟨S8192x32x32, .f32⟩ : BufTy).Contents (Elt Ideal) → (⟨S8192x32x5, .f32⟩ : BufTy).Contents (Elt Ideal) → (⟨S8192x32x5, .f32⟩ : BufTy).Contents (Elt Ideal)),
    nullary main_cst_13 (constant (F := Ideal) S_ .f32 0x3CB504F3#32),
    unary main_cst_13 main_v52 (broadcastInDim S8192x32x5 ![] bcast_S_S8192x32x5 : (⟨S_, .f32⟩ : BufTy).Contents (Elt Ideal) → (⟨S8192x32x5, .f32⟩ : BufTy).Contents (Elt Ideal)),
    binary main_v52 main_v51 main_v53 (mulf (F := Ideal) (φ := .f32) : (⟨S8192x32x5, .f32⟩ : BufTy).Contents (Elt Ideal) → (⟨S8192x32x5, .f32⟩ : BufTy).Contents (Elt Ideal) → (⟨S8192x32x5, .f32⟩ : BufTy).Contents (Elt Ideal)) ]

/-- The operations of the program's first window. -/
abbrev ops_part0 : List (HloOp τ sig (Elt Ideal)) := opsA ++ (opsB ++ (opsC ++ opsD0))

/-- @main's 97 operations, in order. -/
abbrev ops : List (HloOp τ sig (Elt Ideal)) := ops_part0 ++ opsD1

theorem opsA_sub : (opsA : List (HloOp τ sig (Elt Ideal))).Forall fun op => op.bufs ⊆ tcRefs τ sig :=
  ⟨nullary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem opsB_sub : (opsB : List (HloOp τ sig (Elt Ideal))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩
theorem opsC_sub : (opsC : List (HloOp τ sig (Elt Ideal))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩
theorem opsD0_sub : (opsD0 : List (HloOp τ sig (Elt Ideal))).Forall fun op => op.bufs ⊆ tcRefs τ sig :=
  ⟨unary_bufs_sub .., reshape_bufs_sub .., nullary_bufs_sub .., unary_bufs_sub .., binary_bufs_sub ..⟩
theorem opsD1_sub : (opsD1 : List (HloOp τ sig (Elt Ideal))).Forall fun op => op.bufs ⊆ tcRefs τ sig :=
  ⟨nullary_bufs_sub .., unary_bufs_sub .., binary_bufs_sub .., ternary_bufs_sub .., unary_bufs_sub .., binary_bufs_sub .., binary_bufs_sub .., nullary_bufs_sub .., unary_bufs_sub .., binary_bufs_sub ..⟩

/-- Every operation touches TensorCore references only. -/
theorem ops_sub : (ops : List (HloOp τ sig (Elt Ideal))).Forall fun op => op.bufs ⊆ tcRefs τ sig :=
  List.forall_iff_forall_mem.mpr fun op h => by
    simp only [ops, ops_part0, List.mem_append] at h
    rcases h with ((h | h | h | h) | h)
    exacts [List.forall_iff_forall_mem.mp opsA_sub op h, List.forall_iff_forall_mem.mp opsB_sub op h, List.forall_iff_forall_mem.mp opsC_sub op h, List.forall_iff_forall_mem.mp opsD0_sub op h, List.forall_iff_forall_mem.mp opsD1_sub op h]

theorem scopedRefs_eq : (Finset.univ.filter fun b : Ref sig .tc => b.isScoped) = ∅ := by decide
theorem scopedSems_eq : (Finset.univ.filter fun sm : SemLoc sig => sm.isScoped .tc) = ∅ := by decide

theorem opsD_eq : (opsD0 ++ opsD1 : List (HloOp τ sig (Elt Ideal))) = opsD := rfl

end Cert.ReferenceIdeal.RefRun

end
-- ==== Proof.RefMainEq.lean ====
import proofs.«171389_j21672404975706_2_alg».proof.Proof.RefOps

/-! # The reference's @main is the straight line of its operations

Each call in @main is its function's body at the call's buffers; a typed reference built from a literal
reference is that reference and moves contents by the identity; sequencing reassociates. So each window of
@main is the run, in order, of its listed operations, and @main that of all 97. -/

noncomputable section

namespace Cert.ReferenceIdeal.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

/-! The four calls, each the straight line of its function's operations over the call's buffers. A typed
    reference built from a literal reference carries contents to the buffer's own type and back by the identity;
    the pure operations are kept folded so that only that identity is opened. -/

attribute [local irreducible] Host.reduce Host.gather Host.scatter Host.reduceWindow shapeCast broadcastInDim extractStridedSlice concatenate select cmpi addi subi andi iotaInDim constantI mulf constant in
set_option maxHeartbeats 400000 in
/-- The roll by one: two slices and their concatenation. -/
theorem roll_eq : (fn_roll_static.body (F := Ideal) (.of main_arg4) main_call0 : Prog (TpuEff nD τ sig (Elt Ideal) (Pipeline.Sig Λ₀ (Fin 0) fun p => (pcfgs (F := Ideal) p).Adm) .tc) PUnit) = seq [ unary main_arg4 main_call0_v0 ((extractStridedSlice S1 ![63] · slices_S64_S1_63) : (⟨S64, .i32⟩ : BufTy).Contents (Elt Ideal) → (⟨S1, .i32⟩ : BufTy).Contents (Elt Ideal)),
    unary main_arg4 main_call0_v1 ((extractStridedSlice S63 ![0] · slices_S64_S63_0) : (⟨S64, .i32⟩ : BufTy).Contents (Elt Ideal) → (⟨S63, .i32⟩ : BufTy).Contents (Elt Ideal)),
    binary main_call0_v0 main_call0_v1 main_v1 ((fun a b => concatenate S64 0 [⟨S1, a⟩, ⟨S63, b⟩] concatenates_S1_S63_S64_d0) : (⟨S1, .i32⟩ : BufTy).Contents (Elt Ideal) → (⟨S63, .i32⟩ : BufTy).Contents (Elt Ideal) → (⟨S64, .i32⟩ : BufTy).Contents (Elt Ideal)) ] := rfl

attribute [local irreducible] Host.reduce Host.gather Host.scatter Host.reduceWindow shapeCast broadcastInDim extractStridedSlice concatenate select cmpi addi subi andi iotaInDim constantI mulf constant in
set_option maxHeartbeats 400000 in
/-- The running sum of 64 entries: the zero, its rank-zero broadcast, the windowed sum. -/
theorem cumsum_eq : (fn_cumsum.body (F := Ideal) (.of main_v3) main_call1 : Prog (TpuEff nD τ sig (Elt Ideal) (Pipeline.Sig Λ₀ (Fin 0) fun p => (pcfgs (F := Ideal) p).Adm) .tc) PUnit) = seq [ nullary main_call1_call0_c (constantI S_ 32 0#32),
    unary main_call1_call0_c main_call1_call0_v0 ((broadcastInDim S_ ![] bcast_S_S_) : (⟨S_, .i32⟩ : BufTy).Contents (Elt Ideal) → (⟨S_, .i32⟩ : BufTy).Contents (Elt Ideal)),
    binary main_v3 main_call1_call0_v0 main_v4 ((fun x v => Host.reduceWindow IntOp.addi ![64] ![1] ![63] ![0] x v reduceWindows_S64_S64_w64s1p63_0 h_S_) : (⟨S64, .i32⟩ : BufTy).Contents (Elt Ideal) → (⟨S_, .i32⟩ : BufTy).Contents (Elt Ideal) → (⟨S64, .i32⟩ : BufTy).Contents (Elt Ideal)) ] := rfl

attribute [local irreducible] Host.reduce Host.gather Host.scatter Host.reduceWindow shapeCast broadcastInDim extractStridedSlice concatenate select cmpi addi subi andi iotaInDim constantI mulf constant in
set_option maxHeartbeats 400000 in
/-- The running sum of 8192 entries: the zero, its rank-zero broadcast, the windowed sum. -/
theorem cumsum1_eq : (fn_cumsum_1.body (F := Ideal) (.of main_v13) main_call2 : Prog (TpuEff nD τ sig (Elt Ideal) (Pipeline.Sig Λ₀ (Fin 0) fun p => (pcfgs (F := Ideal) p).Adm) .tc) PUnit) = seq [ nullary main_call2_call0_c (constantI S_ 32 0#32),
    unary main_call2_call0_c main_call2_call0_v0 ((broadcastInDim S_ ![] bcast_S_S_) : (⟨S_, .i32⟩ : BufTy).Contents (Elt Ideal) → (⟨S_, .i32⟩ : BufTy).Contents (Elt Ideal)),
    binary main_v13 main_call2_call0_v0 main_v14 ((fun x v => Host.reduceWindow IntOp.addi ![8192] ![1] ![8191] ![0] x v reduceWindows_S8192_S8192_w8192s1p8191_0 h_S_) : (⟨S8192, .i32⟩ : BufTy).Contents (Elt Ideal) → (⟨S_, .i32⟩ : BufTy).Contents (Elt Ideal) → (⟨S8192, .i32⟩ : BufTy).Contents (Elt Ideal)) ] := rfl

attribute [local irreducible] Host.reduce Host.gather Host.scatter Host.reduceWindow shapeCast broadcastInDim extractStridedSlice concatenate select cmpi addi subi andi iotaInDim constantI mulf constant in
set_option maxHeartbeats 400000 in
/-- The lookup in fill mode: the wrap of a negative index (through the select function), the bounds test, the gather, the fill value, the select. -/
theorem take_eq : (fn_take.body (F := Ideal) (.of main_v0) (.of main_v16) main_call3 : Prog (TpuEff nD τ sig (Elt Ideal) (Pipeline.Sig Λ₀ (Fin 0) fun p => (pcfgs (F := Ideal) p).Adm) .tc) PUnit) = seq [ nullary main_call3_c (constantI S_ 32 0#32),
    unary main_call3_c main_call3_v0 ((broadcastInDim S8192 ![] bcast_S_S8192) : (⟨S_, .i32⟩ : BufTy).Contents (Elt Ideal) → (⟨S8192, .i32⟩ : BufTy).Contents (Elt Ideal)),
    binary main_v16 main_call3_v0 main_call3_v1 ((cmpi .slt) : (⟨S8192, .i32⟩ : BufTy).Contents (Elt Ideal) → (⟨S8192, .i32⟩ : BufTy).Contents (Elt Ideal) → (⟨S8192, .i1⟩ : BufTy).Contents (Elt Ideal)),
    nullary main_call3_c_0 (constantI S_ 32 64#32),
    unary main_call3_c_0 main_call3_v2 ((broadcastInDim S8192 ![] bcast_S_S8192) : (⟨S_, .i32⟩ : BufTy).Contents (Elt Ideal) → (⟨S8192, .i32⟩ : BufTy).Contents (Elt Ideal)),
    binary main_v16 main_call3_v2 main_call3_v3 (addi : (⟨S8192, .i32⟩ : BufTy).Contents (Elt Ideal) → (⟨S8192, .i32⟩ : BufTy).Contents (Elt Ideal) → (⟨S8192, .i32⟩ : BufTy).Contents (Elt Ideal)),
    ternary main_call3_v1 main_call3_v3 main_v16 main_call3_v4 (select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)),
    unary main_call3_v4 main_call3_v5 ((broadcastInDim S8192x1 ![0] bcast_S8192_S8192x1_0) : (⟨S8192, .i32⟩ : BufTy).Contents (Elt Ideal) → (⟨S8192x1, .i32⟩ : BufTy).Contents (Elt Ideal)),
    nullary main_call3_c_1 (constantI S1 32 63#32),
    nullary main_call3_c_2 (constantI S_ 32 0#32),
    unary main_call3_c_2 main_call3_v6 ((broadcastInDim S8192x1 ![] bcast_S_S8192x1) : (⟨S_, .i32⟩ : BufTy).Contents (Elt Ideal) → (⟨S8192x1, .i32⟩ : BufTy).Contents (Elt Ideal)),
    binary main_call3_v5 main_call3_v6 main_call3_v7 ((cmpi .sge) : (⟨S8192x1, .i32⟩ : BufTy).Contents (Elt Ideal) → (⟨S8192x1, .i32⟩ : BufTy).Contents (Elt Ideal) → (⟨S8192x1, .i1⟩ : BufTy).Contents (Elt Ideal)),
    unary main_call3_c_1 main_call3_v8 ((broadcastInDim S1x1 ![1] bcast_S1_S1x1_1) : (⟨S1, .i32⟩ : BufTy).Contents (Elt Ideal) → (⟨S1x1, .i32⟩ : BufTy).Contents (Elt Ideal)),
    unary main_call3_v8 main_call3_v9 ((broadcastInDim S8192x1 ![0, 1] bcast_S1x1_S8192x1_0_1) : (⟨S1x1, .i32⟩ : BufTy).Contents (Elt Ideal) → (⟨S8192x1, .i32⟩ : BufTy).Contents (Elt Ideal)),
    binary main_call3_v5 main_call3_v9 main_call3_v10 ((cmpi .sle) : (⟨S8192x1, .i32⟩ : BufTy).Contents (Elt Ideal) → (⟨S8192x1, .i32⟩ : BufTy).Contents (Elt Ideal) → (⟨S8192x1, .i1⟩ : BufTy).Contents (Elt Ideal)),
    binary main_call3_v7 main_call3_v10 main_call3_v11 (andi : (⟨S8192x1, .i1⟩ : BufTy).Contents (Elt Ideal) → (⟨S8192x1, .i1⟩ : BufTy).Contents (Elt Ideal) → (⟨S8192x1, .i1⟩ : BufTy).Contents (Elt Ideal)),
    nullary main_call3_c_3 (constantI S_ 1 1#1),
    binary main_call3_v11 main_call3_c_3 main_call3_v12 ((fun x v => Host.reduce IntOp.andi x v reducesTo_S8192x1_S8192_d1 h_S_) : (⟨S8192x1, .i1⟩ : BufTy).Contents (Elt Ideal) → (⟨S_, .i1⟩ : BufTy).Contents (Elt Ideal) → (⟨S8192, .i1⟩ : BufTy).Contents (Elt Ideal)),
    binary main_v0 main_call3_v5 main_call3_v13 ((fun x i => Host.gather gather_S64_S8192x1_S8192_n_0_n_n_0_1_1 x i) : (⟨S64, .i32⟩ : BufTy).Contents (Elt Ideal) → (⟨S8192x1, .i32⟩ : BufTy).Contents (Elt Ideal) → (⟨S8192, .i32⟩ : BufTy).Contents (Elt Ideal)),
    nullary main_call3_c_4 (constantI S_ 32 2147483648#32),
    unary main_call3_c_4 main_call3_v14 ((broadcastInDim S8192 ![] bcast_S_S8192) : (⟨S_, .i32⟩ : BufTy).Contents (Elt Ideal) → (⟨S8192, .i32⟩ : BufTy).Contents (Elt Ideal)),
    ternary main_call3_v12 main_call3_v13 main_call3_v14 main_v17 (select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)) ] := rfl

set_option maxRecDepth 8192 in
/-- The second window is its ten operations. -/
theorem main_part1_eq (c : Dev nD) : main_part1 (F := Ideal) c = seq opsD1 := rfl

attribute [local irreducible] Host.reduce Host.gather Host.scatter Host.reduceWindow shapeCast broadcastInDim extractStridedSlice concatenate select cmpi addi subi andi iotaInDim constantI mulf constant in
set_option maxRecDepth 8192 in
set_option maxHeartbeats 1000000 in
/-- The first window is its 87 operations: the calls are the straight lines above, and sequencing reassociates. -/
theorem main_part0_eq (c : Dev nD) : main_part0 (F := Ideal) c = seq ops_part0 := by
  simp only [main_part0, roll_eq, cumsum_eq, cumsum1_eq, take_eq]
  simp only [ops_part0, seq_append, seq, bind_assoc, pure_bind]
  rfl

set_option maxRecDepth 8192 in
/-- @main is the straight line of its operations. -/
theorem main_eq (c : Dev nD) : main (F := Ideal) c = seq ops := by
  simp only [ops, seq_append, ← main_part0_eq c, ← main_part1_eq c]
  rfl

end Cert.ReferenceIdeal.RefRun

end
-- ==== Proof.RefRunA.lean ====
import proofs.«171389_j21672404975706_2_alg».proof.Proof.RefOps
import proofs.«171389_j21672404975706_2_alg».proof.Proof.RefSid
import Idealize.ShloMosaic.Lib.StableHlo.Run

/-! # The segment ids, read off the reference's operations

The buffer contents after the first 52 operations of the reference's @main: the buffer of `%17` holds the
segment ids `sid` of the counts, and the five arguments hold what they held. -/

noncomputable section

namespace Cert.ReferenceIdeal.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

/-- The device's buffer contents after the 52 operations that compute the segment ids. -/
def val1 (V0 : Valuation τ sig (Elt Ideal)) : Valuation τ sig (Elt Ideal) := after opsA V0

set_option maxRecDepth 8192 in
theorem val1_main_arg0 (V0 : Valuation τ sig (Elt Ideal)) : val1 V0 (no_index (Proc.devRef .tc main_arg0 : DevRef τ sig)) = V0 (Proc.devRef .tc main_arg0 : DevRef τ sig) := by
  unfold val1
  simp only [opsA]
  after_results_simp

set_option maxRecDepth 8192 in
theorem val1_main_arg1 (V0 : Valuation τ sig (Elt Ideal)) : val1 V0 (no_index (Proc.devRef .tc main_arg1 : DevRef τ sig)) = V0 (Proc.devRef .tc main_arg1 : DevRef τ sig) := by
  unfold val1
  simp only [opsA]
  after_results_simp

set_option maxRecDepth 8192 in
theorem val1_main_arg2 (V0 : Valuation τ sig (Elt Ideal)) : val1 V0 (no_index (Proc.devRef .tc main_arg2 : DevRef τ sig)) = V0 (Proc.devRef .tc main_arg2 : DevRef τ sig) := by
  unfold val1
  simp only [opsA]
  after_results_simp

set_option maxRecDepth 8192 in
theorem val1_main_arg3 (V0 : Valuation τ sig (Elt Ideal)) : val1 V0 (no_index (Proc.devRef .tc main_arg3 : DevRef τ sig)) = V0 (Proc.devRef .tc main_arg3 : DevRef τ sig) := by
  unfold val1
  simp only [opsA]
  after_results_simp

set_option maxRecDepth 8192 in
theorem val1_main_arg4 (V0 : Valuation τ sig (Elt Ideal)) : val1 V0 (no_index (Proc.devRef .tc main_arg4 : DevRef τ sig)) = V0 (Proc.devRef .tc main_arg4 : DevRef τ sig) := by
  unfold val1
  simp only [opsA]
  after_results_simp

attribute [local irreducible] Host.reduce Host.reduceWindow Host.gather Host.scatter concatenate in
set_option maxRecDepth 8192 in
set_option maxHeartbeats 2000000 in
/-- After them the buffer of `%17` holds the segment ids of the counts: the fold of the operations' results at
    that buffer is the composition `sid` spells out, term for term. -/
theorem val1_main_v17 (V0 : Valuation τ sig (Elt Ideal)) : val1 V0 (no_index (Proc.devRef .tc main_v17 : DevRef τ sig)) = sid (V0 (Proc.devRef .tc main_arg4 : DevRef τ sig)) := by
  unfold val1
  simp only [opsA]
  after_results_simp
  rfl

end Cert.ReferenceIdeal.RefRun

end
-- ==== Proof.RefRunB.lean ====
import proofs.«171389_j21672404975706_2_alg».proof.Proof.RefOps
import proofs.«171389_j21672404975706_2_alg».proof.Proof.RefSid
import proofs.«171389_j21672404975706_2_alg».proof.Proof.RefValue
import proofs.«171389_j21672404975706_2_alg».proof.Proof.RefRunA
import Idealize.ShloMosaic.Lib.StableHlo.Run

/-! # The three results, read off the reference's operations

The buffer contents after each further group of 15 operations of the reference's @main: the group's result
buffer holds the value function of `RefValue` at the launch contents of its input, of the weight table and at
the segment ids; the earlier results, the segment ids and the five arguments hold what they held. -/

noncomputable section

namespace Cert.ReferenceIdeal.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

/-- The buffer contents after the first result's operations. -/
def val2 (V0 : Valuation τ sig (Elt Ideal)) : Valuation τ sig (Elt Ideal) := after opsB (val1 V0)
/-- The buffer contents after the second result's operations. -/
def val3 (V0 : Valuation τ sig (Elt Ideal)) : Valuation τ sig (Elt Ideal) := after opsC (val2 V0)
/-- The buffer contents after the third result's operations. -/
def val4 (V0 : Valuation τ sig (Elt Ideal)) : Valuation τ sig (Elt Ideal) := after opsD (val3 V0)

set_option maxRecDepth 8192 in
theorem val2_main_arg0 (V0 : Valuation τ sig (Elt Ideal)) : val2 V0 (no_index (Proc.devRef .tc main_arg0 : DevRef τ sig)) = V0 (Proc.devRef .tc main_arg0 : DevRef τ sig) := by
  unfold val2
  simp only [opsB]
  after_results_simp
  exact val1_main_arg0 V0

set_option maxRecDepth 8192 in
theorem val2_main_arg1 (V0 : Valuation τ sig (Elt Ideal)) : val2 V0 (no_index (Proc.devRef .tc main_arg1 : DevRef τ sig)) = V0 (Proc.devRef .tc main_arg1 : DevRef τ sig) := by
  unfold val2
  simp only [opsB]
  after_results_simp
  exact val1_main_arg1 V0

set_option maxRecDepth 8192 in
theorem val2_main_arg2 (V0 : Valuation τ sig (Elt Ideal)) : val2 V0 (no_index (Proc.devRef .tc main_arg2 : DevRef τ sig)) = V0 (Proc.devRef .tc main_arg2 : DevRef τ sig) := by
  unfold val2
  simp only [opsB]
  after_results_simp
  exact val1_main_arg2 V0

set_option maxRecDepth 8192 in
theorem val2_main_arg3 (V0 : Valuation τ sig (Elt Ideal)) : val2 V0 (no_index (Proc.devRef .tc main_arg3 : DevRef τ sig)) = V0 (Proc.devRef .tc main_arg3 : DevRef τ sig) := by
  unfold val2
  simp only [opsB]
  after_results_simp
  exact val1_main_arg3 V0

set_option maxRecDepth 8192 in
theorem val2_main_arg4 (V0 : Valuation τ sig (Elt Ideal)) : val2 V0 (no_index (Proc.devRef .tc main_arg4 : DevRef τ sig)) = V0 (Proc.devRef .tc main_arg4 : DevRef τ sig) := by
  unfold val2
  simp only [opsB]
  after_results_simp
  exact val1_main_arg4 V0

set_option maxRecDepth 8192 in
theorem val2_main_v17 (V0 : Valuation τ sig (Elt Ideal)) : val2 V0 (no_index (Proc.devRef .tc main_v17 : DevRef τ sig)) = sid (V0 (Proc.devRef .tc main_arg4 : DevRef τ sig)) := by
  unfold val2
  simp only [opsB]
  after_results_simp
  exact val1_main_v17 V0

attribute [local irreducible] Host.reduce Host.gather Host.scatter Host.reduceWindow shapeCast broadcastInDim extractStridedSlice concatenate select cmpi addi subi andi iotaInDim constantI mulf constant in
set_option maxRecDepth 8192 in
set_option maxHeartbeats 1000000 in
/-- After the first result's operations its buffer holds `RefValue.res0` of the first input, the weight table and the segment ids. -/
theorem val2_main_v29 (V0 : Valuation τ sig (Elt Ideal)) : val2 V0 (no_index (Proc.devRef .tc main_v29 : DevRef τ sig)) = RefValue.res0 (V0 (Proc.devRef .tc main_arg0 : DevRef τ sig)) (V0 (Proc.devRef .tc main_arg3 : DevRef τ sig)) (sid (V0 (Proc.devRef .tc main_arg4 : DevRef τ sig))) := by
  unfold val2
  simp only [opsB]
  after_results_simp
  simp only [val1_main_v17, val1_main_arg0, val1_main_arg3]
  rfl

set_option maxRecDepth 8192 in
theorem val3_main_arg0 (V0 : Valuation τ sig (Elt Ideal)) : val3 V0 (no_index (Proc.devRef .tc main_arg0 : DevRef τ sig)) = V0 (Proc.devRef .tc main_arg0 : DevRef τ sig) := by
  unfold val3
  simp only [opsC]
  after_results_simp
  exact val2_main_arg0 V0

set_option maxRecDepth 8192 in
theorem val3_main_arg1 (V0 : Valuation τ sig (Elt Ideal)) : val3 V0 (no_index (Proc.devRef .tc main_arg1 : DevRef τ sig)) = V0 (Proc.devRef .tc main_arg1 : DevRef τ sig) := by
  unfold val3
  simp only [opsC]
  after_results_simp
  exact val2_main_arg1 V0

set_option maxRecDepth 8192 in
theorem val3_main_arg2 (V0 : Valuation τ sig (Elt Ideal)) : val3 V0 (no_index (Proc.devRef .tc main_arg2 : DevRef τ sig)) = V0 (Proc.devRef .tc main_arg2 : DevRef τ sig) := by
  unfold val3
  simp only [opsC]
  after_results_simp
  exact val2_main_arg2 V0

set_option maxRecDepth 8192 in
theorem val3_main_arg3 (V0 : Valuation τ sig (Elt Ideal)) : val3 V0 (no_index (Proc.devRef .tc main_arg3 : DevRef τ sig)) = V0 (Proc.devRef .tc main_arg3 : DevRef τ sig) := by
  unfold val3
  simp only [opsC]
  after_results_simp
  exact val2_main_arg3 V0

set_option maxRecDepth 8192 in
theorem val3_main_arg4 (V0 : Valuation τ sig (Elt Ideal)) : val3 V0 (no_index (Proc.devRef .tc main_arg4 : DevRef τ sig)) = V0 (Proc.devRef .tc main_arg4 : DevRef τ sig) := by
  unfold val3
  simp only [opsC]
  after_results_simp
  exact val2_main_arg4 V0

set_option maxRecDepth 8192 in
theorem val3_main_v17 (V0 : Valuation τ sig (Elt Ideal)) : val3 V0 (no_index (Proc.devRef .tc main_v17 : DevRef τ sig)) = sid (V0 (Proc.devRef .tc main_arg4 : DevRef τ sig)) := by
  unfold val3
  simp only [opsC]
  after_results_simp
  exact val2_main_v17 V0

set_option maxRecDepth 8192 in
theorem val3_main_v29 (V0 : Valuation τ sig (Elt Ideal)) : val3 V0 (no_index (Proc.devRef .tc main_v29 : DevRef τ sig)) = RefValue.res0 (V0 (Proc.devRef .tc main_arg0 : DevRef τ sig)) (V0 (Proc.devRef .tc main_arg3 : DevRef τ sig)) (sid (V0 (Proc.devRef .tc main_arg4 : DevRef τ sig))) := by
  unfold val3
  simp only [opsC]
  after_results_simp
  exact val2_main_v29 V0

attribute [local irreducible] Host.reduce Host.gather Host.scatter Host.reduceWindow shapeCast broadcastInDim extractStridedSlice concatenate select cmpi addi subi andi iotaInDim constantI mulf constant in
set_option maxRecDepth 8192 in
set_option maxHeartbeats 1000000 in
/-- After the second result's operations its buffer holds `RefValue.res1` of the second input, the weight table and the segment ids. -/
theorem val3_main_v41 (V0 : Valuation τ sig (Elt Ideal)) : val3 V0 (no_index (Proc.devRef .tc main_v41 : DevRef τ sig)) = RefValue.res1 (V0 (Proc.devRef .tc main_arg1 : DevRef τ sig)) (V0 (Proc.devRef .tc main_arg3 : DevRef τ sig)) (sid (V0 (Proc.devRef .tc main_arg4 : DevRef τ sig))) := by
  unfold val3
  simp only [opsC]
  after_results_simp
  simp only [val2_main_v17, val2_main_arg1, val2_main_arg3]
  rfl

set_option maxRecDepth 8192 in
theorem val4_main_arg0 (V0 : Valuation τ sig (Elt Ideal)) : val4 V0 (no_index (Proc.devRef .tc main_arg0 : DevRef τ sig)) = V0 (Proc.devRef .tc main_arg0 : DevRef τ sig) := by
  unfold val4
  simp only [opsD]
  after_results_simp
  exact val3_main_arg0 V0

set_option maxRecDepth 8192 in
theorem val4_main_arg1 (V0 : Valuation τ sig (Elt Ideal)) : val4 V0 (no_index (Proc.devRef .tc main_arg1 : DevRef τ sig)) = V0 (Proc.devRef .tc main_arg1 : DevRef τ sig) := by
  unfold val4
  simp only [opsD]
  after_results_simp
  exact val3_main_arg1 V0

set_option maxRecDepth 8192 in
theorem val4_main_arg2 (V0 : Valuation τ sig (Elt Ideal)) : val4 V0 (no_index (Proc.devRef .tc main_arg2 : DevRef τ sig)) = V0 (Proc.devRef .tc main_arg2 : DevRef τ sig) := by
  unfold val4
  simp only [opsD]
  after_results_simp
  exact val3_main_arg2 V0

set_option maxRecDepth 8192 in
theorem val4_main_arg3 (V0 : Valuation τ sig (Elt Ideal)) : val4 V0 (no_index (Proc.devRef .tc main_arg3 : DevRef τ sig)) = V0 (Proc.devRef .tc main_arg3 : DevRef τ sig) := by
  unfold val4
  simp only [opsD]
  after_results_simp
  exact val3_main_arg3 V0

set_option maxRecDepth 8192 in
theorem val4_main_arg4 (V0 : Valuation τ sig (Elt Ideal)) : val4 V0 (no_index (Proc.devRef .tc main_arg4 : DevRef τ sig)) = V0 (Proc.devRef .tc main_arg4 : DevRef τ sig) := by
  unfold val4
  simp only [opsD]
  after_results_simp
  exact val3_main_arg4 V0

set_option maxRecDepth 8192 in
theorem val4_main_v29 (V0 : Valuation τ sig (Elt Ideal)) : val4 V0 (no_index (Proc.devRef .tc main_v29 : DevRef τ sig)) = RefValue.res0 (V0 (Proc.devRef .tc main_arg0 : DevRef τ sig)) (V0 (Proc.devRef .tc main_arg3 : DevRef τ sig)) (sid (V0 (Proc.devRef .tc main_arg4 : DevRef τ sig))) := by
  unfold val4
  simp only [opsD]
  after_results_simp
  exact val3_main_v29 V0

set_option maxRecDepth 8192 in
theorem val4_main_v41 (V0 : Valuation τ sig (Elt Ideal)) : val4 V0 (no_index (Proc.devRef .tc main_v41 : DevRef τ sig)) = RefValue.res1 (V0 (Proc.devRef .tc main_arg1 : DevRef τ sig)) (V0 (Proc.devRef .tc main_arg3 : DevRef τ sig)) (sid (V0 (Proc.devRef .tc main_arg4 : DevRef τ sig))) := by
  unfold val4
  simp only [opsD]
  after_results_simp
  exact val3_main_v41 V0

attribute [local irreducible] Host.reduce Host.gather Host.scatter Host.reduceWindow shapeCast broadcastInDim extractStridedSlice concatenate select cmpi addi subi andi iotaInDim constantI mulf constant in
set_option maxRecDepth 8192 in
set_option maxHeartbeats 1000000 in
/-- After the third result's operations its buffer holds `RefValue.res2` of the third input, the weight table and the segment ids. -/
theorem val4_main_v53 (V0 : Valuation τ sig (Elt Ideal)) : val4 V0 (no_index (Proc.devRef .tc main_v53 : DevRef τ sig)) = RefValue.res2 (V0 (Proc.devRef .tc main_arg2 : DevRef τ sig)) (V0 (Proc.devRef .tc main_arg3 : DevRef τ sig)) (sid (V0 (Proc.devRef .tc main_arg4 : DevRef τ sig))) := by
  unfold val4
  simp only [opsD]
  after_results_simp
  simp only [val3_main_v17, val3_main_arg2, val3_main_arg3]
  rfl

end Cert.ReferenceIdeal.RefRun

end
-- ==== Proof.RefRun.lean ====
import proofs.«171389_j21672404975706_2_alg».proof.ReferenceIdeal
import proofs.«171389_j21672404975706_2_alg».proof.Proof.Gen.ReferenceIdeal
import proofs.«171389_j21672404975706_2_alg».proof.Proof.RefSid
import proofs.«171389_j21672404975706_2_alg».proof.Proof.RefValue
import proofs.«171389_j21672404975706_2_alg».proof.Proof.RefOps
import proofs.«171389_j21672404975706_2_alg».proof.Proof.RefMainEq
import proofs.«171389_j21672404975706_2_alg».proof.Proof.RefRunA
import proofs.«171389_j21672404975706_2_alg».proof.Proof.RefRunB
import Idealize.ShloMosaic.Lib.StableHlo.Run
import Idealize.ShloMosaic.Lib.Pipeline.Frame

/-! # The reference's run

The reference's @main is a straight line of host operations: every weakly fair execution of it terminates,
and each buffer ends at the fold of the operations' results over the launch contents. Read at the three
result buffers, that fold is the value functions of `RefValue` at the segment ids `sid` of the counts. -/

noncomputable section

namespace Cert.ReferenceIdeal.RefRun

open Cert.ReferenceIdeal Idealize.ShloMosaic Idealize.ShloMosaic.TcCoe Idealize.SL.Sem Idealize.ShloMosaic.StableHlo

variable [Cert.ReferenceIdeal.Facts]

/-- The fold of all 97 operations is the fold of the four groups in turn. -/
theorem after_ops (V0 : Valuation τ sig (Elt Ideal)) : after ops V0 = val4 V0 := by
  show after ((opsA ++ (opsB ++ (opsC ++ opsD0))) ++ opsD1) V0 = after opsD (after opsC (after opsB (after opsA V0)))
  rw [after_append, after_append, after_append, after_append, ← opsD_eq, after_append]

set_option maxRecDepth 8192 in
/-- On every device, from any memory with zero counters: every weakly fair execution of the reference's @main
    terminates with each of its three results at the composed pure term of the launch contents of the
    arguments — the value functions `RefValue.res0 … res2` at the segment ids `sid` of the counts — and the
    five arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v29) = RefValue.res0 (m ((c.tc : Thread nD τ).loc main_arg0)) (m ((c.tc : Thread nD τ).loc main_arg3)) (sid (m ((c.tc : Thread nD τ).loc main_arg4)))
      ∧ r.2.mem ((c.tc : Thread nD τ).loc main_v41) = RefValue.res1 (m ((c.tc : Thread nD τ).loc main_arg1)) (m ((c.tc : Thread nD τ).loc main_arg3)) (sid (m ((c.tc : Thread nD τ).loc main_arg4)))
      ∧ r.2.mem ((c.tc : Thread nD τ).loc main_v53) = RefValue.res2 (m ((c.tc : Thread nD τ).loc main_arg2)) (m ((c.tc : Thread nD τ).loc main_arg3)) (sid (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.ReferenceIdeal.defs (F := Ideal)) _ _).mono (fun _ h c =>
    ⟨(h c main_v29).trans (by simp only [after_ops]; exact val4_main_v29 (launchContents m c)),
      (h c main_v41).trans (by simp only [after_ops]; exact val4_main_v41 (launchContents m c)),
      (h c main_v53).trans (by simp only [after_ops]; exact val4_main_v53 (launchContents m c)),
      (h c main_arg0).trans (by simp only [after_ops]; exact val4_main_arg0 (launchContents m c)),
      (h c main_arg1).trans (by simp only [after_ops]; exact val4_main_arg1 (launchContents m c)),
      (h c main_arg2).trans (by simp only [after_ops]; exact val4_main_arg2 (launchContents m c)),
      (h c main_arg3).trans (by simp only [after_ops]; exact val4_main_arg3 (launchContents m c)),
      (h c main_arg4).trans (by simp only [after_ops]; exact val4_main_arg4 (launchContents m c))⟩)
    (run_seq scopedRefs_eq scopedSems_eq (Cert.ReferenceIdeal.defs (F := Ideal)) (Cert.ReferenceIdeal.main (F := Ideal)) (fun _ => ops) main_eq (fun _ => ops_sub) m ρ)
end Cert.ReferenceIdeal.RefRun

end
-- ==== Proof.lean ====
/-
  The equivalence, over the extended reals, of a tiled kernel for an indexed (segmented) linear map and its
  reference program.

  Rows `n` of three arrays `x_k : [8192, mul_k, ir_k]` (`(mul, ir)` = (128, 1), (64, 3), (32, 5)) are grouped into 64
  contiguous segments by 64 counts; segment `g` owns row `g` of the weight table `w : [64, 21504]`, read as three
  `mul × mul` mixing matrices. Result `k` at `(n, o, i)` is `c_k · Σ_m w[sid n, off_k + m·mul + o] · x_k[n, m, i]`.

  Both programs compute the segment id of every row by the same host operations: a one is added at each of 64
  positions (running totals of the counts) into 8192 zeros, the zeros-and-ones are summed cumulatively, one is
  subtracted, and the table `0 … 63` is read there. Whatever the counts, every cumulative sum lies between 0 and
  64, so every id is one of `0 … 63` — the one fact about the ids the proof needs, and it needs it: the reference
  reads row `sid n` of the table with a row gather, while the kernel multiplies the table by the one-hot row
  `[sid n = e]`, and the two agree exactly when the id names a row (`Σ_e [sid n = e] · w[e, j] = w[sid n, j]`, which
  holds on the extended reals since `0 · a = 0` and `1 · a = a` for every `a`). The rest is bookkeeping: the
  kernel's three pipelined regions each write back blocks of 128 or 256 rows that tile the 8192 rows; the
  reference's batched product contracts the same axis in the same order; both scale by the same 32-bit pattern.
  Changes of float format are the identity on the extended reals, so the kernel's bf16 casts do nothing here.

  The three frame claims: the kernel's two are the frame certificates of its regions; the reference's is its run
  with the results dropped. The idealization rewrote no operation, so `preserves` is `True`.
-/
import proofs.«171389_j21672404975706_2_alg».proof.Defs
import proofs.«171389_j21672404975706_2_alg».proof.Proof.Gen.Kernel
import proofs.«171389_j21672404975706_2_alg».proof.Proof.Gen.Kernel.Skeleton
import proofs.«171389_j21672404975706_2_alg».proof.Proof.Gen.Kernel.Launch
import proofs.«171389_j21672404975706_2_alg».proof.Proof.Gen.Kernel.Points
import proofs.«171389_j21672404975706_2_alg».proof.Proof.Gen.Kernel.Frame
import proofs.«171389_j21672404975706_2_alg».proof.Proof.Gen.KernelIdeal
import proofs.«171389_j21672404975706_2_alg».proof.Proof.Gen.KernelIdeal.Skeleton
import proofs.«171389_j21672404975706_2_alg».proof.Proof.Gen.KernelIdeal.Launch
import proofs.«171389_j21672404975706_2_alg».proof.Proof.Gen.KernelIdeal.Points
import proofs.«171389_j21672404975706_2_alg».proof.Proof.Gen.KernelIdeal.Frame
import proofs.«171389_j21672404975706_2_alg».proof.Proof.Gen.ReferenceIdeal
import proofs.«171389_j21672404975706_2_alg».proof.Proof.Gen.Pre_finite_inputs
import proofs.«171389_j21672404975706_2_alg».proof.Proof.Spec
import proofs.«171389_j21672404975706_2_alg».proof.Proof.SidRange
import proofs.«171389_j21672404975706_2_alg».proof.Proof.KernelRun
import proofs.«171389_j21672404975706_2_alg».proof.Proof.KernelValue
import proofs.«171389_j21672404975706_2_alg».proof.Proof.RefValue
import proofs.«171389_j21672404975706_2_alg».proof.Proof.RefSid
import proofs.«171389_j21672404975706_2_alg».proof.Proof.RefRun
import Idealize.ShloMosaic.Adequacy
import Idealize.ShloMosaic.Init

noncomputable section

namespace Cert.Proof

open Idealize.ShloMosaic Idealize.ShloMosaic.ValueIdx Idealize.SL.Sem

attribute [local irreducible] Host.reduce Host.gather Host.scatter Host.reduceWindow shapeCast broadcastInDim
  extractStridedSlice concatenate select cmpi addi subi andi iotaInDim constantI in
/-- The two programs compute the segment ids by the same operations of the counts. -/
theorem sid_eq (counts : (⟨1, ![64]⟩ : Shape).Idx → BitVec 32) :
    Cert.ReferenceIdeal.RefRun.sid counts = Cert.KernelIdeal.Sid.sid counts := rfl

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.RefRun.run m ρ)

theorem preserves : Cert.preserves_Kernel_KernelIdeal := trivial

open Cert.KernelIdeal Cert.KernelIdeal.Gen Cert.KernelIdeal.Walk in
/-- From memories agreeing on the arguments both programs end with each result at the indexed linear map of
    its input, the weight table and the segment map the counts determine. -/
theorem algebraic : Cert.algebraic_KernelIdeal_ReferenceIdeal := by
  intro m ρ m' ρ' _ hagree
  choose s hs using fun c : Dev Cert.KernelIdeal.nD => Cert.KernelIdeal.Sid.sid_range (Cert.KernelIdeal.Entry.cnt m c)
  refine ⟨fun c => Cert.Spec.Y0 (xs0 m c) (ws m c) (s c), fun c => Cert.Spec.Y1 (xs1 m c) (ws m c) (s c),
    fun c => Cert.Spec.Y2 (xs2 m c) (ws m c) (s c), ?_, ?_⟩
  · refine (θ_run Cert.KernelIdeal.defs _ _).mono (fun r h c => ?_) (Cert.KernelIdeal.RunValue.run_all m ρ)
    exact ⟨(h c _ (mem_uc main_v22 (by decide))).trans (Cert.KernelIdeal.Value.out0 m ρ c (s c) (hs c)),
      (h c _ (mem_uc main_v26 (by decide))).trans (Cert.KernelIdeal.Value.out1 m ρ c (s c) (hs c)),
      (h c _ (mem_uc main_v30 (by decide))).trans (Cert.KernelIdeal.Value.out2 m ρ c (s c) (hs c)),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c)⟩
  · refine (θ_run Cert.ReferenceIdeal.defs _ _).mono (fun r h c => ?_) (Cert.ReferenceIdeal.RefRun.run m' ρ')
    obtain ⟨h0, h1, h2, ha⟩ := h c
    have hs' : ∀ n : Fin 8192, Cert.ReferenceIdeal.RefRun.sid (Cert.KernelIdeal.Entry.cnt m c) (ix1 n) = BitVec.ofNat 32 ((s c) n).val :=
      fun n => (congrFun (sid_eq _) _).trans (hs c n)
    refine ⟨h0.trans ?_, h1.trans ?_, h2.trans ?_, ha⟩
    · rw [(hagree c).1, (hagree c).2.2.2.1, (hagree c).2.2.2.2]
      exact Cert.ReferenceIdeal.RefValue.res0_eq _ _ _ (s c) hs'
    · rw [(hagree c).2.1, (hagree c).2.2.2.1, (hagree c).2.2.2.2]
      exact Cert.ReferenceIdeal.RefValue.res1_eq _ _ _ (s c) hs'
    · rw [(hagree c).2.2.1, (hagree c).2.2.2.1, (hagree c).2.2.2.2]
      exact Cert.ReferenceIdeal.RefValue.res2_eq _ _ _ (s c) hs'

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
